-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S2x3x8192 : Shape := ⟨3, ![2, 3, 8192]⟩
abbrev S2x1x8192 : Shape := ⟨3, ![2, 1, 8192]⟩
abbrev S1x8192x3 : Shape := ⟨3, ![1, 8192, 3]⟩
abbrev S1x3x8192 : Shape := ⟨3, ![1, 3, 8192]⟩
abbrev S1x1x8192 : Shape := ⟨3, ![1, 1, 8192]⟩
abbrev S8192x128 : Shape := ⟨2, ![8192, 128]⟩
abbrev S8192x3 : Shape := ⟨2, ![8192, 3]⟩
abbrev S8192x1 : Shape := ⟨2, ![8192, 1]⟩
abbrev S1x3x128 : Shape := ⟨3, ![1, 3, 128]⟩
abbrev S3x128 : Shape := ⟨2, ![3, 128]⟩
abbrev S1x128 : Shape := ⟨2, ![1, 128]⟩
abbrev S128 : Shape := ⟨1, ![128]⟩
abbrev S1x1x128 : Shape := ⟨3, ![1, 1, 128]⟩
abbrev S8192 : Shape := ⟨1, ![8192]⟩
abbrev S1x8192 : Shape := ⟨2, ![1, 8192]⟩
abbrev S2x8192 : Shape := ⟨2, ![2, 8192]⟩
abbrev S_ : Shape := ⟨0, ![]⟩
abbrev S2x3 : Shape := ⟨2, ![2, 3]⟩
abbrev S2x1x3 : Shape := ⟨3, ![2, 1, 3]⟩

abbrev nBuf : Space → Nat
  | .hbm => 61
  | .vmem => 18
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x3x8192, .f32⟩
  | .hbm, ⟨3, _⟩ => ⟨S2x1x8192, .f32⟩
  | .hbm, ⟨4, _⟩ => ⟨S2x1x8192, .f32⟩
  | .hbm, ⟨5, _⟩ => ⟨S2x8192, .f32⟩
  | .hbm, ⟨6, _⟩ => ⟨S2x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x8192x3, .i1⟩
  | .hbm, ⟨17, _⟩ => ⟨S_, .f32⟩
  | .hbm, ⟨18, _⟩ => ⟨S_, .f32⟩
  | .hbm, ⟨19, _⟩ => ⟨S2x8192x3, .f32⟩
  | .hbm, ⟨20, _⟩ => ⟨S2x8192x3, .f32⟩
  | .hbm, ⟨21, _⟩ => ⟨S_, .f32⟩
  | .hbm, ⟨22, _⟩ => ⟨S2x3, .f32⟩
  | .hbm, ⟨23, _⟩ => ⟨S2x1x3, .f32⟩
  | .hbm, ⟨24, _⟩ => ⟨S2x8192x3, .f32⟩
  | .hbm, ⟨25, _⟩ => ⟨S2x8192x3, .f32⟩
  | .hbm, ⟨26, _⟩ => ⟨S_, .f32⟩
  | .hbm, ⟨27, _⟩ => ⟨S2x8192x3, .f32⟩
  | .hbm, ⟨28, _⟩ => ⟨S2x8192x3, .f32⟩
  | .hbm, ⟨29, _⟩ => ⟨S2x8192x3, .i32⟩
  | .hbm, ⟨30, _⟩ => ⟨S2x8192x3, .f32⟩
  | .hbm, ⟨31, _⟩ => ⟨S2x8192x3, .i1⟩
  | .hbm, ⟨32, _⟩ => ⟨S_, .f32⟩
  | .hbm, ⟨33, _⟩ => ⟨S_, .f32⟩
  | .hbm, ⟨34, _⟩ => ⟨S2x8192x3, .f32⟩
  | .hbm, ⟨35, _⟩ => ⟨S2x8192x3, .f32⟩
  | .hbm, ⟨36, _⟩ => ⟨S_, .f32⟩
  | .hbm, ⟨37, _⟩ => ⟨S2x3, .f32⟩
  | .hbm, ⟨38, _⟩ => ⟨S2x1x3, .f32⟩
  | .hbm, ⟨39, _⟩ => ⟨S2x8192x3, .f32⟩
  | .hbm, ⟨40, _⟩ => ⟨S2x8192x3, .f32⟩
  | .hbm, ⟨41, _⟩ => ⟨S_, .f32⟩
  | .hbm, ⟨42, _⟩ => ⟨S2x8192x3, .f32⟩
  | .hbm, ⟨43, _⟩ => ⟨S2x8192x3, .f32⟩
  | .hbm, ⟨44, _⟩ => ⟨S2x8192x3, .i32⟩
  | .hbm, ⟨45, _⟩ => ⟨S2x8192x3, .f32⟩
  | .hbm, ⟨46, _⟩ => ⟨S2x3x8192, .f32⟩
  | .hbm, ⟨47, _⟩ => ⟨S2x1x8192, .f32⟩
  | .hbm, ⟨48, _⟩ => ⟨S2x1x8192, .f32⟩
  | .hbm, ⟨49, _⟩ => ⟨S2x8192, .f32⟩
  | .hbm, ⟨50, _⟩ => ⟨S2x8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S1x8192x3, .f32⟩
  | .local _ .vmem, ⟨1, _⟩ => ⟨S1x8192x3, .f32⟩
  | .local _ .vmem, ⟨2, _⟩ => ⟨S1x3x8192, .f32⟩
  | .local _ .vmem, ⟨3, _⟩ => ⟨S1x3x8192, .f32⟩
  | .local _ .vmem, ⟨4, _⟩ => ⟨S1x1x8192, .f32⟩
  | .local _ .vmem, ⟨5, _⟩ => ⟨S1x1x8192, .f32⟩
  | .local _ .vmem, ⟨6, _⟩ => ⟨S1x1x8192, .f32⟩
  | .local _ .vmem, ⟨7, _⟩ => ⟨S1x1x8192, .f32⟩
  | .local _ .vmem, ⟨8, _⟩ => ⟨S8192x128, .f32⟩
  | .local _ .vmem, ⟨9, _⟩ => ⟨S1x8192x3, .f32⟩
  | .local _ .vmem, ⟨10, _⟩ => ⟨S1x8192x3, .f32⟩
  | .local _ .vmem, ⟨11, _⟩ => ⟨S1x3x8192, .f32⟩
  | .local _ .vmem, ⟨12, _⟩ => ⟨S1x3x8192, .f32⟩
  | .local _ .vmem, ⟨13, _⟩ => ⟨S1x1x8192, .f32⟩
  | .local _ .vmem, ⟨14, _⟩ => ⟨S1x1x8192, .f32⟩
  | .local _ .vmem, ⟨15, _⟩ => ⟨S1x1x8192, .f32⟩
  | .local _ .vmem, ⟨16, _⟩ => ⟨S1x1x8192, .f32⟩
  | .local _ .vmem, ⟨17, _⟩ => ⟨S8192x128, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c64_i32 : BitVec 32 := 64#32
  let v9 : BitVec 32 := Scalar.addi c0_i32 c64_i32
  let c1_i32 : BitVec 32 := 1#32
  ⟨c0_i32, v9, c1_i32⟩
def k0_mult1 (k0_t1 : Fin k0_t1_loop.trips) : BitVec 32 :=
  let c0_i32_12 : BitVec 32 := 0#32
  let c0_i32 : BitVec 32 := 0#32
  let c1_i32 : BitVec 32 := 1#32
  let arg6 : BitVec 32 := Scf.iv c0_i32 c1_i32 k0_t1
  let c1_i32_11 : BitVec 32 := 1#32
  let v16 : BitVec 32 := Scalar.muli arg6 c1_i32_11
  let v17 : BitVec 32 := Scalar.addi c0_i32_12 v16
  let c128_i32 : BitVec 32 := 128#32
  let v18 : BitVec 32 := Scalar.muli v17 c128_i32
  v18
def k0_off1 (k0_t1 : Fin k0_t1_loop.trips) : Fin 3 → Nat :=
  let c0_13 : Index := 0#32
  let c0_14 : Index := 0#32
  let c0_i32_12 : BitVec 32 := 0#32
  let c0_i32 : BitVec 32 := 0#32
  let c1_i32 : BitVec 32 := 1#32
  let arg6 : BitVec 32 := Scf.iv c0_i32 c1_i32 k0_t1
  let c1_i32_11 : BitVec 32 := 1#32
  let v16 : BitVec 32 := Scalar.muli arg6 c1_i32_11
  let v17 : BitVec 32 := Scalar.addi c0_i32_12 v16
  let c128_i32 : BitVec 32 := 128#32
  let v18 : BitVec 32 := Scalar.muli v17 c128_i32
  let v19 : BitVec 32 := v18
  let v20 : Index := Scalar.indexCast v19
  ![0, 0, v20.toNat]
def k0_off2 (k0_t1 : Fin k0_t1_loop.trips) : Fin 3 → Nat :=
  let c0_20 : Index := 0#32
  let c0_21 : Index := 0#32
  let c0_i32_12 : BitVec 32 := 0#32
  let c0_i32 : BitVec 32 := 0#32
  let c1_i32 : BitVec 32 := 1#32
  let arg6 : BitVec 32 := Scf.iv c0_i32 c1_i32 k0_t1
  let c1_i32_11 : BitVec 32 := 1#32
  let v16 : BitVec 32 := Scalar.muli arg6 c1_i32_11
  let v17 : BitVec 32 := Scalar.addi c0_i32_12 v16
  let c128_i32 : BitVec 32 := 128#32
  let v18 : BitVec 32 := Scalar.muli v17 c128_i32
  let v19 : BitVec 32 := v18
  let v47 : Index := Scalar.indexCast v19
  ![0, 0, v47.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2], ![false]⟩

@[reducible] def k1_t1_loop : Scf.Loop 32 :=
  let c0_i32 : BitVec 32 := 0#32
  let c64_i32 : BitVec 32 := 64#32
  let v9 : BitVec 32 := Scalar.addi c0_i32 c64_i32
  let c1_i32 : BitVec 32 := 1#32
  ⟨c0_i32, v9, c1_i32⟩
def k1_mult1 (k1_t1 : Fin k1_t1_loop.trips) : BitVec 32 :=
  let c0_i32_12 : BitVec 32 := 0#32
  let c0_i32 : BitVec 32 := 0#32
  let c1_i32 : BitVec 32 := 1#32
  let arg6 : BitVec 32 := Scf.iv c0_i32 c1_i32 k1_t1
  let c1_i32_11 : BitVec 32 := 1#32
  let v16 : BitVec 32 := Scalar.muli arg6 c1_i32_11
  let v17 : BitVec 32 := Scalar.addi c0_i32_12 v16
  let c128_i32 : BitVec 32 := 128#32
  let v18 : BitVec 32 := Scalar.muli v17 c128_i32
  v18
def k1_off1 (k1_t1 : Fin k1_t1_loop.trips) : Fin 3 → Nat :=
  let c0_13 : Index := 0#32
  let c0_14 : Index := 0#32
  let c0_i32_12 : BitVec 32 := 0#32
  let c0_i32 : BitVec 32 := 0#32
  let c1_i32 : BitVec 32 := 1#32
  let arg6 : BitVec 32 := Scf.iv c0_i32 c1_i32 k1_t1
  let c1_i32_11 : BitVec 32 := 1#32
  let v16 : BitVec 32 := Scalar.muli arg6 c1_i32_11
  let v17 : BitVec 32 := Scalar.addi c0_i32_12 v16
  let c128_i32 : BitVec 32 := 128#32
  let v18 : BitVec 32 := Scalar.muli v17 c128_i32
  let v19 : BitVec 32 := v18
  let v20 : Index := Scalar.indexCast v19
  ![0, 0, v20.toNat]
def k1_off2 (k1_t1 : Fin k1_t1_loop.trips) : Fin 3 → Nat :=
  let c0_20 : Index := 0#32
  let c0_21 : Index := 0#32
  let c0_i32_12 : BitVec 32 := 0#32
  let c0_i32 : BitVec 32 := 0#32
  let c1_i32 : BitVec 32 := 1#32
  let arg6 : BitVec 32 := Scf.iv c0_i32 c1_i32 k1_t1
  let c1_i32_11 : BitVec 32 := 1#32
  let v16 : BitVec 32 := Scalar.muli arg6 c1_i32_11
  let v17 : BitVec 32 := Scalar.addi c0_i32_12 v16
  let c128_i32 : BitVec 32 := 128#32
  let v18 : BitVec 32 := Scalar.muli v17 c128_i32
  let v19 : BitVec 32 := v18
  let v47 : Index := Scalar.indexCast v19
  ![0, 0, v47.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8192x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S2x8192x3_S2x3x8192_0_2_1 : S2x8192x3.Transposes [0, 2, 1] S2x3x8192
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  slices_S8192x3_o0_0_S8192x1 : S8192x3.Slices ![0, 0] S8192x1
  slices_S8192x3_o0_1_S8192x1 : S8192x3.Slices ![0, 1] S8192x1
  slices_S8192x3_o0_2_S8192x1 : S8192x3.Slices ![0, 2] S8192x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  h_S1x3x128 : 0 < S1x3x128.numel
  shapeCasts_S1x3x128_S3x128 : S1x3x128.ShapeCasts S3x128
  slices_S3x128_o0_0_S1x128 : S3x128.Slices ![0, 0] S1x128
  slices_S3x128_o1_0_S1x128 : S3x128.Slices ![1, 0] S1x128
  slices_S3x128_o2_0_S1x128 : S3x128.Slices ![2, 0] S1x128
  broadcasts_S8192x1_S8192x128 : S8192x1.Broadcasts S8192x128
  broadcasts_S1x128_S8192x128 : S1x128.Broadcasts S8192x128
  reduces_S8192x128_S128 : S8192x128.Reduces [0] S128
  shapeCasts_S128_S1x128 : S128.ShapeCasts S1x128
  h_S1x1x128 : 0 < S1x1x128.numel
  shapeCasts_S1x1x128_S1x128 : S1x1x128.ShapeCasts S1x128
  shapeCasts_S1x128_S1x1x128 : S1x128.ShapeCasts S1x1x128
  reduces_S8192x128_S8192 : S8192x128.Reduces [1] S8192
  shapeCasts_S8192_S1x8192 : S8192.ShapeCasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S2x1x8192_S2x8192 : S2x1x8192.ShapeCasts S2x8192
  reducesTo_S2x8192_S_d0_1 : S2x8192.ReducesTo [0, 1] S_
  h_S_ : 0 < S_.numel
  bcast_S_S2x8192x3 : S_.BroadcastsInDim S2x8192x3 (![] : Fin 0 → Fin S2x8192x3.rank)
  reducesTo_S2x8192x3_S2x3_d1 : S2x8192x3.ReducesTo [1] S2x3
  bcast_S2x3_S2x1x3_0_2 : S2x3.BroadcastsInDim S2x1x3 (![0, 2] : Fin 2 → Fin S2x1x3.rank)
  bcast_S2x1x3_S2x8192x3_0_1_2 : S2x1x3.BroadcastsInDim S2x8192x3 (![0, 1, 2] : Fin 3 → Fin S2x8192x3.rank)
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x3x128.size a ≤ S1x3x8192.size a
  k0_off2_inb : ∀ k0_t1 : Fin k0_t1_loop.trips, ∀ a, (k0_off2 k0_t1) a + S1x1x128.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S2x8192x3.size a
  hwx0_0 : ∀ i : grid0.Coords, EltTy.bits .f32 = 32 ∨ (Rect.block (s := S2x8192x3) S1x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S2x3x8192.size a
  hwx0_1 : ∀ i : grid0.Coords, EltTy.bits .f32 = 32 ∨ (Rect.block (s := S2x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S2x1x8192.size a
  hwx0_2 : ∀ i : grid0.Coords, EltTy.bits .f32 = 32 ∨ (Rect.block (s := S2x1x8192) S1x1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S2x1x8192.size a
  hwx0_3 : ∀ i : grid0.Coords, EltTy.bits .f32 = 32 ∨ (Rect.block (s := S2x1x8192) S1x1x8192.size (cc0_transform_3 i) (hinb0_3 i)).WholeWords (EltTy.packing .f32)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S1x3x128.size a ≤ S1x3x8192.size a
  k1_off2_inb : ∀ k1_t1 : Fin k1_t1_loop.trips, ∀ a, (k1_off2 k1_t1) a + S1x1x128.size a ≤ S1x1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x3.size a ≤ S2x8192x3.size a
  hwx1_0 : ∀ i : grid1.Coords, EltTy.bits .f32 = 32 ∨ (Rect.block (s := S2x8192x3) S1x8192x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x8192.size a ≤ S2x3x8192.size a
  hwx1_1 : ∀ i : grid1.Coords, EltTy.bits .f32 = 32 ∨ (Rect.block (s := S2x3x8192) S1x3x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x8192.size a ≤ S2x1x8192.size a
  hwx1_2 : ∀ i : grid1.Coords, EltTy.bits .f32 = 32 ∨ (Rect.block (s := S2x1x8192) S1x1x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x8192.size a ≤ S2x1x8192.size a
  hwx1_3 : ∀ i : grid1.Coords, EltTy.bits .f32 = 32 ∨ (Rect.block (s := S2x1x8192) S1x1x8192.size (cc1_transform_3 i) (hinb1_3 i)).WholeWords (EltTy.packing .f32)

variable [Facts₀]

abbrev win0_0 : Pipeline.Window sig grid0 :=
  Pipeline.Window.ofSpec (Memref.whole main_arg0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S1x8192x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x3x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30_0) S1x1x8192.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30_1) S1x1x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩
abbrev S2x3 : Shape := ⟨2, ![2, 3]⟩
abbrev S2x1x3 : Shape := ⟨3, ![2, 1, 3]⟩

abbrev nBuf : Space → Nat
  | .hbm => 91
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x8192x8192, .f32⟩
  | .hbm, ⟨9, _⟩ => ⟨S2x8192x1, .f32⟩
  | .hbm, ⟨10, _⟩ => ⟨S2x1x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192, .f32⟩
  | .hbm, ⟨20, _⟩ => ⟨S_, .f32⟩
  | .hbm, ⟨21, _⟩ => ⟨S2x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x8192x3, .i1⟩
  | .hbm, ⟨32, _⟩ => ⟨S_, .f32⟩
  | .hbm, ⟨33, _⟩ => ⟨S_, .f32⟩
  | .hbm, ⟨34, _⟩ => ⟨S2x8192x3, .f32⟩
  | .hbm, ⟨35, _⟩ => ⟨S2x8192x3, .f32⟩
  | .hbm, ⟨36, _⟩ => ⟨S_, .f32⟩
  | .hbm, ⟨37, _⟩ => ⟨S2x3, .f32⟩
  | .hbm, ⟨38, _⟩ => ⟨S2x1x3, .f32⟩
  | .hbm, ⟨39, _⟩ => ⟨S2x8192x3, .f32⟩
  | .hbm, ⟨40, _⟩ => ⟨S2x8192x3, .f32⟩
  | .hbm, ⟨41, _⟩ => ⟨S_, .f32⟩
  | .hbm, ⟨42, _⟩ => ⟨S2x8192x3, .f32⟩
  | .hbm, ⟨43, _⟩ => ⟨S2x8192x3, .f32⟩
  | .hbm, ⟨44, _⟩ => ⟨S2x8192x3, .i32⟩
  | .hbm, ⟨45, _⟩ => ⟨S2x8192x3, .f32⟩
  | .hbm, ⟨46, _⟩ => ⟨S2x8192x3, .i1⟩
  | .hbm, ⟨47, _⟩ => ⟨S_, .f32⟩
  | .hbm, ⟨48, _⟩ => ⟨S_, .f32⟩
  | .hbm, ⟨49, _⟩ => ⟨S2x8192x3, .f32⟩
  | .hbm, ⟨50, _⟩ => ⟨S2x8192x3, .f32⟩
  | .hbm, ⟨51, _⟩ => ⟨S_, .f32⟩
  | .hbm, ⟨52, _⟩ => ⟨S2x3, .f32⟩
  | .hbm, ⟨53, _⟩ => ⟨S2x1x3, .f32⟩
  | .hbm, ⟨54, _⟩ => ⟨S2x8192x3, .f32⟩
  | .hbm, ⟨55, _⟩ => ⟨S2x8192x3, .f32⟩
  | .hbm, ⟨56, _⟩ => ⟨S_, .f32⟩
  | .hbm, ⟨57, _⟩ => ⟨S2x8192x3, .f32⟩
  | .hbm, ⟨58, _⟩ => ⟨S2x8192x3, .f32⟩
  | .hbm, ⟨59, _⟩ => ⟨S2x8192x3, .i32⟩
  | .hbm, ⟨60, _⟩ => ⟨S2x8192x3, .f32⟩
  | .hbm, ⟨61, _⟩ => ⟨S2x8192x3, .f32⟩
  | .hbm, ⟨62, _⟩ => ⟨S_, .f32⟩
  | .hbm, ⟨63, _⟩ => ⟨S2x8192, .f32⟩
  | .hbm, ⟨64, _⟩ => ⟨S2x8192x3, .f32⟩
  | .hbm, ⟨65, _⟩ => ⟨S_, .f32⟩
  | .hbm, ⟨66, _⟩ => ⟨S2x8192, .f32⟩
  | .hbm, ⟨67, _⟩ => ⟨S2x8192x8192, .f32⟩
  | .hbm, ⟨68, _⟩ => ⟨S2x8192x1, .f32⟩
  | .hbm, ⟨69, _⟩ => ⟨S2x1x8192, .f32⟩
  | .hbm, ⟨70, _⟩ => ⟨S2x8192x8192, .f32⟩
  | .hbm, ⟨71, _⟩ => ⟨S2x8192x8192, .f32⟩
  | .hbm, ⟨72, _⟩ => ⟨S2x8192x8192, .f32⟩
  | .hbm, ⟨73, _⟩ => ⟨S_, .f32⟩
  | .hbm, ⟨74, _⟩ => ⟨S2x8192x8192, .f32⟩
  | .hbm, ⟨75, _⟩ => ⟨S2x8192x8192, .f32⟩
  | .hbm, ⟨76, _⟩ => ⟨S2x8192x8192, .f32⟩
  | .hbm, ⟨77, _⟩ => ⟨S_, .f32⟩
  | .hbm, ⟨78, _⟩ => ⟨S2x8192, .f32⟩
  | .hbm, ⟨79, _⟩ => ⟨S_, .f32⟩
  | .hbm, ⟨80, _⟩ => ⟨S2x8192, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_cst_9 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_11 : Ref sig .tc := ⟨.hbm, 47, rfl⟩
abbrev main_call1_v0 : Ref sig .tc := ⟨.hbm, 48, rfl⟩
abbrev main_call1_v1 : Ref sig .tc := ⟨.hbm, 49, rfl⟩
abbrev main_v31 : Ref sig .tc := ⟨.hbm, 50, rfl⟩
abbrev main_cst_12 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_13 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_14 : Ref sig .tc := ⟨.hbm, 62, rfl⟩
abbrev main_v41 : Ref sig .tc := ⟨.hbm, 63, rfl⟩
abbrev main_v42 : Ref sig .tc := ⟨.hbm, 64, rfl⟩
abbrev main_cst_15 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_17 : Ref sig .tc := ⟨.hbm, 77, rfl⟩
abbrev main_v53 : Ref sig .tc := ⟨.hbm, 78, rfl⟩
abbrev main_cst_18 : Ref sig .tc := ⟨.hbm, 79, rfl⟩
abbrev main_v54 : Ref sig .tc := ⟨.hbm, 80, rfl⟩
abbrev main_cst_19 : Ref sig .tc := ⟨.hbm, 81, rfl⟩
abbrev main_v55 : Ref sig .tc := ⟨.hbm, 82, rfl⟩
abbrev main_cst_20 : Ref sig .tc := ⟨.hbm, 83, rfl⟩
abbrev main_v56 : Ref sig .tc := ⟨.hbm, 84, rfl⟩
abbrev main_cst_21 : Ref sig .tc := ⟨.hbm, 85, rfl⟩
abbrev main_v57 : Ref sig .tc := ⟨.hbm, 86, rfl⟩
abbrev main_cst_22 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192x8192_S2x8192_d1 : S2x8192x8192.ReducesTo [1] S2x8192
  reducesTo_S2x8192_S_d0_1 : S2x8192.ReducesTo [0, 1] S_
  bcast_S_S2x8192x3 : S_.BroadcastsInDim S2x8192x3 (![] : Fin 0 → Fin S2x8192x3.rank)
  reducesTo_S2x8192x3_S2x3_d1 : S2x8192x3.ReducesTo [1] S2x3
  bcast_S2x3_S2x1x3_0_2 : S2x3.BroadcastsInDim S2x1x3 (![0, 2] : Fin 2 → Fin S2x1x3.rank)
  bcast_S2x1x3_S2x8192x3_0_1_2 : S2x1x3.BroadcastsInDim S2x8192x3 (![0, 1, 2] : Fin 3 → Fin S2x8192x3.rank)
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.LoopIndepK.lean ====
/-
  The counted loop of the kernel body stores, each trip, one tile of the per-column minima and the running
  elementwise minimum. Neither store reads the per-column output, so the list of stores the loop makes does not
  depend on what that output held when the loop began.
-/
import proofs.«144590_j13589276525289_2_alg».proof.Proof.Gen.Kernel.Loops

noncomputable section

namespace Cert.Kernel.LoopIndep

open Idealize.ShloMosaic Idealize.ShloMosaic.TcCoe Idealize.SL.Sem
open Cert.Kernel Cert.Kernel.Gen

variable {F : FTy → Type} [FloatOps F]

/-- One trip's stores do not depend on what the trip finds in the per-column output: what it leaves there is a
    function of the tile it reads alone, and what it leaves in the scratch is a function of the tile and the scratch. -/
theorem tripL_k0_indep (𝒱 : Variants) (c : Dev nD) (bd : Option 𝒱.V) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (k : Fin k0_t1_loop.trips) (f4 f4' : BufTy.Contents (Elt F) arg4.view.ty) (f5 : BufTy.Contents (Elt F) arg5.view.ty) :
    tripL_k0_t1 (F := F) 𝒱 c bd i arg1 harg1 arg2 harg2 arg3 harg3 arg4 harg4 arg5 harg5 v0 X_arg2 k f4 f5 = tripL_k0_t1 (F := F) 𝒱 c bd i arg1 harg1 arg2 harg2 arg3 harg3 arg4 harg4 arg5 harg5 v0 X_arg2 k f4' f5 := by
  unfold tripL_k0_t1 trip_k0_t1
  rfl

/-- Hence the pieces of the trips before any trip do not depend on the contents the per-column output had when the
    loop was entered. -/
theorem pb_k0_indep (𝒱 : Variants) (c : Dev nD) (bd : Option 𝒱.V) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G4 G4' : BufTy.Contents (Elt F) arg4.view.ty) (G5 : BufTy.Contents (Elt F) arg5.view.ty) :
    ∀ n : ℕ, pb_k0_t1 (F := F) 𝒱 c bd i arg1 harg1 arg2 harg2 arg3 harg3 arg4 harg4 arg5 harg5 v0 X_arg2 G4 G5 n = pb_k0_t1 (F := F) 𝒱 c bd i arg1 harg1 arg2 harg2 arg3 harg3 arg4 harg4 arg5 harg5 v0 X_arg2 G4' G5 n
  | 0 => rfl
  | n + 1 => by
    rw [pb_k0_t1.eq_2, pb_k0_t1.eq_2, pb_k0_indep 𝒱 c bd i arg1 harg1 arg2 harg2 arg3 harg3 arg4 harg4 arg5 harg5 v0 X_arg2 G4 G4' G5 n]
    unfold pb_k0_t1Step
    by_cases h : n < k0_t1_loop.trips
    · rw [dif_pos h, dif_pos h, tripL_k0_indep 𝒱 c bd i arg1 harg1 arg2 harg2 arg3 harg3 arg4 harg4 arg5 harg5 v0 X_arg2 ⟨n, h⟩ _ (arg4.view.writes (Elt F) G4' (pb_k0_t1 (F := F) 𝒱 c bd i arg1 harg1 arg2 harg2 arg3 harg3 arg4 harg4 arg5 harg5 v0 X_arg2 G4' G5 n).1)]
    · rw [dif_neg h, dif_neg h]

/-- The same with the entry contents replaced by the view's unspecified contents: the form in which the pieces name
    nothing but the kernel's operands. -/
theorem pb_k0_junk (𝒱 : Variants) (c : Dev nD) (bd : Option 𝒱.V) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G4 : BufTy.Contents (Elt F) arg4.view.ty) (G5 : BufTy.Contents (Elt F) arg5.view.ty) (n : ℕ) :
    pb_k0_t1 (F := F) 𝒱 c bd i arg1 harg1 arg2 harg2 arg3 harg3 arg4 harg4 arg5 harg5 v0 X_arg2 G4 G5 n = pb_k0_t1 (F := F) 𝒱 c bd i arg1 harg1 arg2 harg2 arg3 harg3 arg4 harg4 arg5 harg5 v0 X_arg2 arg4.view.junk G5 n :=
  pb_k0_indep 𝒱 c bd i arg1 harg1 arg2 harg2 arg3 harg3 arg4 harg4 arg5 harg5 v0 X_arg2 G4 arg4.view.junk G5 n

/-- One trip's stores do not depend on what the trip finds in the per-column output: what it leaves there is a
    function of the tile it reads alone, and what it leaves in the scratch is a function of the tile and the scratch. -/
theorem tripL_k1_indep (𝒱 : Variants) (c : Dev nD) (bd : Option 𝒱.V) (i : grid1.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (k : Fin k1_t1_loop.trips) (f4 f4' : BufTy.Contents (Elt F) arg4.view.ty) (f5 : BufTy.Contents (Elt F) arg5.view.ty) :
    tripL_k1_t1 (F := F) 𝒱 c bd i arg1 harg1 arg2 harg2 arg3 harg3 arg4 harg4 arg5 harg5 v0 X_arg2 k f4 f5 = tripL_k1_t1 (F := F) 𝒱 c bd i arg1 harg1 arg2 harg2 arg3 harg3 arg4 harg4 arg5 harg5 v0 X_arg2 k f4' f5 := by
  unfold tripL_k1_t1 trip_k1_t1
  rfl

/-- Hence the pieces of the trips before any trip do not depend on the contents the per-column output had when the
    loop was entered. -/
theorem pb_k1_indep (𝒱 : Variants) (c : Dev nD) (bd : Option 𝒱.V) (i : grid1.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G4 G4' : BufTy.Contents (Elt F) arg4.view.ty) (G5 : BufTy.Contents (Elt F) arg5.view.ty) :
    ∀ n : ℕ, pb_k1_t1 (F := F) 𝒱 c bd i arg1 harg1 arg2 harg2 arg3 harg3 arg4 harg4 arg5 harg5 v0 X_arg2 G4 G5 n = pb_k1_t1 (F := F) 𝒱 c bd i arg1 harg1 arg2 harg2 arg3 harg3 arg4 harg4 arg5 harg5 v0 X_arg2 G4' G5 n
  | 0 => rfl
  | n + 1 => by
    rw [pb_k1_t1.eq_2, pb_k1_t1.eq_2, pb_k1_indep 𝒱 c bd i arg1 harg1 arg2 harg2 arg3 harg3 arg4 harg4 arg5 harg5 v0 X_arg2 G4 G4' G5 n]
    unfold pb_k1_t1Step
    by_cases h : n < k1_t1_loop.trips
    · rw [dif_pos h, dif_pos h, tripL_k1_indep 𝒱 c bd i arg1 harg1 arg2 harg2 arg3 harg3 arg4 harg4 arg5 harg5 v0 X_arg2 ⟨n, h⟩ _ (arg4.view.writes (Elt F) G4' (pb_k1_t1 (F := F) 𝒱 c bd i arg1 harg1 arg2 harg2 arg3 harg3 arg4 harg4 arg5 harg5 v0 X_arg2 G4' G5 n).1)]
    · rw [dif_neg h, dif_neg h]

/-- The same with the entry contents replaced by the view's unspecified contents: the form in which the pieces name
    nothing but the kernel's operands. -/
theorem pb_k1_junk (𝒱 : Variants) (c : Dev nD) (bd : Option 𝒱.V) (i : grid1.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G4 : BufTy.Contents (Elt F) arg4.view.ty) (G5 : BufTy.Contents (Elt F) arg5.view.ty) (n : ℕ) :
    pb_k1_t1 (F := F) 𝒱 c bd i arg1 harg1 arg2 harg2 arg3 harg3 arg4 harg4 arg5 harg5 v0 X_arg2 G4 G5 n = pb_k1_t1 (F := F) 𝒱 c bd i arg1 harg1 arg2 harg2 arg3 harg3 arg4 harg4 arg5 harg5 v0 X_arg2 arg4.view.junk G5 n :=
  pb_k1_indep 𝒱 c bd i arg1 harg1 arg2 harg2 arg3 harg3 arg4 harg4 arg5 harg5 v0 X_arg2 G4 arg4.view.junk G5 n

end Cert.Kernel.LoopIndep

end
-- ==== Proof.LoopIndepI.lean ====
/-
  The counted loop of the kernel body stores, each trip, one tile of the per-column minima and the running
  elementwise minimum. Neither store reads the per-column output, so the list of stores the loop makes does not
  depend on what that output held when the loop began.
-/
import proofs.«144590_j13589276525289_2_alg».proof.Proof.Gen.KernelIdeal.Loops

noncomputable section

namespace Cert.KernelIdeal.LoopIndep

open Idealize.ShloMosaic Idealize.ShloMosaic.TcCoe Idealize.SL.Sem
open Cert.KernelIdeal Cert.KernelIdeal.Gen

variable {F : FTy → Type} [FloatOps F]

/-- One trip's stores do not depend on what the trip finds in the per-column output: what it leaves there is a
    function of the tile it reads alone, and what it leaves in the scratch is a function of the tile and the scratch. -/
theorem tripL_k0_indep (𝒱 : Variants) (c : Dev nD) (bd : Option 𝒱.V) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (k : Fin k0_t1_loop.trips) (f4 f4' : BufTy.Contents (Elt F) arg4.view.ty) (f5 : BufTy.Contents (Elt F) arg5.view.ty) :
    tripL_k0_t1 (F := F) 𝒱 c bd i arg1 harg1 arg2 harg2 arg3 harg3 arg4 harg4 arg5 harg5 v0 X_arg2 k f4 f5 = tripL_k0_t1 (F := F) 𝒱 c bd i arg1 harg1 arg2 harg2 arg3 harg3 arg4 harg4 arg5 harg5 v0 X_arg2 k f4' f5 := by
  unfold tripL_k0_t1 trip_k0_t1
  rfl

/-- Hence the pieces of the trips before any trip do not depend on the contents the per-column output had when the
    loop was entered. -/
theorem pb_k0_indep (𝒱 : Variants) (c : Dev nD) (bd : Option 𝒱.V) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G4 G4' : BufTy.Contents (Elt F) arg4.view.ty) (G5 : BufTy.Contents (Elt F) arg5.view.ty) :
    ∀ n : ℕ, pb_k0_t1 (F := F) 𝒱 c bd i arg1 harg1 arg2 harg2 arg3 harg3 arg4 harg4 arg5 harg5 v0 X_arg2 G4 G5 n = pb_k0_t1 (F := F) 𝒱 c bd i arg1 harg1 arg2 harg2 arg3 harg3 arg4 harg4 arg5 harg5 v0 X_arg2 G4' G5 n
  | 0 => rfl
  | n + 1 => by
    rw [pb_k0_t1.eq_2, pb_k0_t1.eq_2, pb_k0_indep 𝒱 c bd i arg1 harg1 arg2 harg2 arg3 harg3 arg4 harg4 arg5 harg5 v0 X_arg2 G4 G4' G5 n]
    unfold pb_k0_t1Step
    by_cases h : n < k0_t1_loop.trips
    · rw [dif_pos h, dif_pos h, tripL_k0_indep 𝒱 c bd i arg1 harg1 arg2 harg2 arg3 harg3 arg4 harg4 arg5 harg5 v0 X_arg2 ⟨n, h⟩ _ (arg4.view.writes (Elt F) G4' (pb_k0_t1 (F := F) 𝒱 c bd i arg1 harg1 arg2 harg2 arg3 harg3 arg4 harg4 arg5 harg5 v0 X_arg2 G4' G5 n).1)]
    · rw [dif_neg h, dif_neg h]

/-- The same with the entry contents replaced by the view's unspecified contents: the form in which the pieces name
    nothing but the kernel's operands. -/
theorem pb_k0_junk (𝒱 : Variants) (c : Dev nD) (bd : Option 𝒱.V) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G4 : BufTy.Contents (Elt F) arg4.view.ty) (G5 : BufTy.Contents (Elt F) arg5.view.ty) (n : ℕ) :
    pb_k0_t1 (F := F) 𝒱 c bd i arg1 harg1 arg2 harg2 arg3 harg3 arg4 harg4 arg5 harg5 v0 X_arg2 G4 G5 n = pb_k0_t1 (F := F) 𝒱 c bd i arg1 harg1 arg2 harg2 arg3 harg3 arg4 harg4 arg5 harg5 v0 X_arg2 arg4.view.junk G5 n :=
  pb_k0_indep 𝒱 c bd i arg1 harg1 arg2 harg2 arg3 harg3 arg4 harg4 arg5 harg5 v0 X_arg2 G4 arg4.view.junk G5 n

/-- One trip's stores do not depend on what the trip finds in the per-column output: what it leaves there is a
    function of the tile it reads alone, and what it leaves in the scratch is a function of the tile and the scratch. -/
theorem tripL_k1_indep (𝒱 : Variants) (c : Dev nD) (bd : Option 𝒱.V) (i : grid1.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (k : Fin k1_t1_loop.trips) (f4 f4' : BufTy.Contents (Elt F) arg4.view.ty) (f5 : BufTy.Contents (Elt F) arg5.view.ty) :
    tripL_k1_t1 (F := F) 𝒱 c bd i arg1 harg1 arg2 harg2 arg3 harg3 arg4 harg4 arg5 harg5 v0 X_arg2 k f4 f5 = tripL_k1_t1 (F := F) 𝒱 c bd i arg1 harg1 arg2 harg2 arg3 harg3 arg4 harg4 arg5 harg5 v0 X_arg2 k f4' f5 := by
  unfold tripL_k1_t1 trip_k1_t1
  rfl

/-- Hence the pieces of the trips before any trip do not depend on the contents the per-column output had when the
    loop was entered. -/
theorem pb_k1_indep (𝒱 : Variants) (c : Dev nD) (bd : Option 𝒱.V) (i : grid1.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G4 G4' : BufTy.Contents (Elt F) arg4.view.ty) (G5 : BufTy.Contents (Elt F) arg5.view.ty) :
    ∀ n : ℕ, pb_k1_t1 (F := F) 𝒱 c bd i arg1 harg1 arg2 harg2 arg3 harg3 arg4 harg4 arg5 harg5 v0 X_arg2 G4 G5 n = pb_k1_t1 (F := F) 𝒱 c bd i arg1 harg1 arg2 harg2 arg3 harg3 arg4 harg4 arg5 harg5 v0 X_arg2 G4' G5 n
  | 0 => rfl
  | n + 1 => by
    rw [pb_k1_t1.eq_2, pb_k1_t1.eq_2, pb_k1_indep 𝒱 c bd i arg1 harg1 arg2 harg2 arg3 harg3 arg4 harg4 arg5 harg5 v0 X_arg2 G4 G4' G5 n]
    unfold pb_k1_t1Step
    by_cases h : n < k1_t1_loop.trips
    · rw [dif_pos h, dif_pos h, tripL_k1_indep 𝒱 c bd i arg1 harg1 arg2 harg2 arg3 harg3 arg4 harg4 arg5 harg5 v0 X_arg2 ⟨n, h⟩ _ (arg4.view.writes (Elt F) G4' (pb_k1_t1 (F := F) 𝒱 c bd i arg1 harg1 arg2 harg2 arg3 harg3 arg4 harg4 arg5 harg5 v0 X_arg2 G4' G5 n).1)]
    · rw [dif_neg h, dif_neg h]

/-- The same with the entry contents replaced by the view's unspecified contents: the form in which the pieces name
    nothing but the kernel's operands. -/
theorem pb_k1_junk (𝒱 : Variants) (c : Dev nD) (bd : Option 𝒱.V) (i : grid1.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G4 : BufTy.Contents (Elt F) arg4.view.ty) (G5 : BufTy.Contents (Elt F) arg5.view.ty) (n : ℕ) :
    pb_k1_t1 (F := F) 𝒱 c bd i arg1 harg1 arg2 harg2 arg3 harg3 arg4 harg4 arg5 harg5 v0 X_arg2 G4 G5 n = pb_k1_t1 (F := F) 𝒱 c bd i arg1 harg1 arg2 harg2 arg3 harg3 arg4 harg4 arg5 harg5 v0 X_arg2 arg4.view.junk G5 n :=
  pb_k1_indep 𝒱 c bd i arg1 harg1 arg2 harg2 arg3 harg3 arg4 harg4 arg5 harg5 v0 X_arg2 G4 arg4.view.junk G5 n

end Cert.KernelIdeal.LoopIndep

end
-- ==== Proof.KRun.lean ====
/-
  The run of the kernel program with its result buffer named.

  The generated run of the program establishes that every execution terminates without fault and leaves the two
  argument arrays as launched. Its last step reads the final memory against the buffer contents reached by folding
  the host stretches and the two pipelined regions over the launch memory. The same reading holds at every buffer
  that is not scoped to a region, the result buffer among them; this statement keeps that equation for the result
  beside the two for the arguments.
-/
import proofs.«144590_j13589276525289_2_alg».proof.Proof.FrameI

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the final memory holds, at the
    result buffer, the contents the fold of the program's segments reaches there, and the arguments as launched. -/
theorem run : θ_run defs (onTc (τ := τ) (main (F := F))) ⟨m, fun _ => 0, ρ⟩ (fun r => ∀ c : Dev nD,
      r.2.mem ((c.tc : Thread nD τ).loc main_v38) = W9 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v38 (by decide)),
       (h c _ (mem_uc main_arg0 (by decide))).trans (W9_main_arg0 m ρ c),
       (h c _ (mem_uc main_arg1 (by decide))).trans (W9_main_arg1 m ρ c)⟩)

end Cert.KernelIdeal.KRun

end
-- ==== Proof.KHost.lean ====
/-
  The host operations of the kernel program, read as pure functions.

  Between and around its two pipelined regions the program runs short stretches of array operations. Each stretch is a
  fold over the buffer contents: an operation rewrites its result buffer with its function of its operand buffers and
  leaves every other buffer. Read at one buffer, from arbitrary starting contents `X`, a stretch is therefore a closed
  term in `X` at the buffers it reads. This file names the three functions those terms are built from — the sum of two
  means, the grid coordinates of a cloud, the exchange of a cloud's last two axes — and reads every stretch at the
  buffers a later segment uses; then it composes the five stretches that lie between the two regions.
-/
import proofs.«144590_j13589276525289_2_alg».proof.Proof.Gen.KernelIdeal.Launch
import Idealize.ShloMosaic.Lib.StableHlo.Run

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]

/-! ## The two pure functions the host stretches compute -/

/-- The sum of the means of two per-point arrays: each array [2, 1, 8192] is read as [2, 8192], summed over both
    axes from zero and divided by the number of points, 16384; the two quotients are added. -/
def meanPair (a b : (⟨S2x1x8192, .f32⟩ : BufTy).Contents (Elt F)) : (⟨S_, .f32⟩ : BufTy).Contents (Elt F) :=
  addf
    (Host.divf (Host.reduceAdd (shapeCast S2x8192 a shapeCasts_S2x1x8192_S2x8192) (constant S_ .f32 0x00000000#32)
      reducesTo_S2x8192_S_d0_1 h_S_) (constant S_ .f32 0x46800000#32))
    (Host.divf (Host.reduceAdd (shapeCast S2x8192 b shapeCasts_S2x1x8192_S2x8192) (constant S_ .f32 0x00000000#32)
      reducesTo_S2x8192_S_d0_1 h_S_) (constant S_ .f32 0x46800000#32))

/-- The entries of a cloud that differ from themselves replaced by +∞ (there is no such entry over the extended
    reals; the test is the program's guard against undefined values). -/
def guarded (x : (⟨S2x8192x3, .f32⟩ : BufTy).Contents (Elt F)) : (⟨S2x8192x3, .f32⟩ : BufTy).Contents (Elt F) :=
  select (cmpf .une x x) (broadcastInDim S2x8192x3 ![] bcast_S_S2x8192x3 (id (constant S_ .f32 0x7F800000#32))) x

/-- A cloud moved to a grid: from every coordinate the least value of that coordinate over the batch's points (of the
    guarded cloud, starting from +∞) is subtracted, the difference is divided by the cell size (the f32 nearest 0.1),
    and the quotient is rounded toward zero to an integer and read back as a float. -/
def gridOf (g x : (⟨S2x8192x3, .f32⟩ : BufTy).Contents (Elt F)) : (⟨S2x8192x3, .f32⟩ : BufTy).Contents (Elt F) :=
  sitofp .f32 (fptosi 32 (Host.divf
    (subf x (broadcastInDim S2x8192x3 ![0, 1, 2] bcast_S2x1x3_S2x8192x3_0_1_2 (broadcastInDim S2x1x3 ![0, 2] bcast_S2x3_S2x1x3_0_2
      (Host.reduce FloatOps.minimumf g (constant S_ .f32 0x7F800000#32) reducesTo_S2x8192x3_S2x3_d1 h_S_))))
    (broadcastInDim S2x8192x3 ![] bcast_S_S2x8192x3 (constant S_ .f32 0x3DCCCCCD#32))))

/-- The grid coordinates of a cloud. -/
def vox (x : (⟨S2x8192x3, .f32⟩ : BufTy).Contents (Elt F)) : (⟨S2x8192x3, .f32⟩ : BufTy).Contents (Elt F) :=
  gridOf (guarded x) x

/-- A cloud with its last two axes exchanged: [2, 8192, 3] to [2, 3, 8192]. -/
def swapped (x : (⟨S2x8192x3, .f32⟩ : BufTy).Contents (Elt F)) : (⟨S2x3x8192, .f32⟩ : BufTy).Contents (Elt F) :=
  transpose S2x3x8192 [0, 2, 1] x transposes_S2x8192x3_S2x3x8192_0_2_1

/-! ## Each stretch of host operations read at the buffers later segments use, from any contents `X` -/

variable (X : Valuation τ sig (Elt F))

theorem ops0_v0 : StableHlo.after (hostOps0 (F := F)) X (Proc.devRef .tc main_v0) = swapped (X (Proc.devRef .tc main_arg1)) := by
  after_results <;> rfl
theorem ops0_arg0 : StableHlo.after (hostOps0 (F := F)) X (Proc.devRef .tc main_arg0) = X (Proc.devRef .tc main_arg0) := by
  after_results
theorem ops0_arg1 : StableHlo.after (hostOps0 (F := F)) X (Proc.devRef .tc main_arg1) = X (Proc.devRef .tc main_arg1) := by
  after_results

theorem ops1_v8 : StableHlo.after (hostOps1 (F := F)) X (Proc.devRef .tc main_v8)
    = meanPair (X (Proc.devRef .tc main_v1_0)) (X (Proc.devRef .tc main_v1_1)) := by
  after_results <;> rfl
theorem ops1_v9 : StableHlo.after (hostOps1 (F := F)) X (Proc.devRef .tc main_v9)
    = cmpf .une (X (Proc.devRef .tc main_arg0)) (X (Proc.devRef .tc main_arg0)) := by
  after_results <;> rfl
theorem ops1_cst3 : StableHlo.after (hostOps1 (F := F)) X (Proc.devRef .tc main_cst_3) = constant S_ .f32 0x7F800000#32 := by
  after_results <;> rfl
theorem ops1_arg0 : StableHlo.after (hostOps1 (F := F)) X (Proc.devRef .tc main_arg0) = X (Proc.devRef .tc main_arg0) := by
  after_results
theorem ops1_arg1 : StableHlo.after (hostOps1 (F := F)) X (Proc.devRef .tc main_arg1) = X (Proc.devRef .tc main_arg1) := by
  after_results

theorem ops11_v10 : StableHlo.after (hostOps1_1 (F := F)) X (Proc.devRef .tc main_v10)
    = select (X (Proc.devRef .tc main_v9)) (broadcastInDim S2x8192x3 ![] bcast_S_S2x8192x3 (id (X (Proc.devRef .tc main_cst_3))))
        (X (Proc.devRef .tc main_arg0)) := by
  after_results <;> rfl
theorem ops11_arg0 : StableHlo.after (hostOps1_1 (F := F)) X (Proc.devRef .tc main_arg0) = X (Proc.devRef .tc main_arg0) := by
  after_results
theorem ops11_arg1 : StableHlo.after (hostOps1_1 (F := F)) X (Proc.devRef .tc main_arg1) = X (Proc.devRef .tc main_arg1) := by
  after_results
theorem ops11_v8 : StableHlo.after (hostOps1_1 (F := F)) X (Proc.devRef .tc main_v8) = X (Proc.devRef .tc main_v8) := by
  after_results

theorem ops12_v18 : StableHlo.after (hostOps1_2 (F := F)) X (Proc.devRef .tc main_v18)
    = gridOf (X (Proc.devRef .tc main_v10)) (X (Proc.devRef .tc main_arg0)) := by
  after_results <;> rfl
theorem ops12_v19 : StableHlo.after (hostOps1_2 (F := F)) X (Proc.devRef .tc main_v19)
    = cmpf .une (X (Proc.devRef .tc main_arg1)) (X (Proc.devRef .tc main_arg1)) := by
  after_results <;> rfl
theorem ops12_cst6 : StableHlo.after (hostOps1_2 (F := F)) X (Proc.devRef .tc main_cst_6) = constant S_ .f32 0x7F800000#32 := by
  after_results <;> rfl
theorem ops12_arg1 : StableHlo.after (hostOps1_2 (F := F)) X (Proc.devRef .tc main_arg1) = X (Proc.devRef .tc main_arg1) := by
  after_results
theorem ops12_v8 : StableHlo.after (hostOps1_2 (F := F)) X (Proc.devRef .tc main_v8) = X (Proc.devRef .tc main_v8) := by
  after_results

theorem ops13_v20 : StableHlo.after (hostOps1_3 (F := F)) X (Proc.devRef .tc main_v20)
    = select (X (Proc.devRef .tc main_v19)) (broadcastInDim S2x8192x3 ![] bcast_S_S2x8192x3 (id (X (Proc.devRef .tc main_cst_6))))
        (X (Proc.devRef .tc main_arg1)) := by
  after_results <;> rfl
theorem ops13_arg1 : StableHlo.after (hostOps1_3 (F := F)) X (Proc.devRef .tc main_arg1) = X (Proc.devRef .tc main_arg1) := by
  after_results
theorem ops13_v18 : StableHlo.after (hostOps1_3 (F := F)) X (Proc.devRef .tc main_v18) = X (Proc.devRef .tc main_v18) := by
  after_results
theorem ops13_v8 : StableHlo.after (hostOps1_3 (F := F)) X (Proc.devRef .tc main_v8) = X (Proc.devRef .tc main_v8) := by
  after_results

theorem ops14_v29 : StableHlo.after (hostOps1_4 (F := F)) X (Proc.devRef .tc main_v29)
    = swapped (gridOf (X (Proc.devRef .tc main_v20)) (X (Proc.devRef .tc main_arg1))) := by
  after_results <;> rfl
theorem ops14_v18 : StableHlo.after (hostOps1_4 (F := F)) X (Proc.devRef .tc main_v18) = X (Proc.devRef .tc main_v18) := by
  after_results
theorem ops14_v8 : StableHlo.after (hostOps1_4 (F := F)) X (Proc.devRef .tc main_v8) = X (Proc.devRef .tc main_v8) := by
  after_results

theorem ops2_v38 : StableHlo.after (hostOps2 (F := F)) X (Proc.devRef .tc main_v38)
    = addf (meanPair (X (Proc.devRef .tc main_v30_0)) (X (Proc.devRef .tc main_v30_1))) (X (Proc.devRef .tc main_v8)) := by
  after_results <;> rfl

/-! ## The stretches between the two regions, composed -/

/-- From contents `X`, the five stretches between the regions leave the first cloud's grid coordinates in the buffer the
    second region reads them from. -/
theorem between_v18 :
    StableHlo.after (hostOps1_4 (F := F)) (StableHlo.after hostOps1_3 (StableHlo.after hostOps1_2 (StableHlo.after hostOps1_1
      (StableHlo.after hostOps1 X)))) (Proc.devRef .tc main_v18) = vox (X (Proc.devRef .tc main_arg0)) := by
  rw [ops14_v18, ops13_v18, ops12_v18, ops11_v10, ops11_arg0, ops1_v9, ops1_cst3, ops1_arg0]
  rfl

/-- … and the second cloud's, with the last two axes exchanged. -/
theorem between_v29 :
    StableHlo.after (hostOps1_4 (F := F)) (StableHlo.after hostOps1_3 (StableHlo.after hostOps1_2 (StableHlo.after hostOps1_1
      (StableHlo.after hostOps1 X)))) (Proc.devRef .tc main_v29) = swapped (vox (X (Proc.devRef .tc main_arg1))) := by
  rw [ops14_v29, ops13_v20, ops13_arg1, ops12_v19, ops12_cst6, ops12_arg1, ops11_arg1, ops1_arg1]
  rfl

/-- … and keep the first region's mean, computed by the first of them. -/
theorem between_v8 :
    StableHlo.after (hostOps1_4 (F := F)) (StableHlo.after hostOps1_3 (StableHlo.after hostOps1_2 (StableHlo.after hostOps1_1
      (StableHlo.after hostOps1 X)))) (Proc.devRef .tc main_v8)
      = meanPair (X (Proc.devRef .tc main_v1_0)) (X (Proc.devRef .tc main_v1_1)) := by
  rw [ops14_v8, ops13_v8, ops12_v8, ops11_v8, ops1_v8]

end Cert.KernelIdeal.KHost
end
-- ==== Proof.KHostW.lean ====
/-
  The kernel program's buffer contents at the boundaries of its segments.

  The run of the program folds its segments over the launch memory: a host stretch rewrites the buffers its
  operations write, a pipelined region rewrites its output arrays and leaves every other buffer. This file reads that
  fold at the buffers that matter for the program's value. The arguments are never written, so each region finds its
  inputs as pure functions of the launch contents of the arguments: the first region the first cloud and the second
  cloud with its last two axes exchanged, the second region the grid coordinates of the same. The result is the sum
  of two sums of means: of the second region's two output arrays, and of the first region's two output arrays.
-/
import proofs.«144590_j13589276525289_2_alg».proof.Proof.FrameI
import proofs.«144590_j13589276525289_2_alg».proof.Proof.KHost

noncomputable section

namespace Cert.KernelIdeal.KHost

open Cert.KernelIdeal Cert.KernelIdeal.Gen Cert.KernelIdeal.GenP
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## Which buffers the regions' output windows are -/

theorem arrRef0_2 : Pipeline.arrRef spec0 2 = main_v1_0 := rfl
theorem arrRef0_3 : Pipeline.arrRef spec0 3 = main_v1_1 := rfl
theorem arrRef1_2 : Pipeline.arrRef spec1 2 = main_v30_0 := rfl
theorem arrRef1_3 : Pipeline.arrRef spec1 3 = main_v30_1 := rfl

/-! ## The arguments when the first region has run -/

theorem W1_arg0 (c : Dev nD) : W1 m ρ c (Proc.devRef .tc main_arg0) = m ((c : Thread nD τ).loc main_arg0) :=
  (ops0_arg0 (W0 m ρ c)).trans rfl
theorem W1_arg1 (c : Dev nD) : W1 m ρ c (Proc.devRef .tc main_arg1) = m ((c : Thread nD τ).loc main_arg1) :=
  (ops0_arg1 (W0 m ρ c)).trans rfl
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)

/-! ## What each region finds in its input arrays -/

theorem V1_arg0 (c : Dev nD) : V1 m ρ c main_arg0 = m ((c.tc : Thread nD τ).loc main_arg0) := W1_arg0 m ρ c
theorem V1_v0 (c : Dev nD) : V1 m ρ c main_v0 = swapped (m ((c.tc : Thread nD τ).loc main_arg1)) :=
  (ops0_v0 (W0 m ρ c)).trans rfl
theorem V7_v18 (c : Dev nD) : V7 m ρ c main_v18 = vox (m ((c.tc : Thread nD τ).loc main_arg0)) :=
  (between_v18 (W2 m ρ c)).trans (congrArg vox (W2_arg0 m ρ c))
theorem V7_v29 (c : Dev nD) : V7 m ρ c main_v29 = swapped (vox (m ((c.tc : Thread nD τ).loc main_arg1))) :=
  (between_v29 (W2 m ρ c)).trans (congrArg (fun z => swapped (vox z)) (W2_arg1 m ρ c))

/-! ## The result -/

theorem W3_v8 (c : Dev nD) : W3 m ρ c (Proc.devRef .tc main_v8)
    = meanPair (W2 m ρ c (Proc.devRef .tc main_v1_0)) (W2 m ρ c (Proc.devRef .tc main_v1_1)) := ops1_v8 (W2 m ρ c)
theorem W7_v8 (c : Dev nD) : W7 m ρ c (Proc.devRef .tc main_v8) = W3 m ρ c (Proc.devRef .tc main_v8) :=
  (ops14_v8 _).trans ((ops13_v8 _).trans ((ops12_v8 _).trans (ops11_v8 _)))
theorem W8_v8 (c : Dev nD) : W8 m ρ c (Proc.devRef .tc main_v8) = W3 m ρ c (Proc.devRef .tc main_v8) :=
  (W8_of_ne m ρ c main_v8 (by decide)).trans (W7_v8 m ρ c)
theorem W9_result (c : Dev nD) : W9 m ρ c (Proc.devRef .tc main_v38)
    = addf (meanPair (W8 m ρ c (Proc.devRef .tc main_v30_0)) (W8 m ρ c (Proc.devRef .tc main_v30_1)))
        (W3 m ρ c (Proc.devRef .tc main_v8)) :=
  (ops2_v38 (W8 m ρ c)).trans (congrArg (addf _) (W8_v8 m ρ c))

/-- The regions' output arrays as the regions' proof data leave them. -/
theorem W8_v30_0 (c : Dev nD) : W8 m ρ c (Proc.devRef .tc main_v30_0) = (dat1 (V7 m ρ) c).arrAt 2 cfg1.N := W8_arr m ρ c 2
theorem W8_v30_1 (c : Dev nD) : W8 m ρ c (Proc.devRef .tc main_v30_1) = (dat1 (V7 m ρ) c).arrAt 3 cfg1.N := W8_arr m ρ c 3
theorem W2_v1_0 (c : Dev nD) : W2 m ρ c (Proc.devRef .tc main_v1_0) = (dat0 (V1 m ρ) c).arrAt 2 cfg0.N := W2_arr m ρ c 2
theorem W2_v1_1 (c : Dev nD) : W2 m ρ c (Proc.devRef .tc main_v1_1) = (dat0 (V1 m ρ) c).arrAt 3 cfg0.N := W2_arr m ρ c 3

/-- The result in one equation: the sum of the means of the second region's outputs plus that of the first's. -/
theorem W9_result' (c : Dev nD) : W9 m ρ c (Proc.devRef .tc main_v38)
    = addf (meanPair ((dat1 (V7 m ρ) c).arrAt 2 cfg1.N) ((dat1 (V7 m ρ) c).arrAt 3 cfg1.N))
        (meanPair ((dat0 (V1 m ρ) c).arrAt 2 cfg0.N) ((dat0 (V1 m ρ) c).arrAt 3 cfg0.N)) := by
  rw [W9_result, W3_v8, W8_v30_0, W8_v30_1, W2_v1_0, W2_v1_1]

end Cert.KernelIdeal.KHost
end
-- ==== Proof.Spec.lean ====
/-
  The mathematics both programs compute, stated once over the extended reals.

  Two clouds of 8192 points in three coordinates, in each of two batches: `X b n d` and `Y b m d`.
  `sqd X Y b n m` is the squared distance between point `n` of `X` and point `m` of `Y` in batch `b`,
  the sum of the three squared coordinate differences. `rowMin` is, for each point of `X`, the least
  squared distance to a point of `Y`; `colMin` is, for each point of `Y`, the least squared distance to
  a point of `X`. Every minimum is a fold of `min` from the f32 word of +∞, which is never evaluated:
  the same word starts the fold on both sides.
-/
import Idealize.ShloMosaic.PureOps.Ideal
import Idealize.ShloMosaic.Lib.ValueIdx

noncomputable section

namespace Cert.Chamfer

open Idealize.ShloMosaic Idealize.ShloMosaic.ValueIdx

/-- The shape of a cloud array: batch, point, coordinate. -/
abbrev SP : Shape := ⟨3, ![2, 8192, 3]⟩
/-- The shape of a per-point distance array: batch, point. -/
abbrev SD : Shape := ⟨2, ![2, 8192]⟩

/-- The value every minimum starts from: the f32 word of +∞ read at the extended reals. -/
abbrev start : EReal := Ideal.ofBits .f32 0x7F800000#32

/-- Squared distance between point `n` of `X` and point `m` of `Y` in batch `b`. -/
def sqd (X Y : SP.Idx → EReal) (b : Fin 2) (n m : Fin 8192) : EReal :=
  (X (ix3 b n (0 : Fin 3)) - Y (ix3 b m (0 : Fin 3))) * (X (ix3 b n (0 : Fin 3)) - Y (ix3 b m (0 : Fin 3)))
    + (X (ix3 b n (1 : Fin 3)) - Y (ix3 b m (1 : Fin 3))) * (X (ix3 b n (1 : Fin 3)) - Y (ix3 b m (1 : Fin 3)))
    + (X (ix3 b n (2 : Fin 3)) - Y (ix3 b m (2 : Fin 3))) * (X (ix3 b n (2 : Fin 3)) - Y (ix3 b m (2 : Fin 3)))

/-- For each point of `X`: the least squared distance to a point of `Y` of the same batch. -/
def rowMin (X Y : SP.Idx → EReal) : SD.Idx → EReal := fun i =>
  (Finset.univ : Finset (Fin 8192)).fold min start
    (fun m => sqd X Y ⟨(i 0).val, (i 0).isLt⟩ ⟨(i 1).val, (i 1).isLt⟩ m)

/-- For each point of `Y`: the least squared distance to a point of `X` of the same batch. -/
def colMin (X Y : SP.Idx → EReal) : SD.Idx → EReal := fun i =>
  (Finset.univ : Finset (Fin 8192)).fold min start
    (fun n => sqd X Y ⟨(i 0).val, (i 0).isLt⟩ n ⟨(i 1).val, (i 1).isLt⟩)

/-- An array of extended reals all of whose entries are real numbers. -/
def AllReal (X : SP.Idx → EReal) : Prop := ∀ i, ∃ r : ℝ, X i = (r : EReal)

end Cert.Chamfer

end
-- ==== Proof.Tail.lean ====
/-
  The two host computations that surround the minimum arrays, written once.

  `vox` turns a cloud into its voxel coordinates: an entry that is not a number is replaced by +∞, the least entry
  over the points of each batch and coordinate is subtracted from the cloud, the difference is divided by the
  voxel size 0.1, truncated to a signed 32-bit integer and converted back to a float. `mean2` adds the means of
  two per-point arrays (each a sum from zero divided by 16384, the number of entries), and `loss` adds two such
  pairs of means. Each operation is the host operation of that name on the extended reals; the shape
  conditions they ask for are decided from the literal shapes.
-/
import Idealize.ShloMosaic.PureOps.Ideal
import Idealize.ShloMosaic.Lib.ValueIdx
import proofs.«144590_j13589276525289_2_alg».proof.Proof.Spec

noncomputable section

namespace Cert.Chamfer

open Idealize.ShloMosaic

/-- The shape of a single number. -/
abbrev S0 : Shape := ⟨0, ![]⟩
/-- Batch by coordinate. -/
abbrev SBC : Shape := ⟨2, ![2, 3]⟩
/-- Batch, one point, coordinate. -/
abbrev SB1C : Shape := ⟨3, ![2, 1, 3]⟩

theorem h_S0 : 0 < S0.numel := by decide
theorem bcast_S0_SP : S0.BroadcastsInDim SP (![] : Fin 0 → Fin SP.rank) := by decide
theorem reducesTo_SP_SBC_d1 : SP.ReducesTo [1] SBC := by decide
theorem bcast_SBC_SB1C_0_2 : SBC.BroadcastsInDim SB1C (![0, 2] : Fin 2 → Fin SB1C.rank) := by decide
theorem bcast_SB1C_SP_0_1_2 : SB1C.BroadcastsInDim SP (![0, 1, 2] : Fin 3 → Fin SP.rank) := by decide
theorem reducesTo_SD_S0_d0_1 : SD.ReducesTo [0, 1] S0 := by decide

/-- The cloud with every entry that is not a number replaced by +∞. -/
def masked (x : FVec Ideal SP .f32) : FVec Ideal SP .f32 :=
  select (cmpf (F := Ideal) .une x x)
    (broadcastInDim SP ![] bcast_S0_SP (id (constant (F := Ideal) S0 .f32 0x7F800000#32))) x

/-- Voxel coordinates of a cloud. -/
def vox (x : SP.Idx → EReal) : SP.Idx → EReal :=
  sitofp (F := Ideal) .f32
    (fptosi (F := Ideal) 32
      (Host.divf (F := Ideal) (φ := .f32)
        (subf (F := Ideal) (φ := .f32) x
          (broadcastInDim SP ![0, 1, 2] bcast_SB1C_SP_0_1_2
            (broadcastInDim SB1C ![0, 2] bcast_SBC_SB1C_0_2
              (Host.reduce (FloatOps.minimumf (F := Ideal) (φ := .f32)) (masked x)
                (constant (F := Ideal) S0 .f32 0x7F800000#32) reducesTo_SP_SBC_d1 h_S0))))
        (broadcastInDim SP ![] bcast_S0_SP (constant (F := Ideal) S0 .f32 0x3DCCCCCD#32))))

/-- The mean of a per-point array: its sum from zero, divided by 16384. -/
def mean1 (a : SD.Idx → EReal) : S0.Idx → EReal :=
  Host.divf (F := Ideal) (φ := .f32)
    (Host.reduceAdd (F := Ideal) (φ := .f32) a (constant (F := Ideal) S0 .f32 0x00000000#32) reducesTo_SD_S0_d0_1 h_S0)
    (constant (F := Ideal) S0 .f32 0x46800000#32)

/-- The sum of the means of two per-point arrays. -/
def mean2 (a b : SD.Idx → EReal) : S0.Idx → EReal :=
  addf (F := Ideal) (φ := .f32) (mean1 a) (mean1 b)

/-- The result: the means of the voxelised pass plus the means of the raw pass. -/
def loss (d1v d2v d1 d2 : SD.Idx → EReal) : S0.Idx → EReal :=
  addf (F := Ideal) (φ := .f32) (mean2 d1v d2v) (mean2 d1 d2)

end Cert.Chamfer

end
-- ==== Proof.Regroup.lean ====
/-
  A minimum taken tile by tile.

  A row of 8192 values is cut into 64 tiles of 128 consecutive columns. Lane `l` of an accumulator starts at the
  starting value and, tile after tile, takes the minimum of itself and column `128·k + l`; after the 64 tiles one more
  minimum is taken across the 128 lanes. The result is the minimum of the starting value and all 8192 values: every
  column `m` is column `128·(m / 128) + m % 128`, met in tile `m / 128` at lane `m % 128`. The proof compares lower
  bounds: `c` is below a fold of `min` exactly when it is below the starting value and below every folded value, and
  two extended reals with the same lower bounds are equal. The starting value is never evaluated.
-/
import proofs.«144590_j13589276525289_2_alg».proof.Proof.Spec
import Mathlib.Data.Finset.Fold
import Mathlib.Order.Basic

noncomputable section

namespace Cert.Chamfer

/-- After `k` tiles, lane `l` of the accumulator has exactly the lower bounds of the starting value and of the
    columns `128·k' + l` for `k' < k`. -/
theorem le_acc_iff (g : Fin 8192 → EReal) (a : ℕ → Fin 128 → EReal) (h0 : ∀ l, a 0 l = start)
    (hs : ∀ (k : ℕ) (hk : k < 64) (l : Fin 128), a (k + 1) l = min (a k l) (g ⟨128 * k + l.val, by omega⟩))
    (c : EReal) (l : Fin 128) :
    ∀ (k : ℕ) (hk : k ≤ 64),
      c ≤ a k l ↔ c ≤ start ∧ ∀ (k' : ℕ) (hk' : k' < k), c ≤ g ⟨128 * k' + l.val, by omega⟩ := by
  intro k
  induction k with
  | zero =>
    intro _
    rw [h0 l]
    exact ⟨fun h => ⟨h, fun k' hk' => absurd hk' (Nat.not_lt_zero k')⟩, fun h => h.1⟩
  | succ k ih =>
    intro hk
    have hk64 : k < 64 := hk
    rw [hs k hk64 l, le_min_iff, ih (Nat.le_of_lt hk64)]
    constructor
    · rintro ⟨⟨hst, hprev⟩, hnew⟩
      refine ⟨hst, fun k' hk' => ?_⟩
      rcases Nat.lt_succ_iff_lt_or_eq.1 hk' with hlt | heq
      · exact hprev k' hlt
      · subst heq; exact hnew
    · rintro ⟨hst, hall⟩
      exact ⟨⟨hst, fun k' hk' => hall k' (Nat.lt_succ_of_lt hk')⟩, hall k (Nat.lt_succ_self k)⟩

/-- The minimum across the lanes of the accumulator after all 64 tiles is the minimum over all 8192 columns. -/
theorem fold_tiles (g : Fin 8192 → EReal) (a : ℕ → Fin 128 → EReal) (h0 : ∀ l, a 0 l = start)
    (hs : ∀ (k : ℕ) (hk : k < 64) (l : Fin 128), a (k + 1) l = min (a k l) (g ⟨128 * k + l.val, by omega⟩)) :
    (Finset.univ : Finset (Fin 128)).fold min start (fun l => a 64 l)
      = (Finset.univ : Finset (Fin 8192)).fold min start g := by
  refine eq_of_forall_le_iff fun c => ?_
  rw [Finset.le_fold_min, Finset.le_fold_min]
  constructor
  · rintro ⟨hst, hl⟩
    refine ⟨hst, fun m _ => ?_⟩
    have hm := m.isLt
    have hlane : m.val % 128 < 128 := Nat.mod_lt _ (by decide)
    have htile : m.val / 128 < 64 := by omega
    have h := ((le_acc_iff g a h0 hs c ⟨m.val % 128, hlane⟩ 64 (Nat.le_refl 64)).1
      (hl ⟨m.val % 128, hlane⟩ (Finset.mem_univ _))).2 (m.val / 128) htile
    have e : (⟨128 * (m.val / 128) + m.val % 128, by omega⟩ : Fin 8192) = m :=
      Fin.ext (Nat.div_add_mod m.val 128)
    rw [← e]
    exact h
  · rintro ⟨hst, hm⟩
    refine ⟨hst, fun l _ => ?_⟩
    exact (le_acc_iff g a h0 hs c l 64 (Nat.le_refl 64)).2 ⟨hst, fun k' hk' => hm _ (Finset.mem_univ _)⟩

end Cert.Chamfer

end
-- ==== Proof.KernelMath.lean ====
/-
  The kernel's two minima, over abstract accumulators.

  The kernel keeps, for one point of the first cloud, 128 lanes of running minima over tiles of 128 points of the
  second cloud, and reduces the lanes at the end: by the tile-by-tile lemma this is the specification's `rowMin`
  at that point. The specification's minima are also restated at an index given by its two coordinates, and the
  squared distance is restated for operands given as one batch's blocks: the first cloud's block indexed
  (0, point, coordinate), the second cloud's transposed block indexed (0, coordinate, point).
-/
import proofs.«144590_j13589276525289_2_alg».proof.Proof.Spec
import proofs.«144590_j13589276525289_2_alg».proof.Proof.Regroup

noncomputable section

namespace Cert.Chamfer

open Idealize.ShloMosaic Idealize.ShloMosaic.ValueIdx

/-- `rowMin` at (b, n): the fold of `min` over the second cloud's points of the squared distance to point `n`. -/
theorem rowMin_at (X Y : SP.Idx → EReal) (b : Fin 2) (n : Fin 8192) :
    rowMin X Y (ix2 b n) = (Finset.univ : Finset (Fin 8192)).fold min start (fun m => sqd X Y b n m) := rfl

/-- `colMin` at (b, m): the fold of `min` over the first cloud's points of the squared distance to point `m`. -/
theorem colMin_at (X Y : SP.Idx → EReal) (b : Fin 2) (m : Fin 8192) :
    colMin X Y (ix2 b m) = (Finset.univ : Finset (Fin 8192)).fold min start (fun n => sqd X Y b n m) := rfl

/-- Lanes of running minima over 64 tiles of 128 points, reduced across the lanes, give `rowMin`. -/
theorem rowMin_of_tiles (X Y : SP.Idx → EReal) (b : Fin 2) (n : Fin 8192) (a : ℕ → Fin 128 → EReal)
    (h0 : ∀ l, a 0 l = start)
    (hs : ∀ (k : ℕ) (hk : k < 64) (l : Fin 128),
      a (k + 1) l = min (a k l) (sqd X Y b n ⟨128 * k + l.val, by omega⟩)) :
    (Finset.univ : Finset (Fin 128)).fold min start (fun l => a 64 l) = rowMin X Y (ix2 b n) :=
  (fold_tiles (fun m => sqd X Y b n m) a h0 hs).trans (rowMin_at X Y b n).symm

/-- The squared distance from one batch's blocks: the first cloud's rows and the second cloud's transposed rows. -/
theorem sqd_of_blocks (X Y : SP.Idx → EReal) (b : Fin 2) (n m : Fin 8192)
    (xb : (⟨3, ![1, 8192, 3]⟩ : Shape).Idx → EReal) (yb : (⟨3, ![1, 3, 8192]⟩ : Shape).Idx → EReal)
    (hx : ∀ d : Fin 3, xb (ix3 (0 : Fin 1) n d) = X (ix3 b n d))
    (hy : ∀ d : Fin 3, yb (ix3 (0 : Fin 1) d m) = Y (ix3 b m d)) :
    (xb (ix3 (0 : Fin 1) n (0 : Fin 3)) - yb (ix3 (0 : Fin 1) (0 : Fin 3) m))
          * (xb (ix3 (0 : Fin 1) n (0 : Fin 3)) - yb (ix3 (0 : Fin 1) (0 : Fin 3) m))
        + (xb (ix3 (0 : Fin 1) n (1 : Fin 3)) - yb (ix3 (0 : Fin 1) (1 : Fin 3) m))
          * (xb (ix3 (0 : Fin 1) n (1 : Fin 3)) - yb (ix3 (0 : Fin 1) (1 : Fin 3) m))
        + (xb (ix3 (0 : Fin 1) n (2 : Fin 3)) - yb (ix3 (0 : Fin 1) (2 : Fin 3) m))
          * (xb (ix3 (0 : Fin 1) n (2 : Fin 3)) - yb (ix3 (0 : Fin 1) (2 : Fin 3) m))
      = sqd X Y b n m := by
  rw [hx 0, hx 1, hx 2, hy 0, hy 1, hy 2]
  rfl

end Cert.Chamfer

end
-- ==== Proof.Bridge.lean ====
/-
  The kernel program's host functions are the specification's.

  The kernel returns each per-point array with a unit middle axis, [2, 1, 8192]; the host reads it back as
  [2, 8192] before taking its mean. `unsq` is that view of a [2, 8192] array: reading it back gives the array
  itself, since (b, 0, n) and (b, n) sit at the same row-major position. With that, the kernel program's sum of two
  means is the specification's `mean2`, its grid coordinates are `vox`, its exchange of the last two axes reads
  (b, d, m) at (b, m, d), and its result is `loss` of the four minimum arrays.
-/
import proofs.«144590_j13589276525289_2_alg».proof.Proof.KHost
import proofs.«144590_j13589276525289_2_alg».proof.Proof.Tail
import proofs.«144590_j13589276525289_2_alg».proof.Proof.KernelMath
import Idealize.ShloMosaic.Lib.Pipeline.Value

noncomputable section

namespace Cert.KernelIdeal.Bridge

open Cert.KernelIdeal Cert.KernelIdeal.Gen Idealize.ShloMosaic Idealize.ShloMosaic.ValueIdx

/-- A [2, 8192] array viewed with a unit middle axis. -/
def unsq (d : Cert.Chamfer.SD.Idx → EReal) : S2x1x8192.Idx → EReal := fun i =>
  d (ix2 (⟨(i 0).val, (i 0).isLt⟩ : Fin 2) (⟨(i 2).val, (i 2).isLt⟩ : Fin 8192))

/-- Reading the view back as [2, 8192] gives the array: (b, 0, n) and (b, n) have the same row-major position. -/
theorem shapeCast_unsq (d : Cert.Chamfer.SD.Idx → EReal) :
    shapeCast S2x8192 (unsq d) shapeCasts_S2x1x8192_S2x8192 = d := by
  funext j
  obtain ⟨b, n, rfl⟩ : ∃ (b : Fin 2) (n : Fin 8192), j = ix2 b n := ⟨j 0, j 1, eq_ix2 j⟩
  refine (shapeCast_apply (unsq d) shapeCasts_S2x1x8192_S2x8192 (ix2 b n) (ix3 b (0 : Fin 1) n) ?_).trans ?_
  · rw [Shape.rowMajor_val_three, Shape.rowMajor_val_two]
    show (b.val * 1 + 0) * 8192 + n.val = b.val * 8192 + n.val
    rw [Nat.mul_one, Nat.add_zero]
  · rfl

/-- The kernel program's sum of two means, on the views, is the specification's. -/
theorem meanPair_unsq (d1 d2 : Cert.Chamfer.SD.Idx → EReal) :
    KHost.meanPair (F := Ideal) (unsq d1) (unsq d2) = Cert.Chamfer.mean2 d1 d2 := by
  unfold KHost.meanPair
  rw [shapeCast_unsq, shapeCast_unsq]
  rfl

/-- The kernel program's grid coordinates are the specification's: the same operations in the same order. -/
theorem vox_eq (x : (⟨S2x8192x3, .f32⟩ : BufTy).Contents (Elt Ideal)) :
    KHost.vox (F := Ideal) x = Cert.Chamfer.vox x := by
  unfold KHost.vox KHost.gridOf KHost.guarded Cert.Chamfer.vox Cert.Chamfer.masked
  rfl

/-- The exchanged cloud at (b, d, m) is the cloud at (b, m, d). -/
theorem swapped_apply (x : (⟨S2x8192x3, .f32⟩ : BufTy).Contents (Elt Ideal)) (b : Fin 2) (d : Fin 3) (m : Fin 8192) :
    KHost.swapped (F := Ideal) x (ix3 b d m) = x (ix3 b m d) := by
  unfold KHost.swapped
  refine transpose_apply [0, 2, 1] x transposes_S2x8192x3_S2x3x8192_0_2_1 (ix3 b d m) (ix3 b m d) fun a => ?_
  match a with
  | ⟨0, _⟩ => rfl
  | ⟨1, _⟩ => rfl
  | ⟨2, _⟩ => rfl

/-- The kernel program's result, from the four minimum arrays as it receives them, is the specification's `loss`. -/
theorem kernel_loss (X Y : Cert.Chamfer.SP.Idx → EReal) :
    addf (F := Ideal) (φ := .f32)
        (KHost.meanPair (F := Ideal)
          (unsq (Cert.Chamfer.rowMin (Cert.Chamfer.vox X) (Cert.Chamfer.vox Y)))
          (unsq (Cert.Chamfer.colMin (Cert.Chamfer.vox X) (Cert.Chamfer.vox Y))))
        (KHost.meanPair (F := Ideal) (unsq (Cert.Chamfer.rowMin X Y)) (unsq (Cert.Chamfer.colMin X Y)))
      = Cert.Chamfer.loss
          (Cert.Chamfer.rowMin (Cert.Chamfer.vox X) (Cert.Chamfer.vox Y))
          (Cert.Chamfer.colMin (Cert.Chamfer.vox X) (Cert.Chamfer.vox Y))
          (Cert.Chamfer.rowMin X Y) (Cert.Chamfer.colMin X Y) := by
  rw [meanPair_unsq, meanPair_unsq]
  rfl

end Cert.KernelIdeal.Bridge

end
-- ==== Proof.LoopVal.lean ====
/-
  The body's counted loop, read as values.

  Each of the 64 trips reads one tile of 128 lane points, replaces the whole 8192 × 128 table by its entrywise minimum
  with the trip's table of squared distances, and stores the trip's 128 column minima into its own 128 lanes of an
  output row of 8192 lanes. Two facts follow by induction on the trips. The table after `n` trips is the running
  table `acc n`: every trip stores over the whole table, so the table read back is the last store's payload, and that
  payload was computed from the table read whole. The output row after all trips holds, at lane `y`, the column
  minimum computed by trip `y / 128` at its local lane `y % 128`: the trips' stores sit side by side and cover the row,
  and each agrees with that one description on the lanes it covers.
-/
import proofs.«144590_j13589276525289_2_alg».proof.Proof.Gen.KernelIdeal.Loops
import Idealize.ShloMosaic.Lib.Pipeline.Value
import Idealize.ShloMosaic.Lib.Writes
import Idealize.ShloMosaic.Lib.ValueIdx

noncomputable section

namespace Cert.KernelIdeal.LoopVal

open Idealize.ShloMosaic Idealize.ShloMosaic.TcCoe Idealize.SL.Sem Idealize.ShloMosaic.ValueIdx
open Cert.KernelIdeal Cert.KernelIdeal.Gen

variable {F : FTy → Type} [FloatOps F]

/-! ## Stores and loads over the whole of a buffer's shape -/

/-- The zero offsets of a rank-2 access, as the constant function. -/
theorem zero2 : (![0, 0] : Fin 2 → ℕ) = fun _ => 0 := by
  funext a
  match a with
  | ⟨0, _⟩ => rfl
  | ⟨1, _⟩ => rfl

section Whole
variable {sg : RefSig} {κ : Kind} {sp : Space} {S : Shape} {e : EltTy} {Val : EltTy → Type}

/-- One store over the whole of a buffer's shape leaves its payload, whatever was there. -/
theorem read_store_whole [∀ e, Nonempty (Val e)] (v : View sg κ sp S e) (f : v.ty.Contents Val) {off : Fin S.rank → ℕ}
    (hz : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero hz inb y⟩)).trans
    (View.canon_unit_zero hz inb w)

/-- A load of the whole of a buffer's shape reads the contents. -/
theorem readAt_whole (v : View sg κ sp S e) (f : v.ty.Contents Val) {off : Fin S.rank → ℕ}
    (hz : off = fun _ => 0) (inb : ∀ a, off a + S.size a ≤ S.size a) :
    v.readAt Val (Rect.unit off S.size inb).toLoadRect f = v.read Val f := by
  rw [View.readAt_eq_ld, View.ld_unit_zero hz]

end Whole

/-! ## The first call's loop -/

/-- Tile `k` of the lane-point array: the 128 lane points the `k`-th trip reads. -/
def tile (arg2 : Memref sig .tc .vmem S1x3x8192 .f32) (X_arg2 : BufTy.Contents (Elt F) arg2.view.ty)
    (k : Fin k0_t1_loop.trips) : Vec F S1x3x128 .f32 :=
  arg2.view.readAt (Elt F) (Rect.unit (s := S1x3x8192) (k0_off1 k) S1x3x128.size (k0_off1_inb k)).toLoadRect X_arg2

/-- What one trip stores, as a function of what it finds in the table: the trip's column minima into its own 128
    lanes of the output row, and over the whole table the entrywise minimum of the table and the trip's distances. -/
theorem tripL_eq (𝒱 : Variants) (c : Dev nD) (bd : Option 𝒱.V) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (k : Fin k0_t1_loop.trips) (f4 : BufTy.Contents (Elt F) arg4.view.ty) (f5 : BufTy.Contents (Elt F) arg5.view.ty) :
    tripL_k0_t1 (F := F) 𝒱 c bd i arg1 harg1 arg2 harg2 arg3 harg3 arg4 harg4 arg5 harg5 v0 X_arg2 k f4 f5
      = ([⟨Rect.unit (s := S1x1x8192) (k0_off2 k) S1x1x128.size (k0_off2_inb k), k0_pay4 v0 (tile arg2 X_arg2 k)⟩],
         [⟨Rect.unit (s := S8192x128) ![0, 0] S8192x128.size inb_S8192x128_S8192x128_0_0,
            k0_pay3 v0 (tile arg2 X_arg2 k) (arg5.view.readAt (Elt F) (Rect.unit (s := S8192x128) ![0, 0] S8192x128.size inb_S8192x128_S8192x128_0_0).toLoadRect f5)⟩]) := by
  unfold tripL_k0_t1 trip_k0_t1
  rfl

/-- The running table after `n` trips, from the table `A0` at loop entry: each trip replaces it by its entrywise
    minimum with the trip's distances; past the last trip nothing changes. -/
def acc (v0 : Vec F S1x8192x3 .f32) (arg2 : Memref sig .tc .vmem S1x3x8192 .f32) (X_arg2 : BufTy.Contents (Elt F) arg2.view.ty)
    (A0 : Vec F S8192x128 .f32) : ℕ → Vec F S8192x128 .f32
  | 0 => A0
  | k + 1 => if h : k < k0_t1_loop.trips then k0_pay3 v0 (tile arg2 X_arg2 ⟨k, h⟩) (acc v0 arg2 X_arg2 A0 k)
      else acc v0 arg2 X_arg2 A0 k

/-- The table after the first `n` trips' stores is the running table `acc n`: every trip stores over the whole
    table, so what is read back is the last store's payload, which is computed from the table read whole. -/
theorem scratch_after (𝒱 : Variants) (c : Dev nD) (bd : Option 𝒱.V) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G_arg4 : BufTy.Contents (Elt F) arg4.view.ty) (G_arg5 : BufTy.Contents (Elt F) arg5.view.ty) (A0 : Vec F S8192x128 .f32) (hG : arg5.view.read (Elt F) G_arg5 = A0) (n : ℕ) :
    arg5.view.read (Elt F) (arg5.view.writes (Elt F) G_arg5 (pb_k0_t1 (F := F) 𝒱 c bd i arg1 harg1 arg2 harg2 arg3 harg3 arg4 harg4 arg5 harg5 v0 X_arg2 G_arg4 G_arg5 n).2)
      = acc v0 arg2 X_arg2 A0 n := by
  induction n with
  | zero => exact hG
  | succ n ih =>
    rw [pb_k0_t1.eq_2]
    unfold pb_k0_t1Step
    by_cases h : n < k0_t1_loop.trips
    · rw [dif_pos h, tripL_eq]
      show arg5.view.read (Elt F) (arg5.view.writes (Elt F) G_arg5 ([_] ++ _)) = _
      rw [View.writes_append, read_store_whole _ _ zero2, readAt_whole _ _ zero2, ih]
      show _ = if h : n < k0_t1_loop.trips then _ else _
      rw [dif_pos h]
    · rw [dif_neg h, ih]
      show _ = if h : n < k0_t1_loop.trips then _ else _
      rw [dif_neg h]

/-- The loop runs 64 trips. -/
theorem trips_eq : k0_t1_loop.trips = 64 := by decide

theorem lt64 (k : Fin k0_t1_loop.trips) : k.val < 64 := Nat.lt_of_lt_of_le k.isLt (Nat.le_of_eq trips_eq)

/-- Tile `k` read at `(0, d, l)`: the lane-point array at `(0, d, 128 k + l)`. -/
theorem tile_apply (arg2 : Memref sig .tc .vmem S1x3x8192 .f32) (X_arg2 : BufTy.Contents (Elt F) arg2.view.ty)
    (k : Fin k0_t1_loop.trips) (d : Fin 3) (l : Fin 128) :
    tile arg2 X_arg2 k (ix3 (0 : Fin 1) d l)
      = arg2.view.read (Elt F) X_arg2 (ix3 (0 : Fin 1) d
          (⟨128 * k.val + l.val, by have := lt64 k; have := l.isLt; omega⟩ : Fin 8192)) := by
  unfold tile
  rw [View.readAt_eq_ld]
  show arg2.view.read (Elt F) X_arg2
      ((Rect.unit (s := S1x3x8192) (k0_off1 k) S1x3x128.size (k0_off1_inb k)).toLoadRect.idx (ix3 (0 : Fin 1) d l)) = _
  refine congrArg _ (funext fun a => Fin.ext ?_)
  have ho := k0_off1_eq k
  match a with
  | ⟨0, _⟩ => show (k0_off1 k) 0 + 1 * 0 = 0; rw [ho]; rfl
  | ⟨1, _⟩ => show (k0_off1 k) 1 + 1 * d.val = d.val; rw [ho]; show 0 + 1 * d.val = d.val; omega
  | ⟨2, _⟩ => show (k0_off1 k) 2 + 1 * l.val = 128 * k.val + l.val; rw [ho]; show 128 * k.val + 1 * l.val = _; omega

/-- The stores into the output row by the first `n` trips are exactly the pieces of the trips below `n`. -/
theorem mem_pb_fst (𝒱 : Variants) (c : Dev nD) (bd : Option 𝒱.V) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G_arg4 : BufTy.Contents (Elt F) arg4.view.ty) (G_arg5 : BufTy.Contents (Elt F) arg5.view.ty) (n : ℕ) (p : View.Piece (Elt F) S1x1x8192 .f32) :
    p ∈ (pb_k0_t1 (F := F) 𝒱 c bd i arg1 harg1 arg2 harg2 arg3 harg3 arg4 harg4 arg5 harg5 v0 X_arg2 G_arg4 G_arg5 n).1 ↔ ∃ k : Fin k0_t1_loop.trips, k.val < n ∧ p = (⟨Rect.unit (s := S1x1x8192) (k0_off2 k) S1x1x128.size (k0_off2_inb k), k0_pay4 v0 (tile arg2 X_arg2 k)⟩ : View.Piece (Elt F) S1x1x8192 .f32) := by
  induction n with
  | zero =>
    constructor
    · intro h; exact absurd h List.not_mem_nil
    · rintro ⟨k, hk, -⟩; exact absurd hk (Nat.not_lt_zero _)
  | succ n ih =>
    rw [pb_k0_t1.eq_2]
    unfold pb_k0_t1Step
    by_cases h : n < k0_t1_loop.trips
    · rw [dif_pos h, tripL_eq]
      show p ∈ [(⟨Rect.unit (s := S1x1x8192) (k0_off2 ⟨n, h⟩) S1x1x128.size (k0_off2_inb ⟨n, h⟩), k0_pay4 v0 (tile arg2 X_arg2 ⟨n, h⟩)⟩ : View.Piece (Elt F) S1x1x8192 .f32)] ++ _ ↔ _
      rw [List.mem_append, List.mem_singleton, ih]
      constructor
      · rintro (rfl | ⟨k, hk, rfl⟩)
        · exact ⟨⟨n, h⟩, Nat.lt_succ_self n, rfl⟩
        · exact ⟨k, Nat.lt_succ_of_lt hk, rfl⟩
      · rintro ⟨k, hk, rfl⟩
        rcases Nat.lt_succ_iff_lt_or_eq.mp hk with hlt | heq
        · exact Or.inr ⟨k, hlt, rfl⟩
        · exact Or.inl (by obtain rfl : k = ⟨n, h⟩ := Fin.ext heq; rfl)
    · rw [dif_neg h, ih]
      constructor
      · rintro ⟨k, hk, rfl⟩; exact ⟨k, Nat.lt_succ_of_lt hk, rfl⟩
      · rintro ⟨k, -, rfl⟩; exact ⟨k, Nat.lt_of_lt_of_le k.isLt (Nat.le_of_not_lt h), rfl⟩

theorem outK_lt (y : S1x1x8192.Idx) : (y 2).val / 128 < k0_t1_loop.trips := by
  rw [trips_eq]; have : (y 2).val < 8192 := (y 2).isLt; omega

/-- The output row after the loop, lane by lane: at lane `y` the column minimum computed by the trip that owns the
    lane, trip `y / 128`, at its local lane `y % 128`. -/
def outG (v0 : Vec F S1x8192x3 .f32) (arg2 : Memref sig .tc .vmem S1x3x8192 .f32) (X_arg2 : BufTy.Contents (Elt F) arg2.view.ty)
    (y : S1x1x8192.Idx) : F .f32 :=
  k0_pay4 v0 (tile arg2 X_arg2 ⟨(y 2).val / 128, outK_lt y⟩)
    (ix3 (0 : Fin 1) (0 : Fin 1) (⟨(y 2).val % 128, Nat.mod_lt _ (by decide)⟩ : Fin 128))

/-- The lane under local lane `x` of trip `k`'s store is `128 k + x`. -/
theorem emb2 (k : Fin k0_t1_loop.trips) (x : S1x1x128.Idx) :
    ((Rect.unit (s := S1x1x8192) (k0_off2 k) S1x1x128.size (k0_off2_inb k)).emb x 2).val = 128 * k.val + (x 2).val := by
  show (k0_off2 k) 2 + 1 * (x 2).val = _
  rw [k0_off2_eq]; show 128 * k.val + 1 * (x 2).val = _; omega

theorem pay4_congr (v0 : Vec F S1x8192x3 .f32) (arg2 : Memref sig .tc .vmem S1x3x8192 .f32) (X_arg2 : BufTy.Contents (Elt F) arg2.view.ty)
    {k K : Fin k0_t1_loop.trips} {x L : S1x1x128.Idx} (hK : K = k) (hL : L = x) :
    k0_pay4 v0 (tile arg2 X_arg2 k) x = k0_pay4 v0 (tile arg2 X_arg2 K) L := by
  subst hK; subst hL; rfl

/-- Trip `k`'s store agrees with the lane-by-lane description on the lanes it covers. -/
theorem piece_payload (v0 : Vec F S1x8192x3 .f32) (arg2 : Memref sig .tc .vmem S1x3x8192 .f32) (X_arg2 : BufTy.Contents (Elt F) arg2.view.ty)
    (k : Fin k0_t1_loop.trips) (x : S1x1x128.Idx) :
    k0_pay4 v0 (tile arg2 X_arg2 k) x
      = outG v0 arg2 X_arg2 ((Rect.unit (s := S1x1x8192) (k0_off2 k) S1x1x128.size (k0_off2_inb k)).emb x) := by
  have hx2 : (x 2).val < 128 := (x 2).isLt
  have e2 := emb2 k x
  unfold outG
  refine pay4_congr v0 arg2 X_arg2 (Fin.ext ?_) (funext fun a => Fin.ext ?_)
  · show _ / 128 = k.val; rw [e2]; omega
  · match a with
    | ⟨0, h0⟩ => have h : (x ⟨0, h0⟩).val < 1 := (x ⟨0, h0⟩).isLt; show 0 = _; omega
    | ⟨1, h1⟩ => have h : (x ⟨1, h1⟩).val < 1 := (x ⟨1, h1⟩).isLt; show 0 = _; omega
    | ⟨2, h2⟩ => show _ % 128 = (x 2).val; rw [e2]; omega

/-- Lane `y` lies under the store of the trip that owns it. -/
theorem mem_piece (y : S1x1x8192.Idx) :
    y ∈ (Rect.unit (s := S1x1x8192) (k0_off2 ⟨(y 2).val / 128, outK_lt y⟩) S1x1x128.size (k0_off2_inb _)).set := by
  refine Rect.mem_set_unit.2 fun a => ?_
  rw [k0_off2_eq]
  match a with
  | ⟨0, h0⟩ => exact ⟨Nat.zero_le _, by have h : (y ⟨0, h0⟩).val < 1 := (y ⟨0, h0⟩).isLt; show (y ⟨0, h0⟩).val < 0 + 1; omega⟩
  | ⟨1, h1⟩ => exact ⟨Nat.zero_le _, by have h : (y ⟨1, h1⟩).val < 1 := (y ⟨1, h1⟩).isLt; show (y ⟨1, h1⟩).val < 0 + 1; omega⟩
  | ⟨2, h2⟩ =>
    show 128 * ((y 2).val / 128) ≤ (y 2).val ∧ (y 2).val < 128 * ((y 2).val / 128) + 128
    omega

/-- After the loop the output row holds, at lane `y`, the column minimum computed by the trip that owns the lane,
    trip `y / 128`, at its local lane `y % 128`: the trips' 128-lane stores are disjoint and together cover the row. -/
theorem out_canon (𝒱 : Variants) (c : Dev nD) (bd : Option 𝒱.V) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G_arg4 : BufTy.Contents (Elt F) arg4.view.ty) (G_arg5 : BufTy.Contents (Elt F) arg5.view.ty) (y : S1x1x8192.Idx) :
    View.canon (pb_k0_t1 (F := F) 𝒱 c bd i arg1 harg1 arg2 harg2 arg3 harg3 arg4 harg4 arg5 harg5 v0 X_arg2 G_arg4 G_arg5 64).1 y
      = k0_pay4 v0 (tile arg2 X_arg2 ⟨(y 2).val / 128, outK_lt y⟩)
          (ix3 (0 : Fin 1) (0 : Fin 1) (⟨(y 2).val % 128, Nat.mod_lt _ (by decide)⟩ : Fin 128)) := by
  refine View.canon_apply_of_pieces (Val := Elt F) (S := S1x1x8192) (e := EltTy.f32) (outG v0 arg2 X_arg2) _ ?_ y ?_
  · intro p hp x
    obtain ⟨k, -, rfl⟩ := (mem_pb_fst 𝒱 c bd i arg1 harg1 arg2 harg2 arg3 harg3 arg4 harg4 arg5 harg5 v0 X_arg2 G_arg4 G_arg5 64 p).1 hp
    dsimp only at x ⊢
    exact piece_payload v0 arg2 X_arg2 k x
  · exact ⟨(⟨Rect.unit (s := S1x1x8192) (k0_off2 ⟨(y 2).val / 128, outK_lt y⟩) S1x1x128.size (k0_off2_inb ⟨(y 2).val / 128, outK_lt y⟩), k0_pay4 v0 (tile arg2 X_arg2 ⟨(y 2).val / 128, outK_lt y⟩)⟩ : View.Piece (Elt F) S1x1x8192 .f32),
      (mem_pb_fst 𝒱 c bd i arg1 harg1 arg2 harg2 arg3 harg3 arg4 harg4 arg5 harg5 v0 X_arg2 G_arg4 G_arg5 64 _).2 ⟨_, by have := outK_lt y; rw [trips_eq] at this; exact this, rfl⟩, mem_piece y⟩

end Cert.KernelIdeal.LoopVal

namespace Cert.KernelIdeal.LoopVal1

open Idealize.ShloMosaic Idealize.ShloMosaic.TcCoe Idealize.SL.Sem Idealize.ShloMosaic.ValueIdx
open Cert.KernelIdeal Cert.KernelIdeal.Gen
open Cert.KernelIdeal.LoopVal (zero2 read_store_whole readAt_whole)

variable {F : FTy → Type} [FloatOps F]

/-! ## The second call's loop: the same statements over its own names -/

/-- Tile `k` of the lane-point array: the 128 lane points the `k`-th trip reads. -/
def tile (arg2 : Memref sig .tc .vmem S1x3x8192 .f32) (X_arg2 : BufTy.Contents (Elt F) arg2.view.ty)
    (k : Fin k1_t1_loop.trips) : Vec F S1x3x128 .f32 :=
  arg2.view.readAt (Elt F) (Rect.unit (s := S1x3x8192) (k1_off1 k) S1x3x128.size (k1_off1_inb k)).toLoadRect X_arg2

/-- What one trip stores, as a function of what it finds in the table: the trip's column minima into its own 128
    lanes of the output row, and over the whole table the entrywise minimum of the table and the trip's distances. -/
theorem tripL_eq (𝒱 : Variants) (c : Dev nD) (bd : Option 𝒱.V) (i : grid1.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (k : Fin k1_t1_loop.trips) (f4 : BufTy.Contents (Elt F) arg4.view.ty) (f5 : BufTy.Contents (Elt F) arg5.view.ty) :
    tripL_k1_t1 (F := F) 𝒱 c bd i arg1 harg1 arg2 harg2 arg3 harg3 arg4 harg4 arg5 harg5 v0 X_arg2 k f4 f5
      = ([⟨Rect.unit (s := S1x1x8192) (k1_off2 k) S1x1x128.size (k1_off2_inb k), k1_pay4 v0 (tile arg2 X_arg2 k)⟩],
         [⟨Rect.unit (s := S8192x128) ![0, 0] S8192x128.size inb_S8192x128_S8192x128_0_0,
            k1_pay3 v0 (tile arg2 X_arg2 k) (arg5.view.readAt (Elt F) (Rect.unit (s := S8192x128) ![0, 0] S8192x128.size inb_S8192x128_S8192x128_0_0).toLoadRect f5)⟩]) := by
  unfold tripL_k1_t1 trip_k1_t1
  rfl

/-- The running table after `n` trips, from the table `A0` at loop entry: each trip replaces it by its entrywise
    minimum with the trip's distances; past the last trip nothing changes. -/
def acc (v0 : Vec F S1x8192x3 .f32) (arg2 : Memref sig .tc .vmem S1x3x8192 .f32) (X_arg2 : BufTy.Contents (Elt F) arg2.view.ty)
    (A0 : Vec F S8192x128 .f32) : ℕ → Vec F S8192x128 .f32
  | 0 => A0
  | k + 1 => if h : k < k1_t1_loop.trips then k1_pay3 v0 (tile arg2 X_arg2 ⟨k, h⟩) (acc v0 arg2 X_arg2 A0 k)
      else acc v0 arg2 X_arg2 A0 k

/-- The table after the first `n` trips' stores is the running table `acc n`: every trip stores over the whole
    table, so what is read back is the last store's payload, which is computed from the table read whole. -/
theorem scratch_after (𝒱 : Variants) (c : Dev nD) (bd : Option 𝒱.V) (i : grid1.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G_arg4 : BufTy.Contents (Elt F) arg4.view.ty) (G_arg5 : BufTy.Contents (Elt F) arg5.view.ty) (A0 : Vec F S8192x128 .f32) (hG : arg5.view.read (Elt F) G_arg5 = A0) (n : ℕ) :
    arg5.view.read (Elt F) (arg5.view.writes (Elt F) G_arg5 (pb_k1_t1 (F := F) 𝒱 c bd i arg1 harg1 arg2 harg2 arg3 harg3 arg4 harg4 arg5 harg5 v0 X_arg2 G_arg4 G_arg5 n).2)
      = acc v0 arg2 X_arg2 A0 n := by
  induction n with
  | zero => exact hG
  | succ n ih =>
    rw [pb_k1_t1.eq_2]
    unfold pb_k1_t1Step
    by_cases h : n < k1_t1_loop.trips
    · rw [dif_pos h, tripL_eq]
      show arg5.view.read (Elt F) (arg5.view.writes (Elt F) G_arg5 ([_] ++ _)) = _
      rw [View.writes_append, read_store_whole _ _ zero2, readAt_whole _ _ zero2, ih]
      show _ = if h : n < k1_t1_loop.trips then _ else _
      rw [dif_pos h]
    · rw [dif_neg h, ih]
      show _ = if h : n < k1_t1_loop.trips then _ else _
      rw [dif_neg h]

/-- The loop runs 64 trips. -/
theorem trips_eq : k1_t1_loop.trips = 64 := by decide

theorem lt64 (k : Fin k1_t1_loop.trips) : k.val < 64 := Nat.lt_of_lt_of_le k.isLt (Nat.le_of_eq trips_eq)

/-- Tile `k` read at `(0, d, l)`: the lane-point array at `(0, d, 128 k + l)`. -/
theorem tile_apply (arg2 : Memref sig .tc .vmem S1x3x8192 .f32) (X_arg2 : BufTy.Contents (Elt F) arg2.view.ty)
    (k : Fin k1_t1_loop.trips) (d : Fin 3) (l : Fin 128) :
    tile arg2 X_arg2 k (ix3 (0 : Fin 1) d l)
      = arg2.view.read (Elt F) X_arg2 (ix3 (0 : Fin 1) d
          (⟨128 * k.val + l.val, by have := lt64 k; have := l.isLt; omega⟩ : Fin 8192)) := by
  unfold tile
  rw [View.readAt_eq_ld]
  show arg2.view.read (Elt F) X_arg2
      ((Rect.unit (s := S1x3x8192) (k1_off1 k) S1x3x128.size (k1_off1_inb k)).toLoadRect.idx (ix3 (0 : Fin 1) d l)) = _
  refine congrArg _ (funext fun a => Fin.ext ?_)
  have ho := k1_off1_eq k
  match a with
  | ⟨0, _⟩ => show (k1_off1 k) 0 + 1 * 0 = 0; rw [ho]; rfl
  | ⟨1, _⟩ => show (k1_off1 k) 1 + 1 * d.val = d.val; rw [ho]; show 0 + 1 * d.val = d.val; omega
  | ⟨2, _⟩ => show (k1_off1 k) 2 + 1 * l.val = 128 * k.val + l.val; rw [ho]; show 128 * k.val + 1 * l.val = _; omega

/-- The stores into the output row by the first `n` trips are exactly the pieces of the trips below `n`. -/
theorem mem_pb_fst (𝒱 : Variants) (c : Dev nD) (bd : Option 𝒱.V) (i : grid1.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G_arg4 : BufTy.Contents (Elt F) arg4.view.ty) (G_arg5 : BufTy.Contents (Elt F) arg5.view.ty) (n : ℕ) (p : View.Piece (Elt F) S1x1x8192 .f32) :
    p ∈ (pb_k1_t1 (F := F) 𝒱 c bd i arg1 harg1 arg2 harg2 arg3 harg3 arg4 harg4 arg5 harg5 v0 X_arg2 G_arg4 G_arg5 n).1 ↔ ∃ k : Fin k1_t1_loop.trips, k.val < n ∧ p = (⟨Rect.unit (s := S1x1x8192) (k1_off2 k) S1x1x128.size (k1_off2_inb k), k1_pay4 v0 (tile arg2 X_arg2 k)⟩ : View.Piece (Elt F) S1x1x8192 .f32) := by
  induction n with
  | zero =>
    constructor
    · intro h; exact absurd h List.not_mem_nil
    · rintro ⟨k, hk, -⟩; exact absurd hk (Nat.not_lt_zero _)
  | succ n ih =>
    rw [pb_k1_t1.eq_2]
    unfold pb_k1_t1Step
    by_cases h : n < k1_t1_loop.trips
    · rw [dif_pos h, tripL_eq]
      show p ∈ [(⟨Rect.unit (s := S1x1x8192) (k1_off2 ⟨n, h⟩) S1x1x128.size (k1_off2_inb ⟨n, h⟩), k1_pay4 v0 (tile arg2 X_arg2 ⟨n, h⟩)⟩ : View.Piece (Elt F) S1x1x8192 .f32)] ++ _ ↔ _
      rw [List.mem_append, List.mem_singleton, ih]
      constructor
      · rintro (rfl | ⟨k, hk, rfl⟩)
        · exact ⟨⟨n, h⟩, Nat.lt_succ_self n, rfl⟩
        · exact ⟨k, Nat.lt_succ_of_lt hk, rfl⟩
      · rintro ⟨k, hk, rfl⟩
        rcases Nat.lt_succ_iff_lt_or_eq.mp hk with hlt | heq
        · exact Or.inr ⟨k, hlt, rfl⟩
        · exact Or.inl (by obtain rfl : k = ⟨n, h⟩ := Fin.ext heq; rfl)
    · rw [dif_neg h, ih]
      constructor
      · rintro ⟨k, hk, rfl⟩; exact ⟨k, Nat.lt_succ_of_lt hk, rfl⟩
      · rintro ⟨k, -, rfl⟩; exact ⟨k, Nat.lt_of_lt_of_le k.isLt (Nat.le_of_not_lt h), rfl⟩

theorem outK_lt (y : S1x1x8192.Idx) : (y 2).val / 128 < k1_t1_loop.trips := by
  rw [trips_eq]; have : (y 2).val < 8192 := (y 2).isLt; omega

/-- The output row after the loop, lane by lane: at lane `y` the column minimum computed by the trip that owns the
    lane, trip `y / 128`, at its local lane `y % 128`. -/
def outG (v0 : Vec F S1x8192x3 .f32) (arg2 : Memref sig .tc .vmem S1x3x8192 .f32) (X_arg2 : BufTy.Contents (Elt F) arg2.view.ty)
    (y : S1x1x8192.Idx) : F .f32 :=
  k1_pay4 v0 (tile arg2 X_arg2 ⟨(y 2).val / 128, outK_lt y⟩)
    (ix3 (0 : Fin 1) (0 : Fin 1) (⟨(y 2).val % 128, Nat.mod_lt _ (by decide)⟩ : Fin 128))

/-- The lane under local lane `x` of trip `k`'s store is `128 k + x`. -/
theorem emb2 (k : Fin k1_t1_loop.trips) (x : S1x1x128.Idx) :
    ((Rect.unit (s := S1x1x8192) (k1_off2 k) S1x1x128.size (k1_off2_inb k)).emb x 2).val = 128 * k.val + (x 2).val := by
  show (k1_off2 k) 2 + 1 * (x 2).val = _
  rw [k1_off2_eq]; show 128 * k.val + 1 * (x 2).val = _; omega

theorem pay4_congr (v0 : Vec F S1x8192x3 .f32) (arg2 : Memref sig .tc .vmem S1x3x8192 .f32) (X_arg2 : BufTy.Contents (Elt F) arg2.view.ty)
    {k K : Fin k1_t1_loop.trips} {x L : S1x1x128.Idx} (hK : K = k) (hL : L = x) :
    k1_pay4 v0 (tile arg2 X_arg2 k) x = k1_pay4 v0 (tile arg2 X_arg2 K) L := by
  subst hK; subst hL; rfl

/-- Trip `k`'s store agrees with the lane-by-lane description on the lanes it covers. -/
theorem piece_payload (v0 : Vec F S1x8192x3 .f32) (arg2 : Memref sig .tc .vmem S1x3x8192 .f32) (X_arg2 : BufTy.Contents (Elt F) arg2.view.ty)
    (k : Fin k1_t1_loop.trips) (x : S1x1x128.Idx) :
    k1_pay4 v0 (tile arg2 X_arg2 k) x
      = outG v0 arg2 X_arg2 ((Rect.unit (s := S1x1x8192) (k1_off2 k) S1x1x128.size (k1_off2_inb k)).emb x) := by
  have hx2 : (x 2).val < 128 := (x 2).isLt
  have e2 := emb2 k x
  unfold outG
  refine pay4_congr v0 arg2 X_arg2 (Fin.ext ?_) (funext fun a => Fin.ext ?_)
  · show _ / 128 = k.val; rw [e2]; omega
  · match a with
    | ⟨0, h0⟩ => have h : (x ⟨0, h0⟩).val < 1 := (x ⟨0, h0⟩).isLt; show 0 = _; omega
    | ⟨1, h1⟩ => have h : (x ⟨1, h1⟩).val < 1 := (x ⟨1, h1⟩).isLt; show 0 = _; omega
    | ⟨2, h2⟩ => show _ % 128 = (x 2).val; rw [e2]; omega

/-- Lane `y` lies under the store of the trip that owns it. -/
theorem mem_piece (y : S1x1x8192.Idx) :
    y ∈ (Rect.unit (s := S1x1x8192) (k1_off2 ⟨(y 2).val / 128, outK_lt y⟩) S1x1x128.size (k1_off2_inb _)).set := by
  refine Rect.mem_set_unit.2 fun a => ?_
  rw [k1_off2_eq]
  match a with
  | ⟨0, h0⟩ => exact ⟨Nat.zero_le _, by have h : (y ⟨0, h0⟩).val < 1 := (y ⟨0, h0⟩).isLt; show (y ⟨0, h0⟩).val < 0 + 1; omega⟩
  | ⟨1, h1⟩ => exact ⟨Nat.zero_le _, by have h : (y ⟨1, h1⟩).val < 1 := (y ⟨1, h1⟩).isLt; show (y ⟨1, h1⟩).val < 0 + 1; omega⟩
  | ⟨2, h2⟩ =>
    show 128 * ((y 2).val / 128) ≤ (y 2).val ∧ (y 2).val < 128 * ((y 2).val / 128) + 128
    omega

/-- After the loop the output row holds, at lane `y`, the column minimum computed by the trip that owns the lane,
    trip `y / 128`, at its local lane `y % 128`: the trips' 128-lane stores are disjoint and together cover the row. -/
theorem out_canon (𝒱 : Variants) (c : Dev nD) (bd : Option 𝒱.V) (i : grid1.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (v0 : Vec F S1x8192x3 .f32) (X_arg2 : BufTy.Contents (Elt F) arg2.view.ty) (G_arg4 : BufTy.Contents (Elt F) arg4.view.ty) (G_arg5 : BufTy.Contents (Elt F) arg5.view.ty) (y : S1x1x8192.Idx) :
    View.canon (pb_k1_t1 (F := F) 𝒱 c bd i arg1 harg1 arg2 harg2 arg3 harg3 arg4 harg4 arg5 harg5 v0 X_arg2 G_arg4 G_arg5 64).1 y
      = k1_pay4 v0 (tile arg2 X_arg2 ⟨(y 2).val / 128, outK_lt y⟩)
          (ix3 (0 : Fin 1) (0 : Fin 1) (⟨(y 2).val % 128, Nat.mod_lt _ (by decide)⟩ : Fin 128)) := by
  refine View.canon_apply_of_pieces (Val := Elt F) (S := S1x1x8192) (e := EltTy.f32) (outG v0 arg2 X_arg2) _ ?_ y ?_
  · intro p hp x
    obtain ⟨k, -, rfl⟩ := (mem_pb_fst 𝒱 c bd i arg1 harg1 arg2 harg2 arg3 harg3 arg4 harg4 arg5 harg5 v0 X_arg2 G_arg4 G_arg5 64 p).1 hp
    dsimp only at x ⊢
    exact piece_payload v0 arg2 X_arg2 k x
  · exact ⟨(⟨Rect.unit (s := S1x1x8192) (k1_off2 ⟨(y 2).val / 128, outK_lt y⟩) S1x1x128.size (k1_off2_inb ⟨(y 2).val / 128, outK_lt y⟩), k1_pay4 v0 (tile arg2 X_arg2 ⟨(y 2).val / 128, outK_lt y⟩)⟩ : View.Piece (Elt F) S1x1x8192 .f32),
      (mem_pb_fst 𝒱 c bd i arg1 harg1 arg2 harg2 arg3 harg3 arg4 harg4 arg5 harg5 v0 X_arg2 G_arg4 G_arg5 64 _).2 ⟨_, by have := outK_lt y; rw [trips_eq] at this; exact this, rfl⟩, mem_piece y⟩

end Cert.KernelIdeal.LoopVal1

end
-- ==== Proof.Body.lean ====
/-
  What the body of each of the two kernels leaves in its two output staging buffers at one grid point, read off the
  run of the body: the body fills a scratch with +∞, folds 64 tiles of squared distances into it by elementwise
  minimum while writing each tile's column minima to the per-column output, and finally writes the lane minimum of
  the scratch to the per-row output.
-/
import proofs.«144590_j13589276525289_2_alg».proof.Proof.FrameI
import proofs.«144590_j13589276525289_2_alg».proof.Proof.LoopVal
import Idealize.ShloMosaic.Lib.Pipeline.Value
import Idealize.ShloMosaic.Lib.ValueIdx

noncomputable section

namespace Cert.KernelIdeal.Body

open Idealize.ShloMosaic Idealize.ShloMosaic.TcCoe Idealize.SL.Sem
open Cert.KernelIdeal Cert.KernelIdeal.Gen Cert.KernelIdeal.GenP

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The loop makes 64 trips. -/
theorem trips_eq : Scf.trips (0#32) (Scalar.addi 0#32 64#32) 1#32 = 64 := by decide

/-- The whole first operand, read back through its whole staging buffer, is the block itself. -/
theorem v0_eq0 (arg1 : Memref sig .tc .vmem S1x8192x3 .f32) (harg1 : arg1.IsWhole) (x0 : Vec F S1x8192x3 .f32) :
    View.readAt (Elt F) arg1.view (Rect.unit (s := S1x8192x3) ![0, 0, 0] S1x8192x3.size inb_S1x8192x3_S1x8192x3_0_0_0).toLoadRect (harg1.unread x0) = x0 := by
  rw [View.readAt_eq_ld, harg1.read_unread, View.ld_unit_zero hz3]

/-- What one grid point leaves in the per-row output's staging buffer: the lane minimum of the scratch after all
    64 tiles have been folded into it, the scratch having started at +∞ everywhere. -/
theorem out2_eq0 (c : Dev nD) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (x0 : Vec F S1x8192x3 .f32) (x1 : Vec F S1x3x8192 .f32) :
    out0_A_2 c i arg1 harg1 arg2 harg2 arg3 harg3 arg4 harg4 arg5 harg5 x0 x1 = k0_pay5 (LoopVal.acc x0 arg2 (harg2.unread x1) (k0_pay1 (F := F)) 64) := by
  unfold out0_A_2
  rw [View.read_writes_eq_canon _ _ _ (cover0_A_2 c i arg1 harg1 arg2 harg2 arg3 harg3 arg4 harg4 arg5 harg5 x0 x1)]
  unfold kernelRun0_A
  dsimp only
  rw [View.canon_unit_zero hz3]
  refine congrArg k0_pay5 ?_
  rw [View.readAt_eq_ld, View.ld_unit_zero hz2, View.writes_append, trips_eq, v0_eq0]
  exact LoopVal.scratch_after Variants.none c none i arg1 harg1 arg2 harg2 arg3 harg3 arg4 harg4 arg5 harg5 x0 (harg2.unread x1)
    arg4.view.junk _ (k0_pay1 (F := F)) (by rw [View.read_writes_junk_eq_canon, View.canon_unit_zero hz2]) 64

/-- What one grid point leaves in the per-column output's staging buffer: at column `m`, tile `m / 128`'s column
    minimum at lane `m % 128`. -/
theorem out3_eq0 (c : Dev nD) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (x0 : Vec F S1x8192x3 .f32) (x1 : Vec F S1x3x8192 .f32) (y : S1x1x8192.Idx) :
    out0_A_3 c i arg1 harg1 arg2 harg2 arg3 harg3 arg4 harg4 arg5 harg5 x0 x1 y
      = k0_pay4 x0 (LoopVal.tile arg2 (harg2.unread x1) ⟨(y 2).val / 128, LoopVal.outK_lt y⟩)
          (ValueIdx.ix3 (0 : Fin 1) (0 : Fin 1) (⟨(y 2).val % 128, Nat.mod_lt _ (by decide)⟩ : Fin 128)) := by
  unfold out0_A_3
  rw [View.read_writes_eq_canon _ _ _ (cover0_A_3 c i arg1 harg1 arg2 harg2 arg3 harg3 arg4 harg4 arg5 harg5 x0 x1)]
  unfold kernelRun0_A
  dsimp only
  rw [trips_eq, v0_eq0]
  exact LoopVal.out_canon Variants.none c none i arg1 harg1 arg2 harg2 arg3 harg3 arg4 harg4 arg5 harg5 x0 (harg2.unread x1) arg4.view.junk _ y

/-- The whole first operand, read back through its whole staging buffer, is the block itself. -/
theorem v0_eq1 (arg1 : Memref sig .tc .vmem S1x8192x3 .f32) (harg1 : arg1.IsWhole) (x0 : Vec F S1x8192x3 .f32) :
    View.readAt (Elt F) arg1.view (Rect.unit (s := S1x8192x3) ![0, 0, 0] S1x8192x3.size inb_S1x8192x3_S1x8192x3_0_0_0).toLoadRect (harg1.unread x0) = x0 := by
  rw [View.readAt_eq_ld, harg1.read_unread, View.ld_unit_zero hz3]

/-- What one grid point leaves in the per-row output's staging buffer: the lane minimum of the scratch after all
    64 tiles have been folded into it, the scratch having started at +∞ everywhere. -/
theorem out2_eq1 (c : Dev nD) (i : grid1.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (x0 : Vec F S1x8192x3 .f32) (x1 : Vec F S1x3x8192 .f32) :
    out1_A_2 c i arg1 harg1 arg2 harg2 arg3 harg3 arg4 harg4 arg5 harg5 x0 x1 = k1_pay5 (LoopVal1.acc x0 arg2 (harg2.unread x1) (k1_pay1 (F := F)) 64) := by
  unfold out1_A_2
  rw [View.read_writes_eq_canon _ _ _ (cover1_A_2 c i arg1 harg1 arg2 harg2 arg3 harg3 arg4 harg4 arg5 harg5 x0 x1)]
  unfold kernelRun1_A
  dsimp only
  rw [View.canon_unit_zero hz3]
  refine congrArg k1_pay5 ?_
  rw [View.readAt_eq_ld, View.ld_unit_zero hz2, View.writes_append, trips_eq, v0_eq1]
  exact LoopVal1.scratch_after Variants.none c none i arg1 harg1 arg2 harg2 arg3 harg3 arg4 harg4 arg5 harg5 x0 (harg2.unread x1)
    arg4.view.junk _ (k1_pay1 (F := F)) (by rw [View.read_writes_junk_eq_canon, View.canon_unit_zero hz2]) 64

/-- What one grid point leaves in the per-column output's staging buffer: at column `m`, tile `m / 128`'s column
    minimum at lane `m % 128`. -/
theorem out3_eq1 (c : Dev nD) (i : grid1.Coords) (arg1 : Memref sig .tc .vmem S1x8192x3 .f32) (harg1 : arg1.IsWhole) (arg2 : Memref sig .tc .vmem S1x3x8192 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192x128 .f32) (harg5 : arg5.IsWhole) (x0 : Vec F S1x8192x3 .f32) (x1 : Vec F S1x3x8192 .f32) (y : S1x1x8192.Idx) :
    out1_A_3 c i arg1 harg1 arg2 harg2 arg3 harg3 arg4 harg4 arg5 harg5 x0 x1 y
      = k1_pay4 x0 (LoopVal1.tile arg2 (harg2.unread x1) ⟨(y 2).val / 128, LoopVal1.outK_lt y⟩)
          (ValueIdx.ix3 (0 : Fin 1) (0 : Fin 1) (⟨(y 2).val % 128, Nat.mod_lt _ (by decide)⟩ : Fin 128)) := by
  unfold out1_A_3
  rw [View.read_writes_eq_canon _ _ _ (cover1_A_3 c i arg1 harg1 arg2 harg2 arg3 harg3 arg4 harg4 arg5 harg5 x0 x1)]
  unfold kernelRun1_A
  dsimp only
  rw [trips_eq, v0_eq1]
  exact LoopVal1.out_canon Variants.none c none i arg1 harg1 arg2 harg2 arg3 harg3 arg4 harg4 arg5 harg5 x0 (harg2.unread x1) arg4.view.junk _ y

end Cert.KernelIdeal.Body

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Pay.lean ====
/-
  The kernel body's arithmetic, read one entry at a time over the extended reals.

  The body holds a block of 8192 points (three coordinates each) and, per trip, a block of 128 lane points. It forms
  the 8192 × 128 table of squared distances, sum over the three coordinates of the squared coordinate difference; keeps
  a running entrywise minimum of such tables; takes, for each lane, the least entry of its column (a minimum over the
  8192 points), and at the end, for each point, the least entry of its row (a minimum over the 128 lanes). Every
  minimum starts from the value of the f32 word of +∞, which is left unevaluated.

  Each statement below says what one such value is at an index written by its coordinates. The layout steps between
  the loaded blocks and the table (dropping a leading unit axis, cutting out one column or one row, spreading a column
  along the lanes or a row down the points) each read one entry of their operand; a one-axis minimum-reduction reads as
  the fold of `min` over that axis's coordinates.
-/
import proofs.«144590_j13589276525289_2_alg».proof.Proof.Gen.KernelIdeal.Skeleton
import proofs.«144590_j13589276525289_2_alg».proof.Proof.Spec
import proofs.«144590_j13589276525289_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## The layout steps and the one-axis minimum, read at an index -/

/-- Column `d` of the point block, spread along the lanes: entry `(n, l)` is coordinate `d` of point `n`. The
    spread reads the column's entry of row `n`; the cut at offset `o` on the second axis reads column `o = d`;
    dropping the leading unit axis reads the block at `(0, n, d)`. -/
theorem colX (v0 : Vec Ideal S1x8192x3 .f32) (o : Nat) (d : Fin 3) (hd : d.val = o)
    (h1 : S1x8192x3.ShapeCasts S8192x3) (h2 : S8192x3.Slices ![0, o] S8192x1) (h3 : S8192x1.Broadcasts S8192x128)
    (n : Fin 8192) (l : Fin 128) :
    broadcastTo S8192x128 (extractStridedSlice S8192x1 ![0, o] (shapeCast S8192x3 v0 h1) h2) h3 (ix2 n l)
      = v0 (ix3 (0 : Fin 1) n d) := by
  refine (broadcastTo_a1_ab_apply _ h3 n l).trans ?_
  refine (slice2_axis1_apply o _ h2 n (0 : Fin 1) d (by rw [hd]; rfl)).trans ?_
  exact shapeCast_1ab_ab_apply v0 h1 n d

/-- Row `d` of the lane block, spread down the points: entry `(n, l)` is coordinate `d` of lane point `l`. The
    spread reads the one row at `l`; the cut at offset `o` on the first axis reads row `o = d`; dropping the leading
    unit axis reads the block at `(0, d, l)`. -/
theorem rowY (v21 : Vec Ideal S1x3x128 .f32) (o : Nat) (d : Fin 3) (hd : d.val = o)
    (h1 : S1x3x128.ShapeCasts S3x128) (h2 : S3x128.Slices ![o, 0] S1x128) (h3 : S1x128.Broadcasts S8192x128)
    (n : Fin 8192) (l : Fin 128) :
    broadcastTo S8192x128 (extractStridedSlice S1x128 ![o, 0] (shapeCast S3x128 v21 h1) h2) h3 (ix2 n l)
      = v21 (ix3 (0 : Fin 1) d l) := by
  refine (broadcastTo_1b_ab_apply _ h3 n l).trans ?_
  refine (slice2_axis0_apply o _ h2 (0 : Fin 1) l d (by rw [hd]; rfl)).trans ?_
  exact shapeCast_1ab_ab_apply v21 h1 d l

/-- A minimum-reduction over one axis, read at an index of the result: the fold of `min`, from the value of the
    accumulator's word, over the coordinates of the reduced axis. The source indices lying over a result index are
    exactly that index with each coordinate of the reduced axis put back, and `min` commutes and associates, so the
    fold over that set in any order is the fold over the coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- Over lane `l` of the reduced table, putting point `n` back on the first axis gives the entry `(n, l)`. -/
theorem lift0 (h : S8192x128.Reduces [0] S128) (l : Fin 128) (n : Fin 8192) : h.lift (ix1 l) n = ix2 n l := by
  funext c
  match c with
  | ⟨0, _⟩ => exact Fin.ext rfl
  | ⟨1, _⟩ => exact Fin.ext rfl

/-- Over point `n` of the reduced table, putting lane `l` back on the second axis gives the entry `(n, l)`. -/
theorem lift1 (h : S8192x128.Reduces [1] S8192) (n : Fin 8192) (l : Fin 128) : h.lift (ix1 n) l = ix2 n l := by
  funext c
  match c with
  | ⟨0, _⟩ => exact Fin.ext rfl
  | ⟨1, _⟩ => exact Fin.ext rfl

/-! ## The values of the first call's body -/

/-- The table the running minimum starts from: every entry the starting value. -/
theorem pay1_apply (n : Fin 8192) (l : Fin 128) : k0_pay1 (F := Ideal) (ix2 n l) = Cert.Chamfer.start := by
  unfold k0_pay1
  rw [shapeCast_self]
  rfl

/-- The table of squared distances: entry `(n, l)` is the sum over the three coordinates of the squared difference
    between point `n`'s coordinate and lane point `l`'s. -/
theorem pay2_apply (v0 : Vec Ideal S1x8192x3 .f32) (v21 : Vec Ideal S1x3x128 .f32) (n : Fin 8192) (l : Fin 128) :
    k0_pay2 v0 v21 (ix2 n l)
      = (v0 (ix3 (0 : Fin 1) n (0 : Fin 3)) - v21 (ix3 (0 : Fin 1) (0 : Fin 3) l)) * (v0 (ix3 (0 : Fin 1) n (0 : Fin 3)) - v21 (ix3 (0 : Fin 1) (0 : Fin 3) l))
        + (v0 (ix3 (0 : Fin 1) n (1 : Fin 3)) - v21 (ix3 (0 : Fin 1) (1 : Fin 3) l)) * (v0 (ix3 (0 : Fin 1) n (1 : Fin 3)) - v21 (ix3 (0 : Fin 1) (1 : Fin 3) l))
        + (v0 (ix3 (0 : Fin 1) n (2 : Fin 3)) - v21 (ix3 (0 : Fin 1) (2 : Fin 3) l)) * (v0 (ix3 (0 : Fin 1) n (2 : Fin 3)) - v21 (ix3 (0 : Fin 1) (2 : Fin 3) l)) := by
  unfold k0_pay2
  simp only [addf_apply, mulf_apply, subf_apply]
  rw [colX v0 0 0 rfl, colX v0 1 1 rfl, colX v0 2 2 rfl, rowY v21 0 0 rfl, rowY v21 1 1 rfl, rowY v21 2 2 rfl]

/-- The running minimum after a trip: entrywise, the lesser of the table so far and the trip's squared distances. -/
theorem pay3_apply (v0 : Vec Ideal S1x8192x3 .f32) (v21 : Vec Ideal S1x3x128 .f32) (v40 : Vec Ideal S8192x128 .f32)
    (j : S8192x128.Idx) : k0_pay3 v0 v21 v40 j = min (v40 j) (k0_pay2 v0 v21 j) := by
  unfold k0_pay3
  simp only [shapeCast_self]
  rfl

/-- A trip's column minima: for lane `l`, the fold of `min` from the starting value over the 8192 points of the
    squared distance to lane point `l`. The two leading unit axes added afterwards do not move the entry. -/
theorem pay4_apply (v0 : Vec Ideal S1x8192x3 .f32) (v21 : Vec Ideal S1x3x128 .f32) (l : Fin 128) :
    k0_pay4 v0 v21 (ix3 (0 : Fin 1) (0 : Fin 1) l)
      = (Finset.univ : Finset (Fin 8192)).fold min Cert.Chamfer.start (fun n => k0_pay2 v0 v21 (ix2 n l)) := by
  unfold k0_pay4
  refine (shapeCast_ab_1ab_apply _ _ (0 : Fin 1) (0 : Fin 1) l).trans ?_
  refine (shapeCast_a_1a_apply _ _ (0 : Fin 1) l).trans ?_
  refine (multiReduction_minimumf_single _ _ _ _ _ _).trans ?_
  refine congrArg (Finset.fold min _ · Finset.univ) ?_
  funext n
  exact congrArg (k0_pay2 v0 v21) (lift0 _ l n)

/-- The row minima of a table: for point `n`, the fold of `min` from the starting value over the 128 lanes of the
    table's row `n`. The two leading unit axes added afterwards do not move the entry. -/
theorem pay5_apply (v10 : Vec Ideal S8192x128 .f32) (n : Fin 8192) :
    k0_pay5 v10 (ix3 (0 : Fin 1) (0 : Fin 1) n)
      = (Finset.univ : Finset (Fin 128)).fold min Cert.Chamfer.start (fun l => v10 (ix2 n l)) := by
  unfold k0_pay5
  refine (shapeCast_ab_1ab_apply _ _ (0 : Fin 1) (0 : Fin 1) n).trans ?_
  refine (shapeCast_a_1a_apply _ _ (0 : Fin 1) n).trans ?_
  refine (multiReduction_minimumf_single _ _ _ _ _ _).trans ?_
  refine congrArg (Finset.fold min _ · Finset.univ) ?_
  funext l
  exact congrArg v10 (lift1 _ n l)

/-! ## The values of the second call's body -/

/-- The table the running minimum starts from: every entry the starting value. -/
theorem pay1_apply' (n : Fin 8192) (l : Fin 128) : k1_pay1 (F := Ideal) (ix2 n l) = Cert.Chamfer.start := by
  unfold k1_pay1
  rw [shapeCast_self]
  rfl

/-- The table of squared distances: entry `(n, l)` is the sum over the three coordinates of the squared difference
    between point `n`'s coordinate and lane point `l`'s. -/
theorem pay2_apply' (v0 : Vec Ideal S1x8192x3 .f32) (v21 : Vec Ideal S1x3x128 .f32) (n : Fin 8192) (l : Fin 128) :
    k1_pay2 v0 v21 (ix2 n l)
      = (v0 (ix3 (0 : Fin 1) n (0 : Fin 3)) - v21 (ix3 (0 : Fin 1) (0 : Fin 3) l)) * (v0 (ix3 (0 : Fin 1) n (0 : Fin 3)) - v21 (ix3 (0 : Fin 1) (0 : Fin 3) l))
        + (v0 (ix3 (0 : Fin 1) n (1 : Fin 3)) - v21 (ix3 (0 : Fin 1) (1 : Fin 3) l)) * (v0 (ix3 (0 : Fin 1) n (1 : Fin 3)) - v21 (ix3 (0 : Fin 1) (1 : Fin 3) l))
        + (v0 (ix3 (0 : Fin 1) n (2 : Fin 3)) - v21 (ix3 (0 : Fin 1) (2 : Fin 3) l)) * (v0 (ix3 (0 : Fin 1) n (2 : Fin 3)) - v21 (ix3 (0 : Fin 1) (2 : Fin 3) l)) := by
  unfold k1_pay2
  simp only [addf_apply, mulf_apply, subf_apply]
  rw [colX v0 0 0 rfl, colX v0 1 1 rfl, colX v0 2 2 rfl, rowY v21 0 0 rfl, rowY v21 1 1 rfl, rowY v21 2 2 rfl]

/-- The running minimum after a trip: entrywise, the lesser of the table so far and the trip's squared distances. -/
theorem pay3_apply' (v0 : Vec Ideal S1x8192x3 .f32) (v21 : Vec Ideal S1x3x128 .f32) (v40 : Vec Ideal S8192x128 .f32)
    (j : S8192x128.Idx) : k1_pay3 v0 v21 v40 j = min (v40 j) (k1_pay2 v0 v21 j) := by
  unfold k1_pay3
  simp only [shapeCast_self]
  rfl

/-- A trip's column minima: for lane `l`, the fold of `min` from the starting value over the 8192 points of the
    squared distance to lane point `l`. The two leading unit axes added afterwards do not move the entry. -/
theorem pay4_apply' (v0 : Vec Ideal S1x8192x3 .f32) (v21 : Vec Ideal S1x3x128 .f32) (l : Fin 128) :
    k1_pay4 v0 v21 (ix3 (0 : Fin 1) (0 : Fin 1) l)
      = (Finset.univ : Finset (Fin 8192)).fold min Cert.Chamfer.start (fun n => k1_pay2 v0 v21 (ix2 n l)) := by
  unfold k1_pay4
  refine (shapeCast_ab_1ab_apply _ _ (0 : Fin 1) (0 : Fin 1) l).trans ?_
  refine (shapeCast_a_1a_apply _ _ (0 : Fin 1) l).trans ?_
  refine (multiReduction_minimumf_single _ _ _ _ _ _).trans ?_
  refine congrArg (Finset.fold min _ · Finset.univ) ?_
  funext n
  exact congrArg (k1_pay2 v0 v21) (lift0 _ l n)

/-- The row minima of a table: for point `n`, the fold of `min` from the starting value over the 128 lanes of the
    table's row `n`. The two leading unit axes added afterwards do not move the entry. -/
theorem pay5_apply' (v10 : Vec Ideal S8192x128 .f32) (n : Fin 8192) :
    k1_pay5 v10 (ix3 (0 : Fin 1) (0 : Fin 1) n)
      = (Finset.univ : Finset (Fin 128)).fold min Cert.Chamfer.start (fun l => v10 (ix2 n l)) := by
  unfold k1_pay5
  refine (shapeCast_ab_1ab_apply _ _ (0 : Fin 1) (0 : Fin 1) n).trans ?_
  refine (shapeCast_a_1a_apply _ _ (0 : Fin 1) n).trans ?_
  refine (multiReduction_minimumf_single _ _ _ _ _ _).trans ?_
  refine congrArg (Finset.fold min _ · Finset.univ) ?_
  funext l
  exact congrArg v10 (lift1 _ n l)

end Cert.KernelIdeal.Pay

end
-- ==== Proof.PointVal.lean ====
/-
  What one grid point of each kernel leaves, as the specification's minima.

  At a grid point the kernel holds one batch of the first cloud (8192 points, three coordinates) and the same batch of
  the second cloud with its last two axes exchanged. Trip `k` of its loop reads tile `k` of the second cloud, lanes
  `128·k … 128·k + 127`, forms the table of squared distances between the 8192 points and the 128 lane points, stores the
  column minima of that table, and folds the table into a running entrywise minimum. After the 64 trips the row minima
  of the running table are stored.

  The table's entry (n, l) in trip `k` is the specification's squared distance between point `n` of the first cloud
  and point `128·k + l` of the second. Hence the column minimum stored for point `m`, by trip `m / 128` at lane
  `m % 128`, is `colMin` at `m`; and the row minimum of the running table at `n`, by the tile-by-tile lemma, is
  `rowMin` at `n`. The second kernel is the same computation under its own names.
-/
import proofs.«144590_j13589276525289_2_alg».proof.Proof.Pay
import proofs.«144590_j13589276525289_2_alg».proof.Proof.LoopVal
import proofs.«144590_j13589276525289_2_alg».proof.Proof.KernelMath
import Idealize.ShloMosaic.Lib.Pipeline.Frame

noncomputable section

namespace Cert.KernelIdeal.PointVal

open Idealize.ShloMosaic Idealize.ShloMosaic.ValueIdx Cert.KernelIdeal Cert.KernelIdeal.Gen

/-- A column below 8192 lies in one of the 64 tiles of 128. -/
theorem tile_lt (m : Fin 8192) : m.val / 128 < k0_t1_loop.trips := by
  rw [LoopVal.trips_eq]; have := m.isLt; omega

section First

variable (arg2 : Memref sig .tc .vmem S1x3x8192 .f32) (harg2 : arg2.IsWhole)
  (x0 : Vec Ideal S1x8192x3 .f32) (x1 : Vec Ideal S1x3x8192 .f32) (X Y : Cert.Chamfer.SP.Idx → EReal) (b : Fin 2)
  (hx : ∀ (n : Fin 8192) (d : Fin 3), x0 (ix3 (0 : Fin 1) n d) = X (ix3 b n d))
  (hy : ∀ (d : Fin 3) (m : Fin 8192), x1 (ix3 (0 : Fin 1) d m) = Y (ix3 b m d))

include hx hy in
/-- A trip's table of squared distances at (n, l) is the squared distance from point `n` to the point of the second
    cloud that lane `l` of tile `k` holds, point `128·k + l`. -/
theorem tile_sqd (k : Fin k0_t1_loop.trips) (n : Fin 8192) (l : Fin 128) :
    k0_pay2 x0 (LoopVal.tile arg2 (harg2.unread x1) k) (ix2 n l)
      = Cert.Chamfer.sqd X Y b n
          (⟨128 * k.val + l.val, by have := LoopVal.lt64 k; have := l.isLt; omega⟩ : Fin 8192) := by
  rw [Pay.pay2_apply, LoopVal.tile_apply, LoopVal.tile_apply, LoopVal.tile_apply, harg2.read_unread x1]
  exact Cert.Chamfer.sqd_of_blocks X Y b n _ x0 x1 (hx n) (fun d => hy d _)

include hx hy in
/-- The row minima the first kernel leaves for batch `b`: the specification's `rowMin`. -/
theorem row_value (n : Fin 8192) :
    k0_pay5 (LoopVal.acc x0 arg2 (harg2.unread x1) (k0_pay1 (F := Ideal)) 64) (ix3 (0 : Fin 1) (0 : Fin 1) n)
      = Cert.Chamfer.rowMin X Y (ix2 b n) := by
  rw [Pay.pay5_apply]
  refine Cert.Chamfer.rowMin_of_tiles X Y b n
    (fun k l => LoopVal.acc x0 arg2 (harg2.unread x1) (k0_pay1 (F := Ideal)) k (ix2 n l)) (fun l => ?_) (fun k hk l => ?_)
  · show k0_pay1 (F := Ideal) (ix2 n l) = _
    exact Pay.pay1_apply n l
  · have hk' : k < k0_t1_loop.trips := by rw [LoopVal.trips_eq]; exact hk
    show LoopVal.acc x0 arg2 (harg2.unread x1) (k0_pay1 (F := Ideal)) (k + 1) (ix2 n l) = _
    rw [LoopVal.acc, dif_pos hk', Pay.pay3_apply, tile_sqd arg2 harg2 x0 x1 X Y b hx hy ⟨k, hk'⟩ n l]

include hx hy in
/-- The column minimum the first kernel stores for point `m` of the second cloud, by the trip and lane that own it:
    the specification's `colMin`. -/
theorem col_value (m : Fin 8192) :
    k0_pay4 x0 (LoopVal.tile arg2 (harg2.unread x1) ⟨m.val / 128, tile_lt m⟩)
        (ix3 (0 : Fin 1) (0 : Fin 1) (⟨m.val % 128, Nat.mod_lt _ (by decide)⟩ : Fin 128))
      = Cert.Chamfer.colMin X Y (ix2 b m) := by
  rw [Pay.pay4_apply, Cert.Chamfer.colMin_at]
  refine Finset.fold_congr fun n _ => ?_
  rw [tile_sqd arg2 harg2 x0 x1 X Y b hx hy]
  exact congrArg (Cert.Chamfer.sqd X Y b n) (Fin.ext (Nat.div_add_mod m.val 128))

end First

section Second

variable (arg2 : Memref sig .tc .vmem S1x3x8192 .f32) (harg2 : arg2.IsWhole)
  (x0 : Vec Ideal S1x8192x3 .f32) (x1 : Vec Ideal S1x3x8192 .f32) (X Y : Cert.Chamfer.SP.Idx → EReal) (b : Fin 2)
  (hx : ∀ (n : Fin 8192) (d : Fin 3), x0 (ix3 (0 : Fin 1) n d) = X (ix3 b n d))
  (hy : ∀ (d : Fin 3) (m : Fin 8192), x1 (ix3 (0 : Fin 1) d m) = Y (ix3 b m d))

/-- A column below 8192 lies in one of the second kernel's 64 tiles of 128. -/
theorem tile_lt' (m : Fin 8192) : m.val / 128 < k1_t1_loop.trips := by
  rw [LoopVal1.trips_eq]; have := m.isLt; omega

include hx hy in
/-- The second kernel's table of squared distances at (n, l): the squared distance from point `n` to point
    `128·k + l` of the second cloud. -/
theorem tile_sqd' (k : Fin k1_t1_loop.trips) (n : Fin 8192) (l : Fin 128) :
    k1_pay2 x0 (LoopVal1.tile arg2 (harg2.unread x1) k) (ix2 n l)
      = Cert.Chamfer.sqd X Y b n
          (⟨128 * k.val + l.val, by have := LoopVal1.lt64 k; have := l.isLt; omega⟩ : Fin 8192) := by
  rw [Pay.pay2_apply', LoopVal1.tile_apply, LoopVal1.tile_apply, LoopVal1.tile_apply, harg2.read_unread x1]
  exact Cert.Chamfer.sqd_of_blocks X Y b n _ x0 x1 (hx n) (fun d => hy d _)

include hx hy in
/-- The row minima the second kernel leaves for batch `b`: the specification's `rowMin`. -/
theorem row_value' (n : Fin 8192) :
    k1_pay5 (LoopVal1.acc x0 arg2 (harg2.unread x1) (k1_pay1 (F := Ideal)) 64) (ix3 (0 : Fin 1) (0 : Fin 1) n)
      = Cert.Chamfer.rowMin X Y (ix2 b n) := by
  rw [Pay.pay5_apply']
  refine Cert.Chamfer.rowMin_of_tiles X Y b n
    (fun k l => LoopVal1.acc x0 arg2 (harg2.unread x1) (k1_pay1 (F := Ideal)) k (ix2 n l)) (fun l => ?_) (fun k hk l => ?_)
  · show k1_pay1 (F := Ideal) (ix2 n l) = _
    exact Pay.pay1_apply' n l
  · have hk' : k < k1_t1_loop.trips := by rw [LoopVal1.trips_eq]; exact hk
    show LoopVal1.acc x0 arg2 (harg2.unread x1) (k1_pay1 (F := Ideal)) (k + 1) (ix2 n l) = _
    rw [LoopVal1.acc, dif_pos hk', Pay.pay3_apply', tile_sqd' arg2 harg2 x0 x1 X Y b hx hy ⟨k, hk'⟩ n l]

include hx hy in
/-- The column minimum the second kernel stores for point `m` of the second cloud: the specification's `colMin`. -/
theorem col_value' (m : Fin 8192) :
    k1_pay4 x0 (LoopVal1.tile arg2 (harg2.unread x1) ⟨m.val / 128, tile_lt' m⟩)
        (ix3 (0 : Fin 1) (0 : Fin 1) (⟨m.val % 128, Nat.mod_lt _ (by decide)⟩ : Fin 128))
      = Cert.Chamfer.colMin X Y (ix2 b m) := by
  rw [Pay.pay4_apply', Cert.Chamfer.colMin_at]
  refine Finset.fold_congr fun n _ => ?_
  rw [tile_sqd' arg2 harg2 x0 x1 X Y b hx hy]
  exact congrArg (Cert.Chamfer.sqd X Y b n) (Fin.ext (Nat.div_add_mod m.val 128))

end Second

end Cert.KernelIdeal.PointVal

end
-- ==== Proof.Blocks.lean ====
/-
  From the blocks the grid points write to whole arrays.

  Each pipelined region runs its kernel body once per grid point. There are two points, one per batch: every window's
  block index at point `t` is (t, 0, 0), so point `t` reads batch `t` of each input array and writes batch `t` of each
  output array. An array index lies in the block at block index q on an axis of block size s exactly when its
  coordinate is q·s plus a coordinate inside the block; with the block index decided over the two points, that turns
  a block read at a literal index into the array read at (t, ·, ·). The output blocks tile the output arrays, so if the
  body leaves row `t` of some [2, 8192] array `D` in an output's staging buffer at every point `t`, the output array ends
  as `D` with a unit middle axis.
-/
import proofs.«144590_j13589276525289_2_alg».proof.Proof.FrameI
import proofs.«144590_j13589276525289_2_alg».proof.Proof.Bridge
import proofs.«144590_j13589276525289_2_alg».proof.Proof.Body
import proofs.«144590_j13589276525289_2_alg».proof.Proof.PointVal
import Idealize.ShloMosaic.Lib.Pipeline.Value
import Idealize.ShloMosaic.Lib.ValueIdx

noncomputable section

namespace Cert.KernelIdeal.Blocks

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Region 0: the grid and the index maps -/

/-- The grid has two points. -/
theorem hN0 : cfg0.N = 2 := N_0

/-- The batch a grid point handles: its own number. -/
def bOf0 (t : Fin cfg0.N) : Fin 2 := ⟨t.val, by have := t.isLt; have hN : cfg0.N = 2 := N_0; omega⟩

/-- Every window's block index at point `t` is (t, 0, 0). -/
theorem idx0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-! ## Region 0: the input blocks at an index -/

/-- Point `t`'s block of the first input array is batch `t` of it. -/
theorem xblk0 (c : Dev nD) (t : Fin cfg0.N) (X : Cert.Chamfer.SP.Idx → EReal) (hX : V c main_arg0 = X) (n : Fin 8192) (d : Fin 3) :
    (iblk0 V c 0 t : Vec Ideal S1x8192x3 .f32) (ix3 (0 : Fin 1) n d) = X (ix3 (bOf0 t) n d) := by
  obtain ⟨⟨e0, e1, e2⟩, -⟩ := idx0 t
  unfold iblk0
  rw [View.read_apply]
  show V c main_arg0 _ = _
  rw [hX]
  refine congrArg X ?_
  funext a
  apply Fin.ext
  match a with
  | ⟨0, _⟩ => show win0_0.index t (0 : Fin 3) * 1 + 1 * 0 = t.val; omega
  | ⟨1, _⟩ => show win0_0.index t (1 : Fin 3) * 8192 + 1 * n.val = n.val; omega
  | ⟨2, _⟩ => show win0_0.index t (2 : Fin 3) * 3 + 1 * d.val = d.val; omega

/-- Point `t`'s block of the second input array, which holds \`Y\` with its last two axes exchanged. -/
theorem yblk0 (c : Dev nD) (t : Fin cfg0.N) (Y : Cert.Chamfer.SP.Idx → EReal)
    (hY : ∀ (b : Fin 2) (d : Fin 3) (m : Fin 8192), V c main_v0 (ix3 b d m) = Y (ix3 b m d)) (d : Fin 3) (m : Fin 8192) :
    (iblk0 V c 1 t : Vec Ideal S1x3x8192 .f32) (ix3 (0 : Fin 1) d m) = Y (ix3 (bOf0 t) m d) := by
  obtain ⟨-, ⟨e0, e1, e2⟩, -⟩ := idx0 t
  unfold iblk0
  rw [View.read_apply]
  show V c main_v0 _ = _
  refine Eq.trans (congrArg (V c main_v0) ?_) (hY (bOf0 t) d m)
  funext a
  apply Fin.ext
  match a with
  | ⟨0, _⟩ => show win0_1.index t (0 : Fin 3) * 1 + 1 * 0 = t.val; omega
  | ⟨1, _⟩ => show win0_1.index t (1 : Fin 3) * 3 + 1 * d.val = d.val; omega
  | ⟨2, _⟩ => show win0_1.index t (2 : Fin 3) * 8192 + 1 * m.val = m.val; omega

/-! ## Region 0: the output blocks tile the output arrays -/

/-- An index of the first output array is in point `t`'s block iff each coordinate is in the block's range. -/
theorem mem_blk0_2 (t : Fin cfg0.N) (i : S2x1x8192.Idx) :
    i ∈ ((cfg0.win 2).blk t).view.set ↔ ∀ a : Fin 3, win0_2.index t a * S1x1x8192.size a ≤ (i a).val ∧ (i a).val < win0_2.index t a * S1x1x8192.size a + S1x1x8192.size a := by
  show i ∈ ((View.whole main_v1_0).slice (win0_2.rect t)).set ↔ _
  rw [View.set_slice_whole, Rect.mem_set_unit]
  exact Iff.rfl

theorem mem_blk0_3 (t : Fin cfg0.N) (i : S2x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v1_1).slice (win0_3.rect t)).set ↔ _
  rw [View.set_slice_whole, Rect.mem_set_unit]
  exact Iff.rfl

/-- The point whose number is an index's batch coordinate. -/
def tOf0 (i : S2x1x8192.Idx) : Fin cfg0.N := ⟨(i 0).val, by have := (i 0).isLt; have hN : cfg0.N = 2 := N_0; have : S2x1x8192.size 0 = 2 := rfl; omega⟩

/-- Every index of the first output array is in the block of the point its batch coordinate names. -/
theorem cover0_2 (i : S2x1x8192.Idx) : ∃ t : Fin cfg0.N, (cfg0.win 2).flush t = true ∧ i ∈ ((cfg0.win 2).blk t).view.set := by
  refine ⟨tOf0 i, flush0_2 _, ?_⟩
  rw [mem_blk0_2]
  obtain ⟨-, -, ⟨e0, e1, e2⟩, -⟩ := idx0 (tOf0 i)
  have h0 : (tOf0 i).val = (i 0).val := rfl
  have h1 : (i 1).val < 1 := (i 1).isLt
  have h2 : (i 2).val < 8192 := (i 2).isLt
  intro a
  match a with
  | ⟨0, _⟩ => show win0_2.index (tOf0 i) (0 : Fin 3) * 1 ≤ (i 0).val ∧ (i 0).val < win0_2.index (tOf0 i) (0 : Fin 3) * 1 + 1; omega
  | ⟨1, _⟩ => show win0_2.index (tOf0 i) (1 : Fin 3) * 1 ≤ (i 1).val ∧ (i 1).val < win0_2.index (tOf0 i) (1 : Fin 3) * 1 + 1; omega
  | ⟨2, _⟩ => show win0_2.index (tOf0 i) (2 : Fin 3) * 8192 ≤ (i 2).val ∧ (i 2).val < win0_2.index (tOf0 i) (2 : Fin 3) * 8192 + 8192; omega

theorem cover0_3 (i : S2x1x8192.Idx) : ∃ t : Fin cfg0.N, (cfg0.win 3).flush t = true ∧ i ∈ ((cfg0.win 3).blk t).view.set := by
  refine ⟨tOf0 i, flush0_3 _, ?_⟩
  rw [mem_blk0_3]
  obtain ⟨-, -, -, ⟨e0, e1, e2⟩⟩ := idx0 (tOf0 i)
  have h0 : (tOf0 i).val = (i 0).val := rfl
  have h1 : (i 1).val < 1 := (i 1).isLt
  have h2 : (i 2).val < 8192 := (i 2).isLt
  intro a
  match a with
  | ⟨0, _⟩ => show win0_3.index (tOf0 i) (0 : Fin 3) * 1 ≤ (i 0).val ∧ (i 0).val < win0_3.index (tOf0 i) (0 : Fin 3) * 1 + 1; omega
  | ⟨1, _⟩ => show win0_3.index (tOf0 i) (1 : Fin 3) * 1 ≤ (i 1).val ∧ (i 1).val < win0_3.index (tOf0 i) (1 : Fin 3) * 1 + 1; omega
  | ⟨2, _⟩ => show win0_3.index (tOf0 i) (2 : Fin 3) * 8192 ≤ (i 2).val ∧ (i 2).val < win0_3.index (tOf0 i) (2 : Fin 3) * 8192 + 8192; omega

/-! ## Region 0: what a point writes back, and the arrays after the region -/

/-- If the body leaves, at point `t`, row `t` of `D` in the first output's staging buffer, the point writes back block
    `t` of `D` seen with a unit middle axis. -/
theorem flushed0_2_of (c : Dev nD) (t : Fin cfg0.N) (D : Cert.Chamfer.SD.Idx → EReal)
    (h : ∀ n : Fin 8192, (outsAt0 V c t).1 (ix3 (0 : Fin 1) (0 : Fin 1) n) = D (ix2 (bOf0 t) n)) :
    (dat0 V c).flushed 2 t = ((cfg0.win 2).blk t).view.read (Elt Ideal) (Bridge.unsq D) := by
  show (cfg0.win 2).cut (grid0.coords t) ((dat0 V c).after 2 t) = _
  rw [after0_2]
  obtain ⟨-, -, ⟨e0, e1, e2⟩, -⟩ := idx0 t
  funext j
  have hj0 : (j 0).val < 1 := (j 0).isLt
  have hj1 : (j 1).val < 1 := (j 1).isLt
  have hj2 : (j 2).val < 8192 := (j 2).isLt
  rw [View.read_apply]
  show (outsAt0 V c t).1 ((cfg0.win 2).xinj (grid0.coords t) j) = Bridge.unsq D (((cfg0.win 2).blk t).view.emb j)
  have hl : (cfg0.win 2).xinj (grid0.coords t) j = ix3 (0 : Fin 1) (0 : Fin 1) (⟨(j 2).val, hj2⟩ : Fin 8192) := by
    funext a; apply Fin.ext
    match a with
    | ⟨0, _⟩ => show (j 0).val = 0; omega
    | ⟨1, _⟩ => show (j 1).val = 0; omega
    | ⟨2, _⟩ => rfl
  refine (congrArg (outsAt0 V c t).1 hl).trans ((h _).trans ?_)
  unfold Bridge.unsq
  refine congrArg D ?_
  funext a; apply Fin.ext
  match a with
  | ⟨0, _⟩ => show t.val = win0_2.index t (0 : Fin 3) * 1 + 1 * (j 0).val; omega
  | ⟨1, _⟩ => show (j 2).val = win0_2.index t (2 : Fin 3) * 8192 + 1 * (j 2).val; omega

theorem flushed0_3_of (c : Dev nD) (t : Fin cfg0.N) (D : Cert.Chamfer.SD.Idx → EReal)
    (h : ∀ n : Fin 8192, (outsAt0 V c t).2 (ix3 (0 : Fin 1) (0 : Fin 1) n) = D (ix2 (bOf0 t) n)) :
    (dat0 V c).flushed 3 t = ((cfg0.win 3).blk t).view.read (Elt Ideal) (Bridge.unsq D) := by
  show (cfg0.win 3).cut (grid0.coords t) ((dat0 V c).after 3 t) = _
  rw [after0_3]
  obtain ⟨-, -, -, ⟨e0, e1, e2⟩⟩ := idx0 t
  funext j
  have hj0 : (j 0).val < 1 := (j 0).isLt
  have hj1 : (j 1).val < 1 := (j 1).isLt
  have hj2 : (j 2).val < 8192 := (j 2).isLt
  rw [View.read_apply]
  show (outsAt0 V c t).2 ((cfg0.win 3).xinj (grid0.coords t) j) = Bridge.unsq D (((cfg0.win 3).blk t).view.emb j)
  have hl : (cfg0.win 3).xinj (grid0.coords t) j = ix3 (0 : Fin 1) (0 : Fin 1) (⟨(j 2).val, hj2⟩ : Fin 8192) := by
    funext a; apply Fin.ext
    match a with
    | ⟨0, _⟩ => show (j 0).val = 0; omega
    | ⟨1, _⟩ => show (j 1).val = 0; omega
    | ⟨2, _⟩ => rfl
  refine (congrArg (outsAt0 V c t).2 hl).trans ((h _).trans ?_)
  unfold Bridge.unsq
  refine congrArg D ?_
  funext a; apply Fin.ext
  match a with
  | ⟨0, _⟩ => show t.val = win0_3.index t (0 : Fin 3) * 1 + 1 * (j 0).val; omega
  | ⟨1, _⟩ => show (j 2).val = win0_3.index t (2 : Fin 3) * 8192 + 1 * (j 2).val; omega

/-- So the first output array ends as `D` seen with a unit middle axis: its blocks tile it. -/
theorem final0_2_of (c : Dev nD) (D : Cert.Chamfer.SD.Idx → EReal)
    (h : ∀ (t : Fin cfg0.N) (n : Fin 8192), (outsAt0 V c t).1 (ix3 (0 : Fin 1) (0 : Fin 1) n) = D (ix2 (bOf0 t) n)) :
    (dat0 V c).arrAt 2 cfg0.N = Bridge.unsq D :=
  (dat0 V c).arrAt_eq_of_cover 2 (Bridge.unsq D) (fun t _ => flushed0_2_of V c t D (h t)) cover0_2

theorem final0_3_of (c : Dev nD) (D : Cert.Chamfer.SD.Idx → EReal)
    (h : ∀ (t : Fin cfg0.N) (n : Fin 8192), (outsAt0 V c t).2 (ix3 (0 : Fin 1) (0 : Fin 1) n) = D (ix2 (bOf0 t) n)) :
    (dat0 V c).arrAt 3 cfg0.N = Bridge.unsq D :=
  (dat0 V c).arrAt_eq_of_cover 3 (Bridge.unsq D) (fun t _ => flushed0_3_of V c t D (h t)) cover0_3

/-! ## Region 0: the two output arrays after the region -/

/-- If the region finds `X` in its first input array and `Y`, with its last two axes exchanged, in its second, then after
    the region the first output array holds, for every point of `X`, the least squared distance to a point of `Y`. -/
theorem final0_2 (c : Dev nD) (X Y : Cert.Chamfer.SP.Idx → EReal) (hX : V c main_arg0 = X)
    (hY : ∀ (b : Fin 2) (d : Fin 3) (m : Fin 8192), V c main_v0 (ix3 b d m) = Y (ix3 b m d)) :
    (dat0 V c).arrAt 2 cfg0.N = Bridge.unsq (Cert.Chamfer.rowMin X Y) := by
  refine final0_2_of V c _ fun t n => ?_
  have e := congrFun (Body.out2_eq0 c (grid0.coords t) (ms0_0 t) (hs0_0 t) (ms0_1 t) (hs0_1 t) (ms0_2 t) (hs0_2 t) (ms0_3 t) (hs0_3 t)
      scM0_0 (Memref.isWhole_whole _) (iblk0 V c 0 t) (iblk0 V c 1 t)) (ix3 (0 : Fin 1) (0 : Fin 1) n)
  have v := PointVal.row_value (ms0_1 t) (hs0_1 t) (iblk0 V c 0 t) (iblk0 V c 1 t) X Y (bOf0 t) (xblk0 V c t X hX) (yblk0 V c t Y hY) n
  have w := e.trans v
  unfold outsAt0
  dsimp only
  exact w

/-- … and the second output array, for every point of `Y`, the least squared distance to a point of `X`. -/
theorem final0_3 (c : Dev nD) (X Y : Cert.Chamfer.SP.Idx → EReal) (hX : V c main_arg0 = X)
    (hY : ∀ (b : Fin 2) (d : Fin 3) (m : Fin 8192), V c main_v0 (ix3 b d m) = Y (ix3 b m d)) :
    (dat0 V c).arrAt 3 cfg0.N = Bridge.unsq (Cert.Chamfer.colMin X Y) := by
  refine final0_3_of V c _ fun t n => ?_
  have e := Body.out3_eq0 c (grid0.coords t) (ms0_0 t) (hs0_0 t) (ms0_1 t) (hs0_1 t) (ms0_2 t) (hs0_2 t) (ms0_3 t) (hs0_3 t)
      scM0_0 (Memref.isWhole_whole _) (iblk0 V c 0 t) (iblk0 V c 1 t) (ix3 (0 : Fin 1) (0 : Fin 1) n)
  have v := PointVal.col_value (ms0_1 t) (hs0_1 t) (iblk0 V c 0 t) (iblk0 V c 1 t) X Y (bOf0 t) (xblk0 V c t X hX) (yblk0 V c t Y hY) n
  have w := e.trans v
  unfold outsAt0
  dsimp only
  exact w

/-! ## Region 1: the grid and the index maps -/

/-- The grid has two points. -/
theorem hN1 : cfg1.N = 2 := N_1

/-- The batch a grid point handles: its own number. -/
def bOf1 (t : Fin cfg1.N) : Fin 2 := ⟨t.val, by have := t.isLt; have hN : cfg1.N = 2 := N_1; omega⟩

/-- Every window's block index at point `t` is (t, 0, 0). -/
theorem idx1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

/-! ## Region 1: the input blocks at an index -/

/-- Point `t`'s block of the first input array is batch `t` of it. -/
theorem xblk1 (c : Dev nD) (t : Fin cfg1.N) (X : Cert.Chamfer.SP.Idx → EReal) (hX : V c main_v18 = X) (n : Fin 8192) (d : Fin 3) :
    (iblk1 V c 0 t : Vec Ideal S1x8192x3 .f32) (ix3 (0 : Fin 1) n d) = X (ix3 (bOf1 t) n d) := by
  obtain ⟨⟨e0, e1, e2⟩, -⟩ := idx1 t
  unfold iblk1
  rw [View.read_apply]
  show V c main_v18 _ = _
  rw [hX]
  refine congrArg X ?_
  funext a
  apply Fin.ext
  match a with
  | ⟨0, _⟩ => show win1_0.index t (0 : Fin 3) * 1 + 1 * 0 = t.val; omega
  | ⟨1, _⟩ => show win1_0.index t (1 : Fin 3) * 8192 + 1 * n.val = n.val; omega
  | ⟨2, _⟩ => show win1_0.index t (2 : Fin 3) * 3 + 1 * d.val = d.val; omega

/-- Point `t`'s block of the second input array, which holds \`Y\` with its last two axes exchanged. -/
theorem yblk1 (c : Dev nD) (t : Fin cfg1.N) (Y : Cert.Chamfer.SP.Idx → EReal)
    (hY : ∀ (b : Fin 2) (d : Fin 3) (m : Fin 8192), V c main_v29 (ix3 b d m) = Y (ix3 b m d)) (d : Fin 3) (m : Fin 8192) :
    (iblk1 V c 1 t : Vec Ideal S1x3x8192 .f32) (ix3 (0 : Fin 1) d m) = Y (ix3 (bOf1 t) m d) := by
  obtain ⟨-, ⟨e0, e1, e2⟩, -⟩ := idx1 t
  unfold iblk1
  rw [View.read_apply]
  show V c main_v29 _ = _
  refine Eq.trans (congrArg (V c main_v29) ?_) (hY (bOf1 t) d m)
  funext a
  apply Fin.ext
  match a with
  | ⟨0, _⟩ => show win1_1.index t (0 : Fin 3) * 1 + 1 * 0 = t.val; omega
  | ⟨1, _⟩ => show win1_1.index t (1 : Fin 3) * 3 + 1 * d.val = d.val; omega
  | ⟨2, _⟩ => show win1_1.index t (2 : Fin 3) * 8192 + 1 * m.val = m.val; omega

/-! ## Region 1: the output blocks tile the output arrays -/

/-- An index of the first output array is in point `t`'s block iff each coordinate is in the block's range. -/
theorem mem_blk1_2 (t : Fin cfg1.N) (i : S2x1x8192.Idx) :
    i ∈ ((cfg1.win 2).blk t).view.set ↔ ∀ a : Fin 3, win1_2.index t a * S1x1x8192.size a ≤ (i a).val ∧ (i a).val < win1_2.index t a * S1x1x8192.size a + S1x1x8192.size a := by
  show i ∈ ((View.whole main_v30_0).slice (win1_2.rect t)).set ↔ _
  rw [View.set_slice_whole, Rect.mem_set_unit]
  exact Iff.rfl

theorem mem_blk1_3 (t : Fin cfg1.N) (i : S2x1x8192.Idx) :
    i ∈ ((cfg1.win 3).blk t).view.set ↔ ∀ a : Fin 3, win1_3.index t a * S1x1x8192.size a ≤ (i a).val ∧ (i a).val < win1_3.index t a * S1x1x8192.size a + S1x1x8192.size a := by
  show i ∈ ((View.whole main_v30_1).slice (win1_3.rect t)).set ↔ _
  rw [View.set_slice_whole, Rect.mem_set_unit]
  exact Iff.rfl

/-- The point whose number is an index's batch coordinate. -/
def tOf1 (i : S2x1x8192.Idx) : Fin cfg1.N := ⟨(i 0).val, by have := (i 0).isLt; have hN : cfg1.N = 2 := N_1; have : S2x1x8192.size 0 = 2 := rfl; omega⟩

/-- Every index of the first output array is in the block of the point its batch coordinate names. -/
theorem cover1_2 (i : S2x1x8192.Idx) : ∃ t : Fin cfg1.N, (cfg1.win 2).flush t = true ∧ i ∈ ((cfg1.win 2).blk t).view.set := by
  refine ⟨tOf1 i, flush1_2 _, ?_⟩
  rw [mem_blk1_2]
  obtain ⟨-, -, ⟨e0, e1, e2⟩, -⟩ := idx1 (tOf1 i)
  have h0 : (tOf1 i).val = (i 0).val := rfl
  have h1 : (i 1).val < 1 := (i 1).isLt
  have h2 : (i 2).val < 8192 := (i 2).isLt
  intro a
  match a with
  | ⟨0, _⟩ => show win1_2.index (tOf1 i) (0 : Fin 3) * 1 ≤ (i 0).val ∧ (i 0).val < win1_2.index (tOf1 i) (0 : Fin 3) * 1 + 1; omega
  | ⟨1, _⟩ => show win1_2.index (tOf1 i) (1 : Fin 3) * 1 ≤ (i 1).val ∧ (i 1).val < win1_2.index (tOf1 i) (1 : Fin 3) * 1 + 1; omega
  | ⟨2, _⟩ => show win1_2.index (tOf1 i) (2 : Fin 3) * 8192 ≤ (i 2).val ∧ (i 2).val < win1_2.index (tOf1 i) (2 : Fin 3) * 8192 + 8192; omega

theorem cover1_3 (i : S2x1x8192.Idx) : ∃ t : Fin cfg1.N, (cfg1.win 3).flush t = true ∧ i ∈ ((cfg1.win 3).blk t).view.set := by
  refine ⟨tOf1 i, flush1_3 _, ?_⟩
  rw [mem_blk1_3]
  obtain ⟨-, -, -, ⟨e0, e1, e2⟩⟩ := idx1 (tOf1 i)
  have h0 : (tOf1 i).val = (i 0).val := rfl
  have h1 : (i 1).val < 1 := (i 1).isLt
  have h2 : (i 2).val < 8192 := (i 2).isLt
  intro a
  match a with
  | ⟨0, _⟩ => show win1_3.index (tOf1 i) (0 : Fin 3) * 1 ≤ (i 0).val ∧ (i 0).val < win1_3.index (tOf1 i) (0 : Fin 3) * 1 + 1; omega
  | ⟨1, _⟩ => show win1_3.index (tOf1 i) (1 : Fin 3) * 1 ≤ (i 1).val ∧ (i 1).val < win1_3.index (tOf1 i) (1 : Fin 3) * 1 + 1; omega
  | ⟨2, _⟩ => show win1_3.index (tOf1 i) (2 : Fin 3) * 8192 ≤ (i 2).val ∧ (i 2).val < win1_3.index (tOf1 i) (2 : Fin 3) * 8192 + 8192; omega

/-! ## Region 1: what a point writes back, and the arrays after the region -/

/-- If the body leaves, at point `t`, row `t` of `D` in the first output's staging buffer, the point writes back block
    `t` of `D` seen with a unit middle axis. -/
theorem flushed1_2_of (c : Dev nD) (t : Fin cfg1.N) (D : Cert.Chamfer.SD.Idx → EReal)
    (h : ∀ n : Fin 8192, (outsAt1 V c t).1 (ix3 (0 : Fin 1) (0 : Fin 1) n) = D (ix2 (bOf1 t) n)) :
    (dat1 V c).flushed 2 t = ((cfg1.win 2).blk t).view.read (Elt Ideal) (Bridge.unsq D) := by
  show (cfg1.win 2).cut (grid1.coords t) ((dat1 V c).after 2 t) = _
  rw [after1_2]
  obtain ⟨-, -, ⟨e0, e1, e2⟩, -⟩ := idx1 t
  funext j
  have hj0 : (j 0).val < 1 := (j 0).isLt
  have hj1 : (j 1).val < 1 := (j 1).isLt
  have hj2 : (j 2).val < 8192 := (j 2).isLt
  rw [View.read_apply]
  show (outsAt1 V c t).1 ((cfg1.win 2).xinj (grid1.coords t) j) = Bridge.unsq D (((cfg1.win 2).blk t).view.emb j)
  have hl : (cfg1.win 2).xinj (grid1.coords t) j = ix3 (0 : Fin 1) (0 : Fin 1) (⟨(j 2).val, hj2⟩ : Fin 8192) := by
    funext a; apply Fin.ext
    match a with
    | ⟨0, _⟩ => show (j 0).val = 0; omega
    | ⟨1, _⟩ => show (j 1).val = 0; omega
    | ⟨2, _⟩ => rfl
  refine (congrArg (outsAt1 V c t).1 hl).trans ((h _).trans ?_)
  unfold Bridge.unsq
  refine congrArg D ?_
  funext a; apply Fin.ext
  match a with
  | ⟨0, _⟩ => show t.val = win1_2.index t (0 : Fin 3) * 1 + 1 * (j 0).val; omega
  | ⟨1, _⟩ => show (j 2).val = win1_2.index t (2 : Fin 3) * 8192 + 1 * (j 2).val; omega

theorem flushed1_3_of (c : Dev nD) (t : Fin cfg1.N) (D : Cert.Chamfer.SD.Idx → EReal)
    (h : ∀ n : Fin 8192, (outsAt1 V c t).2 (ix3 (0 : Fin 1) (0 : Fin 1) n) = D (ix2 (bOf1 t) n)) :
    (dat1 V c).flushed 3 t = ((cfg1.win 3).blk t).view.read (Elt Ideal) (Bridge.unsq D) := by
  show (cfg1.win 3).cut (grid1.coords t) ((dat1 V c).after 3 t) = _
  rw [after1_3]
  obtain ⟨-, -, -, ⟨e0, e1, e2⟩⟩ := idx1 t
  funext j
  have hj0 : (j 0).val < 1 := (j 0).isLt
  have hj1 : (j 1).val < 1 := (j 1).isLt
  have hj2 : (j 2).val < 8192 := (j 2).isLt
  rw [View.read_apply]
  show (outsAt1 V c t).2 ((cfg1.win 3).xinj (grid1.coords t) j) = Bridge.unsq D (((cfg1.win 3).blk t).view.emb j)
  have hl : (cfg1.win 3).xinj (grid1.coords t) j = ix3 (0 : Fin 1) (0 : Fin 1) (⟨(j 2).val, hj2⟩ : Fin 8192) := by
    funext a; apply Fin.ext
    match a with
    | ⟨0, _⟩ => show (j 0).val = 0; omega
    | ⟨1, _⟩ => show (j 1).val = 0; omega
    | ⟨2, _⟩ => rfl
  refine (congrArg (outsAt1 V c t).2 hl).trans ((h _).trans ?_)
  unfold Bridge.unsq
  refine congrArg D ?_
  funext a; apply Fin.ext
  match a with
  | ⟨0, _⟩ => show t.val = win1_3.index t (0 : Fin 3) * 1 + 1 * (j 0).val; omega
  | ⟨1, _⟩ => show (j 2).val = win1_3.index t (2 : Fin 3) * 8192 + 1 * (j 2).val; omega

/-- So the first output array ends as `D` seen with a unit middle axis: its blocks tile it. -/
theorem final1_2_of (c : Dev nD) (D : Cert.Chamfer.SD.Idx → EReal)
    (h : ∀ (t : Fin cfg1.N) (n : Fin 8192), (outsAt1 V c t).1 (ix3 (0 : Fin 1) (0 : Fin 1) n) = D (ix2 (bOf1 t) n)) :
    (dat1 V c).arrAt 2 cfg1.N = Bridge.unsq D :=
  (dat1 V c).arrAt_eq_of_cover 2 (Bridge.unsq D) (fun t _ => flushed1_2_of V c t D (h t)) cover1_2

theorem final1_3_of (c : Dev nD) (D : Cert.Chamfer.SD.Idx → EReal)
    (h : ∀ (t : Fin cfg1.N) (n : Fin 8192), (outsAt1 V c t).2 (ix3 (0 : Fin 1) (0 : Fin 1) n) = D (ix2 (bOf1 t) n)) :
    (dat1 V c).arrAt 3 cfg1.N = Bridge.unsq D :=
  (dat1 V c).arrAt_eq_of_cover 3 (Bridge.unsq D) (fun t _ => flushed1_3_of V c t D (h t)) cover1_3

/-! ## Region 1: the two output arrays after the region -/

/-- If the region finds `X` in its first input array and `Y`, with its last two axes exchanged, in its second, then after
    the region the first output array holds, for every point of `X`, the least squared distance to a point of `Y`. -/
theorem final1_2 (c : Dev nD) (X Y : Cert.Chamfer.SP.Idx → EReal) (hX : V c main_v18 = X)
    (hY : ∀ (b : Fin 2) (d : Fin 3) (m : Fin 8192), V c main_v29 (ix3 b d m) = Y (ix3 b m d)) :
    (dat1 V c).arrAt 2 cfg1.N = Bridge.unsq (Cert.Chamfer.rowMin X Y) := by
  refine final1_2_of V c _ fun t n => ?_
  have e := congrFun (Body.out2_eq1 c (grid1.coords t) (ms1_0 t) (hs1_0 t) (ms1_1 t) (hs1_1 t) (ms1_2 t) (hs1_2 t) (ms1_3 t) (hs1_3 t)
      scM1_0 (Memref.isWhole_whole _) (iblk1 V c 0 t) (iblk1 V c 1 t)) (ix3 (0 : Fin 1) (0 : Fin 1) n)
  have v := PointVal.row_value' (ms1_1 t) (hs1_1 t) (iblk1 V c 0 t) (iblk1 V c 1 t) X Y (bOf1 t) (xblk1 V c t X hX) (yblk1 V c t Y hY) n
  have w := e.trans v
  unfold outsAt1
  dsimp only
  exact w

/-- … and the second output array, for every point of `Y`, the least squared distance to a point of `X`. -/
theorem final1_3 (c : Dev nD) (X Y : Cert.Chamfer.SP.Idx → EReal) (hX : V c main_v18 = X)
    (hY : ∀ (b : Fin 2) (d : Fin 3) (m : Fin 8192), V c main_v29 (ix3 b d m) = Y (ix3 b m d)) :
    (dat1 V c).arrAt 3 cfg1.N = Bridge.unsq (Cert.Chamfer.colMin X Y) := by
  refine final1_3_of V c _ fun t n => ?_
  have e := Body.out3_eq1 c (grid1.coords t) (ms1_0 t) (hs1_0 t) (ms1_1 t) (hs1_1 t) (ms1_2 t) (hs1_2 t) (ms1_3 t) (hs1_3 t)
      scM1_0 (Memref.isWhole_whole _) (iblk1 V c 0 t) (iblk1 V c 1 t) (ix3 (0 : Fin 1) (0 : Fin 1) n)
  have v := PointVal.col_value' (ms1_1 t) (hs1_1 t) (iblk1 V c 0 t) (iblk1 V c 1 t) X Y (bOf1 t) (xblk1 V c t X hX) (yblk1 V c t Y hY) n
  have w := e.trans v
  unfold outsAt1
  dsimp only
  exact w

end Cert.KernelIdeal.Blocks
end
-- ==== Proof.KernelValue.lean ====
/-
  The value the kernel program returns.

  The result buffer is the sum of two sums of means: of the second region's two output arrays and of the first
  region's. The first region finds the first cloud in its first input and the second cloud, last two axes exchanged, in
  its second, so its outputs are the row and column minima of squared distances between the two clouds. The second
  region finds the grid coordinates of the two clouds in the same arrangement, so its outputs are the minima for the
  grid coordinates. Read with the unit middle axis removed, the sums of means are the specification's, and the result
  is the specification's value of the four minimum arrays.
-/
import proofs.«144590_j13589276525289_2_alg».proof.Proof.KHostW
import proofs.«144590_j13589276525289_2_alg».proof.Proof.Blocks
import proofs.«144590_j13589276525289_2_alg».proof.Proof.Bridge

noncomputable section

namespace Cert.KernelIdeal.KernelValue

open Cert.KernelIdeal Cert.KernelIdeal.Gen Cert.KernelIdeal.GenP
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first region's inputs: the first cloud, and the second cloud read at exchanged last axes. -/
theorem in0_x (c : Dev nD) : V1 m ρ c main_arg0 = m ((c.tc : Thread nD τ).loc main_arg0) := KHost.V1_arg0 m ρ c
theorem in0_y (c : Dev nD) (b : Fin 2) (d : Fin 3) (k : Fin 8192) :
    V1 m ρ c main_v0 (ix3 b d k) = m ((c.tc : Thread nD τ).loc main_arg1) (ix3 b k d) :=
  (congrFun (KHost.V1_v0 m ρ c) _).trans (Bridge.swapped_apply _ b d k)

/-- The second region's inputs: the same of the two clouds' grid coordinates. -/
theorem in1_x (c : Dev nD) : V7 m ρ c main_v18 = Cert.Chamfer.vox (m ((c.tc : Thread nD τ).loc main_arg0)) :=
  (KHost.V7_v18 m ρ c).trans (Bridge.vox_eq _)
theorem in1_y (c : Dev nD) (b : Fin 2) (d : Fin 3) (k : Fin 8192) :
    V7 m ρ c main_v29 (ix3 b d k) = Cert.Chamfer.vox (m ((c.tc : Thread nD τ).loc main_arg1)) (ix3 b k d) :=
  (congrFun (KHost.V7_v29 m ρ c) _).trans ((Bridge.swapped_apply _ b d k).trans (congrFun (Bridge.vox_eq _) _))

/-- The result buffer after the run, as the specification's function of the two argument arrays. -/
theorem result (c : Dev nD) :
    W9 m ρ c (Proc.devRef .tc main_v38)
      = Cert.Chamfer.loss
          (Cert.Chamfer.rowMin (Cert.Chamfer.vox (m ((c.tc : Thread nD τ).loc main_arg0))) (Cert.Chamfer.vox (m ((c.tc : Thread nD τ).loc main_arg1))))
          (Cert.Chamfer.colMin (Cert.Chamfer.vox (m ((c.tc : Thread nD τ).loc main_arg0))) (Cert.Chamfer.vox (m ((c.tc : Thread nD τ).loc main_arg1))))
          (Cert.Chamfer.rowMin (m ((c.tc : Thread nD τ).loc main_arg0)) (m ((c.tc : Thread nD τ).loc main_arg1)))
          (Cert.Chamfer.colMin (m ((c.tc : Thread nD τ).loc main_arg0)) (m ((c.tc : Thread nD τ).loc main_arg1))) := by
  rw [KHost.W9_result',
    Blocks.final1_2 (V7 m ρ) c _ _ (in1_x m ρ c) (in1_y m ρ c), Blocks.final1_3 (V7 m ρ) c _ _ (in1_x m ρ c) (in1_y m ρ c),
    Blocks.final0_2 (V1 m ρ) c _ _ (in0_x m ρ c) (in0_y m ρ c), Blocks.final0_3 (V1 m ρ) c _ _ (in0_x m ρ c) (in0_y m ρ c)]
  exact Bridge.kernel_loss _ _

end Cert.KernelIdeal.KernelValue
end
-- ==== Proof.Algebra.lean ====
/-
  The algebra behind the reference's squared distance, over the extended reals.

  For two points with real coordinates a = (a0, a1, a2) and b = (b0, b1, b2):
      (0 + Σ a_k²) + (0 + Σ b_k²) − 2 · Σ a_k b_k  =  Σ (a_k − b_k)²,
  the expansion of the square. Over the extended reals this identity needs every coordinate to be a real number
  (∞ − ∞ is not cancelled there), so each lemma asks for real witnesses, moves to ℝ through the coercion, and closes
  with commutative-ring arithmetic in ℝ.
-/
import Idealize.ShloMosaic.PureOps.Ideal
import Idealize.ShloMosaic.PureOps.Ideal.Laws
import Idealize.ShloMosaic.Lib.ValueIdx

noncomputable section

namespace Cert.RefAlgebra

open Idealize.ShloMosaic

/-- The f32 word of `2.0` denotes the real number `2`. -/
theorem ofBits_two : Ideal.ofBits .f32 0x40000000#32 = ((2 : ℝ) : EReal) := by
  simp [Ideal.ofBits, Ideal.ieee, -EReal.coe_mul]; norm_num

/-- The expansion of the square, for real coordinates read in the extended reals. -/
theorem expand_coe (a0 a1 a2 b0 b1 b2 : ℝ) :
    ((0 : EReal) + ((a0 : EReal) * a0 + (a1 : EReal) * a1 + (a2 : EReal) * a2))
        + ((0 : EReal) + ((b0 : EReal) * b0 + (b1 : EReal) * b1 + (b2 : EReal) * b2))
        - ((2 : ℝ) : EReal) * ((a0 : EReal) * b0 + (a1 : EReal) * b1 + (a2 : EReal) * b2)
      = ((a0 : EReal) - b0) * ((a0 : EReal) - b0) + ((a1 : EReal) - b1) * ((a1 : EReal) - b1)
          + ((a2 : EReal) - b2) * ((a2 : EReal) - b2) := by
  rw [zero_add, zero_add]
  simp only [← EReal.coe_mul, ← EReal.coe_add, ← EReal.coe_sub]
  exact congrArg _ (by ring)

/-- The same for two triples of extended reals each of whose entries is a real number, with the sums over the three
    coordinates written as sums over `Fin 3` and the two literals named. -/
theorem expand (z two : EReal) (hz : z = 0) (h2 : two = ((2 : ℝ) : EReal)) (f g : Fin 3 → EReal)
    (hf : ∀ k, ∃ r : ℝ, f k = (r : EReal)) (hg : ∀ k, ∃ r : ℝ, g k = (r : EReal)) :
    (z + ∑ k : Fin 3, f k * f k) + (z + ∑ k : Fin 3, g k * g k) - two * ∑ k : Fin 3, f k * g k
      = (f 0 - g 0) * (f 0 - g 0) + (f 1 - g 1) * (f 1 - g 1) + (f 2 - g 2) * (f 2 - g 2) := by
  obtain ⟨a0, ha0⟩ := hf 0
  obtain ⟨a1, ha1⟩ := hf 1
  obtain ⟨a2, ha2⟩ := hf 2
  obtain ⟨b0, hb0⟩ := hg 0
  obtain ⟨b1, hb1⟩ := hg 1
  obtain ⟨b2, hb2⟩ := hg 2
  rw [Fin.sum_univ_three, Fin.sum_univ_three, Fin.sum_univ_three, hz, h2, ha0, ha1, ha2, hb0, hb1, hb2]
  exact expand_coe a0 a1 a2 b0 b1 b2

end Cert.RefAlgebra

end
-- ==== Proof.RefChamfer.lean ====
/-
  The reference program's four minimum arrays are the specification's.

  The reference computes, for clouds X and Y, the array P[b,n,m] = (xx[b,n] + yy[b,m]) − 2·zz[b,n,m], where
  xx[b,n] = 0 + Σ_d X[b,n,d]², yy[b,m] = 0 + Σ_d Y[b,m,d]² and zz[b,n,m] = Σ_d X[b,n,d]·Y[b,m,d], and then folds
  `min` from +∞ along m (one value per point of X) and along n (one value per point of Y). When every entry of X and Y
  is a real number, P[b,n,m] is the squared distance Σ_d (X[b,n,d] − Y[b,m,d])² (the expansion of the square, proved
  in the algebra module), so the two folds are the specification's `rowMin` and `colMin`. The program does this twice:
  on its two arguments, and on the two voxelised clouds, each entry of which is an integer converted to a float and so
  a real number whatever the arguments are.

  Each stage of the generated reading module is read at an index built from its coordinates; the broadcasts,
  the per-point sums and the contraction then all land on indices of the form (b, n, d) or (b, m, d).
-/
import proofs.«144590_j13589276525289_2_alg».proof.Proof.Gen.ReferenceIdeal.Read
import proofs.«144590_j13589276525289_2_alg».proof.Proof.Spec
import proofs.«144590_j13589276525289_2_alg».proof.Proof.Algebra
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-! ## The pointwise identity -/

/-- For clouds `A`, `B` with real entries: the reference's expression at (b, n, m), with its two literals named, is
    the squared distance between point `n` of `A` and point `m` of `B` in batch `b`. -/
theorem sq_expand (A B : Cert.Chamfer.SP.Idx → EReal) (hA : Cert.Chamfer.AllReal A) (hB : Cert.Chamfer.AllReal B)
    (z two : EReal) (hz : z = 0) (h2 : two = ((2 : ℝ) : EReal)) (b : Fin 2) (n m : Fin 8192) :
    (z + ∑ k : Fin 3, A (ix3 b n k) * A (ix3 b n k)) + (z + ∑ k : Fin 3, B (ix3 b m k) * B (ix3 b m k))
        - two * ∑ k : Fin 3, A (ix3 b n k) * B (ix3 b m k)
      = Cert.Chamfer.sqd A B b n m :=
  Cert.RefAlgebra.expand z two hz h2 (fun k => A (ix3 b n k)) (fun k => B (ix3 b m k))
    (fun k => hA (ix3 b n k)) (fun k => hB (ix3 b m k))

/-! ## The two minimum folds read at an index -/

theorem red2 : S2x8192x8192.Reduces [2] S2x8192 := by decide
theorem red1 : S2x8192x8192.Reduces [1] S2x8192 := by decide

/-- Inserting coordinate `m` on the last axis of (b, n) gives (b, n, m). -/
theorem lift2 (j : S2x8192.Idx) (m : Fin 8192) :
    red2.lift j m = ix3 (⟨(j 0).val, (j 0).isLt⟩ : Fin 2) (⟨(j 1).val, (j 1).isLt⟩ : Fin 8192) m := by
  funext c
  match c with
  | ⟨0, _⟩ => rfl
  | ⟨1, _⟩ => rfl
  | ⟨2, _⟩ => rfl

/-- Inserting coordinate `n` on the middle axis of (b, m) gives (b, n, m). -/
theorem lift1 (j : S2x8192.Idx) (n : Fin 8192) :
    red1.lift j n = ix3 (⟨(j 0).val, (j 0).isLt⟩ : Fin 2) n (⟨(j 1).val, (j 1).isLt⟩ : Fin 8192) := by
  funext c
  match c with
  | ⟨0, _⟩ => rfl
  | ⟨1, _⟩ => rfl
  | ⟨2, _⟩ => rfl

/-- A `min`-reduce along the last axis, at (b, n): the fold of `min` over `m` of the operand at (b, n, m). -/
theorem reduce_d2 (P : S2x8192x8192.Idx → EReal) (init : S_.Idx → EReal) (j : S2x8192.Idx) :
    Host.reduce (FloatOps.minimumf (F := Ideal) (φ := .f32)) P init reducesTo_S2x8192x8192_S2x8192_d2 h_S_ j
      = (Finset.univ : Finset (Fin 8192)).fold min (init (Shape.Idx.first h_S_))
          (fun m => P (ix3 (⟨(j 0).val, (j 0).isLt⟩ : Fin 2) (⟨(j 1).val, (j 1).isLt⟩ : Fin 8192) m)) := by
  rw [Host.reduce_eq_fold_single _ P init reducesTo_S2x8192x8192_S2x8192_d2 red2 h_S_ j]
  refine Finset.fold_congr fun m _ => ?_
  exact congrArg P (lift2 j m)

/-- A `min`-reduce along the middle axis, at (b, m): the fold of `min` over `n` of the operand at (b, n, m). -/
theorem reduce_d1 (P : S2x8192x8192.Idx → EReal) (init : S_.Idx → EReal) (j : S2x8192.Idx) :
    Host.reduce (FloatOps.minimumf (F := Ideal) (φ := .f32)) P init reducesTo_S2x8192x8192_S2x8192_d1 h_S_ j
      = (Finset.univ : Finset (Fin 8192)).fold min (init (Shape.Idx.first h_S_))
          (fun n => P (ix3 (⟨(j 0).val, (j 0).isLt⟩ : Fin 2) n (⟨(j 1).val, (j 1).isLt⟩ : Fin 8192))) := by
  rw [Host.reduce_eq_fold_single _ P init reducesTo_S2x8192x8192_S2x8192_d1 red1 h_S_ j]
  refine Finset.fold_congr fun n _ => ?_
  exact congrArg P (lift1 j n)

/-! ## The first pass: on the program's two arguments -/

/-- The reference's P at (b, n, m), on arguments with real entries, is the squared distance. -/
theorem v12_at (x0 x1 : (⟨S2x8192x3, .f32⟩ : BufTy).Contents (Elt Ideal))
    (h0 : Cert.Chamfer.AllReal x0) (h1 : Cert.Chamfer.AllReal x1) (b : Fin 2) (n m : Fin 8192) :
    val_main_v12 (F := Ideal) x0 x1 (ix3 b n m) = Cert.Chamfer.sqd x0 x1 b n m := by
  have e0 : ∀ k : Fin 3, idx_main_v1 (idx_main_v5 (idx_main_v7 (ix3 b n m))) k = ix3 b n k := fun k =>
    funext fun a => by match a with | ⟨0, _⟩ => rfl | ⟨1, _⟩ => rfl | ⟨2, _⟩ => rfl
  have e1 : ∀ k : Fin 3, idx_main_v3 (idx_main_v6 (idx_main_v8 (ix3 b n m))) k = ix3 b m k := fun k =>
    funext fun a => by match a with | ⟨0, _⟩ => rfl | ⟨1, _⟩ => rfl | ⟨2, _⟩ => rfl
  have el : ∀ k : Fin 3, lidx_main_v4 (ix3 b n m) k = ix3 b n k := fun k =>
    funext fun a => by match a with | ⟨0, _⟩ => rfl | ⟨1, _⟩ => rfl | ⟨2, _⟩ => rfl
  have er : ∀ k : Fin 3, ridx_main_v4 (ix3 b n m) k = ix3 b m k := fun k =>
    funext fun a => by match a with | ⟨0, _⟩ => rfl | ⟨1, _⟩ => rfl | ⟨2, _⟩ => rfl
  rw [val_main_v12_apply, val_main_v9_apply, val_main_v11_apply, val_main_v7_apply, val_main_v8_apply,
    val_main_v5_apply, val_main_v6_apply, val_main_v1_apply, val_main_v3_apply, val_main_v10_apply,
    val_main_cst_1_apply, val_main_v4_apply, val_main_cst_apply, val_main_cst_0_apply]
  simp only [val_main_v0_apply, val_main_v2_apply, Ideal.mulf_def, Ideal.addf_def, Ideal.subf_def, Ideal.ofBits_def,
    e0, e1, el, er]
  exact sq_expand x0 x1 h0 h1 _ _ Ideal.ofBits_zero_f32 Cert.RefAlgebra.ofBits_two b n m

/-- The reference's first `min` along `m` is the specification's `rowMin`. -/
theorem ref_row (x0 x1 : (⟨S2x8192x3, .f32⟩ : BufTy).Contents (Elt Ideal))
    (h0 : Cert.Chamfer.AllReal x0) (h1 : Cert.Chamfer.AllReal x1) :
    val_main_v13 (F := Ideal) x0 x1 = Cert.Chamfer.rowMin x0 x1 := by
  funext j
  unfold val_main_v13 Cert.Chamfer.rowMin
  rw [reduce_d2]
  exact Finset.fold_congr fun m _ => v12_at x0 x1 h0 h1 _ _ m

/-- The reference's first `min` along `n` is the specification's `colMin`. -/
theorem ref_col (x0 x1 : (⟨S2x8192x3, .f32⟩ : BufTy).Contents (Elt Ideal))
    (h0 : Cert.Chamfer.AllReal x0) (h1 : Cert.Chamfer.AllReal x1) :
    val_main_v14 (F := Ideal) x0 x1 = Cert.Chamfer.colMin x0 x1 := by
  funext j
  unfold val_main_v14 Cert.Chamfer.colMin
  rw [reduce_d1]
  exact Finset.fold_congr fun n _ => v12_at x0 x1 h0 h1 _ n _

/-! ## The voxelised clouds have real entries -/

/-- Each entry of the first voxelised cloud is a signed 32-bit integer converted to a float: a real number. -/
theorem vox_real0 (x0 : (⟨S2x8192x3, .f32⟩ : BufTy).Contents (Elt Ideal)) :
    Cert.Chamfer.AllReal (val_main_v29 (F := Ideal) x0) := fun i =>
  ⟨((val_main_v28 (F := Ideal) x0 i).toInt : ℝ), rfl⟩

/-- Likewise the second. -/
theorem vox_real1 (x1 : (⟨S2x8192x3, .f32⟩ : BufTy).Contents (Elt Ideal)) :
    Cert.Chamfer.AllReal (val_main_v39 (F := Ideal) x1) := fun i =>
  ⟨((val_main_v38 (F := Ideal) x1 i).toInt : ℝ), rfl⟩

/-! ## The second pass: on the voxelised clouds -/

/-- The reference's second P at (b, n, m) is the squared distance between the voxelised points. -/
theorem v52_at (x0 x1 : (⟨S2x8192x3, .f32⟩ : BufTy).Contents (Elt Ideal)) (b : Fin 2) (n m : Fin 8192) :
    val_main_v52 (F := Ideal) x0 x1 (ix3 b n m)
      = Cert.Chamfer.sqd (val_main_v29 (F := Ideal) x0) (val_main_v39 (F := Ideal) x1) b n m := by
  have e0 : ∀ k : Fin 3, idx_main_v41 (idx_main_v45 (idx_main_v47 (ix3 b n m))) k = ix3 b n k := fun k =>
    funext fun a => by match a with | ⟨0, _⟩ => rfl | ⟨1, _⟩ => rfl | ⟨2, _⟩ => rfl
  have e1 : ∀ k : Fin 3, idx_main_v43 (idx_main_v46 (idx_main_v48 (ix3 b n m))) k = ix3 b m k := fun k =>
    funext fun a => by match a with | ⟨0, _⟩ => rfl | ⟨1, _⟩ => rfl | ⟨2, _⟩ => rfl
  have el : ∀ k : Fin 3, lidx_main_v44 (ix3 b n m) k = ix3 b n k := fun k =>
    funext fun a => by match a with | ⟨0, _⟩ => rfl | ⟨1, _⟩ => rfl | ⟨2, _⟩ => rfl
  have er : ∀ k : Fin 3, ridx_main_v44 (ix3 b n m) k = ix3 b m k := fun k =>
    funext fun a => by match a with | ⟨0, _⟩ => rfl | ⟨1, _⟩ => rfl | ⟨2, _⟩ => rfl
  rw [val_main_v52_apply, val_main_v49_apply, val_main_v51_apply, val_main_v47_apply, val_main_v48_apply,
    val_main_v45_apply, val_main_v46_apply, val_main_v41_apply, val_main_v43_apply, val_main_v50_apply,
    val_main_cst_16_apply, val_main_v44_apply, val_main_cst_14_apply, val_main_cst_15_apply]
  simp only [val_main_v40_apply, val_main_v42_apply, Ideal.mulf_def, Ideal.addf_def, Ideal.subf_def, Ideal.ofBits_def,
    e0, e1, el, er]
  exact sq_expand (val_main_v29 (F := Ideal) x0) (val_main_v39 (F := Ideal) x1) (vox_real0 x0) (vox_real1 x1) _ _
    Ideal.ofBits_zero_f32 Cert.RefAlgebra.ofBits_two b n m

/-- The reference's second `min` along `m` is `rowMin` of the voxelised clouds. -/
theorem ref_rowv (x0 x1 : (⟨S2x8192x3, .f32⟩ : BufTy).Contents (Elt Ideal)) :
    val_main_v53 (F := Ideal) x0 x1
      = Cert.Chamfer.rowMin (val_main_v29 (F := Ideal) x0) (val_main_v39 (F := Ideal) x1) := by
  funext j
  unfold val_main_v53 Cert.Chamfer.rowMin
  rw [reduce_d2]
  exact Finset.fold_congr fun m _ => v52_at x0 x1 _ _ m

/-- The reference's second `min` along `n` is `colMin` of the voxelised clouds. -/
theorem ref_colv (x0 x1 : (⟨S2x8192x3, .f32⟩ : BufTy).Contents (Elt Ideal)) :
    val_main_v54 (F := Ideal) x0 x1
      = Cert.Chamfer.colMin (val_main_v29 (F := Ideal) x0) (val_main_v39 (F := Ideal) x1) := by
  funext j
  unfold val_main_v54 Cert.Chamfer.colMin
  rw [reduce_d1]
  exact Finset.fold_congr fun n _ => v52_at x0 x1 _ n _

end Cert.ReferenceIdeal.RefValue

end
-- ==== Proof.RefResult.lean ====
/-
  The reference's result in terms of the specification.

  The reference's voxelised clouds are `vox` of its two arguments, and its result is `loss` of the four minimum
  arrays: the two of the voxelised pass and the two of the raw pass, each of which is the specification's `rowMin`
  or `colMin` once the raw arguments have real entries.
-/
import proofs.«144590_j13589276525289_2_alg».proof.Proof.RefChamfer
import proofs.«144590_j13589276525289_2_alg».proof.Proof.Tail

noncomputable section

namespace Cert.ReferenceIdeal.RefValue

open Cert.ReferenceIdeal Cert.ReferenceIdeal.Gen Cert.ReferenceIdeal.Read Idealize.ShloMosaic

/-- The reference's first voxelised cloud is `vox` of its first argument: the same operations in the same order. -/
theorem vox0_eq (x0 : (⟨S2x8192x3, .f32⟩ : BufTy).Contents (Elt Ideal)) :
    val_main_v29 (F := Ideal) x0 = Cert.Chamfer.vox x0 := by
  unfold val_main_v29 val_main_v28 val_main_v27 val_main_v26 val_main_v25 val_main_v24 val_main_v23 val_main_v22
    val_main_v21 val_main_v20 val_main_call0_v1 val_main_call0_v0 val_main_cst_8 val_main_cst_9 val_main_cst_10
    Cert.Chamfer.vox Cert.Chamfer.masked
  rfl

/-- The reference's second voxelised cloud is `vox` of its second argument. -/
theorem vox1_eq (x1 : (⟨S2x8192x3, .f32⟩ : BufTy).Contents (Elt Ideal)) :
    val_main_v39 (F := Ideal) x1 = Cert.Chamfer.vox x1 := by
  unfold val_main_v39 val_main_v38 val_main_v37 val_main_v36 val_main_v35 val_main_v34 val_main_v33 val_main_v32
    val_main_v31 val_main_v30 val_main_call1_v1 val_main_call1_v0 val_main_cst_11 val_main_cst_12 val_main_cst_13
    Cert.Chamfer.vox Cert.Chamfer.masked
  rfl

/-- The reference's result, on arguments with real entries, is `loss` of the specification's four minimum arrays. -/
theorem ref_result (x0 x1 : (⟨S2x8192x3, .f32⟩ : BufTy).Contents (Elt Ideal))
    (h0 : Cert.Chamfer.AllReal x0) (h1 : Cert.Chamfer.AllReal x1) :
    val_main_v60 (F := Ideal) x0 x1
      = Cert.Chamfer.loss
          (Cert.Chamfer.rowMin (Cert.Chamfer.vox x0) (Cert.Chamfer.vox x1))
          (Cert.Chamfer.colMin (Cert.Chamfer.vox x0) (Cert.Chamfer.vox x1))
          (Cert.Chamfer.rowMin x0 x1) (Cert.Chamfer.colMin x0 x1) := by
  unfold val_main_v60 val_main_v59 val_main_v58 val_main_v57 val_main_v56 val_main_v55 val_main_v19 val_main_v18
    val_main_v17 val_main_v16 val_main_v15
  rw [ref_rowv, ref_colv, ref_row x0 x1 h0 h1, ref_col x0 x1 h0 h1, vox0_eq, vox1_eq]
  unfold Cert.Chamfer.loss Cert.Chamfer.mean2 Cert.Chamfer.mean1
    val_main_cst_4 val_main_cst_5 val_main_cst_6 val_main_cst_7 val_main_cst_19 val_main_cst_20 val_main_cst_21
    val_main_cst_22
  rfl

end Cert.ReferenceIdeal.RefValue

end
-- ==== Proof.Finite.lean ====
/-
  The precondition read back: every entry of both point clouds is a real number.

  The precondition says that the conjunction of two "all entries satisfy |v| < +∞" tests is true.
  A conjunction of two bits is 1 only when both are; an "and"-reduction over every axis that came
  out 1 met a 1 at every index; and an extended real v with max v (-v) < ⊤ is neither ⊤ nor ⊥
  (for either of those the maximum is ⊤), so it is the image of a real number.
-/
import proofs.«144590_j13589276525289_2_alg».proof.Pre_finite_inputs
import proofs.«144590_j13589276525289_2_alg».proof.Proof.Spec
import Idealize.ShloMosaic.Lib.ReduceAll
import Idealize.ShloMosaic.Lib.ValueIdx
import Idealize.ShloMosaic.PureOps.Ideal

noncomputable section

namespace Cert.Chamfer.Finite

open Idealize.ShloMosaic Idealize.ShloMosaic.ValueIdx

/-- The scalar shape has exactly one index. -/
instance : Subsingleton Cert.Pre_finite_inputs.S_.Idx := ⟨fun a b => funext fun d => d.elim0⟩

/-- The f32 word of +∞ denotes the top of the extended reals. -/
theorem inf_eq_top : Ideal.ofBits .f32 0x7F800000#32 = (⊤ : EReal) := by
  simp [Ideal.ofBits, Ideal.ieee]

/-- An extended real whose absolute value `max v (-v)` compares strictly below +∞ is a real number:
    at `⊤` the maximum is `⊤`, at `⊥` it is `-⊥ = ⊤`, and `⊤ < ⊤` is false. -/
theorem real_of_abs_lt (v : EReal)
    (h : Ideal.cmp .olt (max v (-v)) (Ideal.ofBits .f32 0x7F800000#32) = 1#1) : ∃ r : ℝ, v = (r : EReal) := by
  rw [inf_eq_top] at h
  induction v using EReal.rec with
  | bot => simp [Ideal.cmp] at h
  | coe r => exact ⟨r, rfl⟩
  | top => simp [Ideal.cmp] at h

variable [Cert.Pre_finite_inputs.Facts]

/-- If the precondition evaluates to true on `x` and `y`, every entry of `x` and of `y` is real. -/
theorem allReal_of_pre
    (x y : (⟨Cert.Pre_finite_inputs.S2x8192x3, .f32⟩ : BufTy).Contents (Elt Ideal))
    (h : Cert.Pre_finite_inputs.fn (F := Ideal) x y = (fun _ => 1#1)) :
    Cert.Chamfer.AllReal x ∧ Cert.Chamfer.AllReal y := by
  have e := congrFun h ix0
  dsimp only [Cert.Pre_finite_inputs.fn] at e
  obtain ⟨ex, ey⟩ := IntOp.andi_eq_one.1 e
  refine ⟨fun i => ?_, fun i => ?_⟩
  · exact real_of_abs_lt (x i) (Host.reduce_andi_all _ _ _ _ _ ex i)
  · exact real_of_abs_lt (y i) (Host.reduce_andi_all _ _ _ _ _ ey i)

end Cert.Chamfer.Finite

end
-- ==== Proof.lean ====
/-
  Two clouds of 8192 points in three coordinates, in two batches. Both programs compute the same scalar: the sum of
  the four means of nearest-neighbour squared distances — from each point of the first cloud to the second cloud
  and back — once on the clouds as given and once on the clouds moved to an integer grid (each coordinate minus
  the batch's least value of that coordinate, divided by the grid step, truncated to an integer).

  The kernel takes a squared distance as the sum of the three squared coordinate differences, and its minima tile
  by tile: for one batch it folds 64 tiles of 128 columns into an elementwise running minimum, takes each tile's
  column minima on the way, and takes one minimum over the 128 lanes at the end. The reference expands the square,
  |x|² + |y|² − 2·x·y, over all 8192 × 8192 pairs and takes the two minima of that array. Over the extended reals
  the two squared distances agree when every coordinate is a real number: that is where finiteness of the inputs
  is used (the grid coordinates are integers, hence real, whatever the inputs). A minimum does not depend on how
  its index set is grouped, so the kernel's tiled minima are the reference's. The grid step, the means and the final
  sums are the same operations of the same values in both programs and are never opened.

  Idealizing leaves the kernel's text as it is, so that claim holds outright. That each of the three programs runs —
  terminates, does not fault, leaves its arguments unchanged — is its frame certificate, cited here and not proved
  again; the reference's is its run with the result dropped.
-/
import proofs.«144590_j13589276525289_2_alg».proof.Defs
import proofs.«144590_j13589276525289_2_alg».proof.Proof.Gen.Kernel
import proofs.«144590_j13589276525289_2_alg».proof.Proof.Gen.KernelIdeal
import proofs.«144590_j13589276525289_2_alg».proof.Proof.Gen.ReferenceIdeal
import proofs.«144590_j13589276525289_2_alg».proof.Proof.Gen.Pre_finite_inputs
import proofs.«144590_j13589276525289_2_alg».proof.Proof.Gen.ReferenceIdeal.Run
import proofs.«144590_j13589276525289_2_alg».proof.Proof.Gen.ReferenceIdeal.Read
import proofs.«144590_j13589276525289_2_alg».proof.Proof.FrameK
import proofs.«144590_j13589276525289_2_alg».proof.Proof.FrameI
import proofs.«144590_j13589276525289_2_alg».proof.Proof.KRun
import proofs.«144590_j13589276525289_2_alg».proof.Proof.KernelValue
import proofs.«144590_j13589276525289_2_alg».proof.Proof.RefResult
import proofs.«144590_j13589276525289_2_alg».proof.Proof.Finite
import Idealize.ShloMosaic.Adequacy
import Idealize.ShloMosaic.Init

noncomputable section

namespace Cert.Proof

open Idealize.ShloMosaic Idealize.SL.Sem

/-- The kernel program as printed runs and leaves its arguments alone. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Idealizing rewrote nothing. -/
theorem preserves : Cert.preserves_Kernel_KernelIdeal := trivial

/-- Both idealized programs end with the same scalar: the four means of nearest-neighbour squared distances of the
    clouds and of their grid coordinates, summed. The kernel's side holds for any inputs; the reference's expanded
    squares are the kernel's squared differences because every input coordinate is a real number. -/
theorem algebraic : Cert.algebraic_KernelIdeal_ReferenceIdeal := by
  intro m ρ m' ρ' hpre hagree
  refine ⟨fun c => Cert.Chamfer.loss
      (Cert.Chamfer.rowMin (Cert.Chamfer.vox (m ((c.tc : Thread Cert.KernelIdeal.nD Cert.KernelIdeal.τ).loc Cert.KernelIdeal.main_arg0)))
        (Cert.Chamfer.vox (m ((c.tc : Thread Cert.KernelIdeal.nD Cert.KernelIdeal.τ).loc Cert.KernelIdeal.main_arg1))))
      (Cert.Chamfer.colMin (Cert.Chamfer.vox (m ((c.tc : Thread Cert.KernelIdeal.nD Cert.KernelIdeal.τ).loc Cert.KernelIdeal.main_arg0)))
        (Cert.Chamfer.vox (m ((c.tc : Thread Cert.KernelIdeal.nD Cert.KernelIdeal.τ).loc Cert.KernelIdeal.main_arg1))))
      (Cert.Chamfer.rowMin (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.Chamfer.colMin (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.KernelIdeal.KernelValue.result m ρ c), (h c).2.1, (h c).2.2⟩)
      (Cert.KernelIdeal.KRun.run (F := Ideal) m ρ)
  · refine (θ_run Cert.ReferenceIdeal.defs _ _).mono (fun r h c => ⟨(h c).1.trans ?_, (h c).2.1, (h c).2.2⟩)
      (Cert.ReferenceIdeal.Value.run (F := Ideal) m' ρ')
    obtain ⟨h0, h1⟩ := Cert.Chamfer.Finite.allReal_of_pre _ _ (hpre c)
    rw [Cert.ReferenceIdeal.Read.val_main_v60_eq, (hagree c).1, (hagree c).2]
    exact Cert.ReferenceIdeal.RefValue.ref_result _ _ h0 h1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
